-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64 .f32) (main_arg11 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128x64 .f32) (main_arg6 : FVec F S32x64 .f32) (main_arg7 : FVec F S64 .f32) (main_arg8 : FVec F S128x64 .f32) (main_arg9 : FVec F S64 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S1600000x32 .f32) (main_arg3 : FVec F S128x64 .f32) (main_arg4 : FVec F S64 .f32) (main_arg5 : FVec F S128x64 .f32) (main_arg6 : FVec F S32x64 .f32) (main_arg7 : FVec F S64 .f32) (main_arg8 : FVec F S128x64 .f32) (main_arg9 : FVec F S64 .f32) (main_arg10 : FVec F S64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S1x1600000 : Shape := ⟨2, ![1, 1600000]⟩
abbrev S1600000 : Shape := ⟨1, ![1600000]⟩
abbrev S128x128 : Shape := ⟨2, ![128, 128]⟩
abbrev S5000x128 : Shape := ⟨2, ![5000, 128]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩
abbrev S5000x1 : Shape := ⟨2, ![5000, 1]⟩
abbrev S64x64 : Shape := ⟨2, ![64, 64]⟩
abbrev S8000x32 : Shape := ⟨2, ![8000, 32]⟩
abbrev S8000x64 : Shape := ⟨2, ![8000, 64]⟩

abbrev nBuf : Space → Nat
  | .hbm => 85
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S32x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S128x128, .f32⟩
  | .hbm, ⟨17, _⟩ => ⟨S100000x128, .f32⟩
  | .hbm, ⟨18, _⟩ => ⟨S100000x64, .f32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S100000x1, .f32⟩
  | .hbm, ⟨40, _⟩ => ⟨S1x64, .f32⟩
  | .hbm, ⟨41, _⟩ => ⟨S100000x64, .f32⟩
  | .hbm, ⟨42, _⟩ => ⟨S100000x64, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .bf16⟩
  | .hbm, ⟨52, _⟩ => ⟨S64x64, .f32⟩
  | .hbm, ⟨53, _⟩ => ⟨S64x64, .f32⟩
  | .hbm, ⟨54, _⟩ => ⟨S1x64, .f32⟩
  | .hbm, ⟨55, _⟩ => ⟨S1x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S64, .f32⟩
  | .hbm, ⟨64, _⟩ => ⟨S_, .f32⟩
  | .hbm, ⟨65, _⟩ => ⟨S64, .f32⟩
  | .hbm, ⟨66, _⟩ => ⟨S64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S8000x32, .f32⟩
  | .local _ .vmem, ⟨15, _⟩ => ⟨S8000x32, .f32⟩
  | .local _ .vmem, ⟨16, _⟩ => ⟨S8000x64, .bf16⟩
  | .local _ .vmem, ⟨17, _⟩ => ⟨S8000x64, .bf16⟩
  | .local _ .vmem, ⟨18, _⟩ => ⟨S32x64, .f32⟩
  | .local _ .vmem, ⟨19, _⟩ => ⟨S1x64, .f32⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S8000x64, .f32⟩
  | .local _ .vmem, ⟨24, _⟩ => ⟨S8000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S128x64_S128x64_S128x128_d1 : Shape.Concatenates [S128x64, S128x64] S128x128 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x64_0_0 : S100000x128.Slices ![0, 0] S100000x64
  slices_S100000x128_S100000x64_0_64 : S100000x128.Slices ![0, 64] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S128x64_S64x64_0_0 : S128x64.Slices ![0, 0] S64x64
  slices_S128x64_S64x64_64_0 : S128x64.Slices ![64, 0] S64x64
  inb_S8000x32_S8000x32_0_0 : ∀ a, (![0, 0] : Fin 2 → Nat) a + S8000x32.size a ≤ S8000x32.size a
  h_S8000x32 : 0 < S8000x32.numel
  inb_S32x64_S32x64_0_0 : ∀ a, (![0, 0] : Fin 2 → Nat) a + S32x64.size a ≤ S32x64.size a
  h_S32x64 : 0 < S32x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x128_S128x128_S5000x128_1_0_0_1_n_n_wf : DotDims.WF S5000x128 S128x128 S5000x128 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S8000x32_S32x64_S8000x64_1_0_0_1_n_n_wf : DotDims.WF S8000x32 S32x64 S8000x64 [1] [0] [0] [1] [] []
  dot_S8000x64_S64x64_S8000x64_1_0_0_1_n_n_wf : DotDims.WF S8000x64 S64x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x32.size a ≤ S1600000x32.size a
  hwx2_0 : ∀ i : grid2.Coords, EltTy.bits .f32 = 32 ∨ (Rect.block (s := S1600000x32) S8000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .bf16 = 32 ∨ (Rect.block (s := S1600000x64) S8000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x64.size a ≤ S1600000x64.size a
  hwx2_7 : ∀ i : grid2.Coords, EltTy.bits .f32 = 32 ∨ (Rect.block (s := S1600000x64) S8000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S8000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v37) S8000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v41) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S32x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1600000x64, .f32⟩
  | .hbm, ⟨48, _⟩ => ⟨S1x64, .f32⟩
  | .hbm, ⟨49, _⟩ => ⟨S1600000x64, .f32⟩
  | .hbm, ⟨50, _⟩ => ⟨S1600000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x128, .f32⟩
  | .hbm, ⟨61, _⟩ => ⟨S1600000x64, .f32⟩
  | .hbm, ⟨62, _⟩ => ⟨S1x64, .f32⟩
  | .hbm, ⟨63, _⟩ => ⟨S1600000x64, .f32⟩
  | .hbm, ⟨64, _⟩ => ⟨S1600000x64, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S1600000x64, .f32⟩
  | .hbm, ⟨72, _⟩ => ⟨S1600000x64, .f32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S100000x64, .f32⟩
  | .hbm, ⟨111, _⟩ => ⟨S100000x64, .f32⟩
  | .hbm, ⟨112, _⟩ => ⟨S_, .f32⟩
  | .hbm, ⟨113, _⟩ => ⟨S100000x64, .f32⟩
  | .hbm, ⟨114, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_call0_cst : Ref sig .tc := ⟨.hbm, 112, rfl⟩
abbrev main_call0_v0 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  concatenates_S1600000x64_S1600000x64_S1600000x128_d1 : Shape.Concatenates [S1600000x64, S1600000x64] S1600000x128 1
  bcast_S_S1600000x64 : S_.BroadcastsInDim S1600000x64 (![] : Fin 0 → Fin S1600000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run, with its result named.

  The program is four pipelined regions among four stretches of host operations.  The generated frame follows the
  contents of every unscoped buffer through the eight segments: `Gen.W0` is the launch memory, `Gen.W1`, `W3`, `W5`,
  `W7` are the contents after each host stretch, and `Gen.W2`, `W4`, `W6`, `W8` after each region (a region's arrays at
  what its write-backs leave, every other buffer as the region found it).  Every weakly fair execution terminates with
  every unscoped buffer at `Gen.W8`; read at the result buffer this names the program's result, and read at the
  arguments it says they are unchanged.
-/
import proofs.«112606_j24051816857689_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer at the last
    boundary's contents and the twelve argument arrays as launched. -/
theorem run_named : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Val

end
-- ==== Proof.KHostA.lean ====
/-
  The host operations before the first and the second region, as functions of what they read.

  Before region 0: the two rows of the edge list as word vectors (`rowWords`: sources, `colWords`: targets) and the two
  128×64 weights joined side by side.  Before region 1: the left and right halves of the mapped features; the source
  column normalised for a gather (a negative word gets the node count added: `normCol`) and the target column as it is
  (`rawCol`); the mapped rows gathered at the sources and segment-summed at the targets; the in-degrees, as a column;
  the bias as a row.  Each lemma reads one buffer after the stretch, from ANY contents before it.
-/
import proofs.«112606_j24051816857689_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.StableHlo

/-- Row 0 / row 1 of the edge list as a vector of 1600000 words. -/
def rowWords (ei : IVec S2x1600000 32) : IVec S1600000 32 :=
  shapeCast S1600000 (extractStridedSlice S1x1600000 ![0, 0] ei Facts₀.slices_S2x1600000_S1x1600000_0_0) Facts₀.shapeCasts_S1x1600000_S1600000
def colWords (ei : IVec S2x1600000 32) : IVec S1600000 32 :=
  shapeCast S1600000 (extractStridedSlice S1x1600000 ![1, 0] ei Facts₀.slices_S2x1600000_S1x1600000_1_0) Facts₀.shapeCasts_S1x1600000_S1600000

/-- A word vector as a column; and the same after a negative word has had the node count added. -/
def rawCol (w : IVec S1600000 32) : IVec S1600000x1 32 := broadcastInDim S1600000x1 ![0] Facts₀.bcast_S1600000_S1600000x1_0 w
def normCol (w : IVec S1600000 32) : IVec S1600000x1 32 :=
  broadcastInDim S1600000x1 ![0] Facts₀.bcast_S1600000_S1600000x1_0
    (select (cmpi .slt w (broadcastInDim S1600000 ![] Facts₀.bcast_S_S1600000 (constantI S_ 32 0#32)))
      (addi w (broadcastInDim S1600000 ![] Facts₀.bcast_S_S1600000 (constantI S_ 32 100000#32))) w)

/-- The two weights side by side. -/
def catW (wl wr : FVec Ideal S128x64 .f32) : FVec Ideal S128x128 .f32 :=
  concatenate S128x128 1 [⟨S128x64, wl⟩, ⟨S128x64, wr⟩] Facts₀.concatenates_S128x64_S128x64_S128x128_d1

/-- The left-half rows gathered at the sources, segment-summed at the targets. -/
def aggOf (xcat : FVec Ideal S100000x128 .f32) (w1 w3 : IVec S1600000 32) : FVec Ideal S100000x64 .f32 :=
  Host.scatterAdd scatter_S100000x64_S1600000x1_S1600000x64_1_0_0_1
    (broadcastInDim S100000x64 ![] Facts₀.bcast_S_S100000x64 (constant S_ .f32 0x00000000#32)) (rawCol w3)
    (Host.gather gather_S100000x64_S1600000x1_S1600000x64_1_0_n_n_0_1_164
      (extractStridedSlice S100000x64 ![0, 0] xcat Facts₀.slices_S100000x128_S100000x64_0_0) (normCol w1))
/-- The in-degrees as a column. -/
def cntOf (w3 : IVec S1600000 32) : FVec Ideal S100000x1 .f32 :=
  shapeCast S100000x1
    (Host.scatterAdd scatter_S100000_S1600000x1_S1600000_n_0_0_1
      (broadcastInDim S100000 ![] Facts₀.bcast_S_S100000 (constant S_ .f32 0x00000000#32)) (rawCol w3)
      (broadcastInDim S1600000 ![] Facts₀.bcast_S_S1600000 (constant S_ .f32 0x3F800000#32))) Facts₀.shapeCasts_S100000_S100000x1
/-- The right half of the mapped features; a length-64 vector as a row. -/
def rightOf (xcat : FVec Ideal S100000x128 .f32) : FVec Ideal S100000x64 .f32 :=
  extractStridedSlice S100000x64 ![0, 64] xcat Facts₀.slices_S100000x128_S100000x64_0_64
def rowOfVec (b : FVec Ideal S64 .f32) : FVec Ideal S1x64 .f32 := shapeCast S1x64 b Facts₀.shapeCasts_S64_S1x64

variable (Wv : Valuation τ sig (Elt Ideal))

theorem h0_arg0 : StableHlo.after hostOps0 Wv (Proc.devRef .tc main_arg0) = Wv (Proc.devRef .tc main_arg0) := by
  after_results_simp
theorem h0_arg (b : Ref sig .tc) (hb : b ≠ main_v0 ∧ b ≠ main_v1 ∧ b ≠ main_v2 ∧ b ≠ main_v3 ∧ b ≠ main_v4) :
    StableHlo.after hostOps0 Wv (Proc.devRef .tc b) = Wv (Proc.devRef .tc b) := by
  obtain ⟨h0, h1, h2, h3, h4⟩ := hb
  simp only [after_cons, after_nil]
  rw [binary_result_ne _ _ _ _ _ _ _ _ h4, reshape_result_ne, unary_result_ne, reshape_result_ne, unary_result_ne] <;> assumption
theorem h0_v1 : StableHlo.after hostOps0 Wv (Proc.devRef .tc main_v1) = rowWords (Wv (Proc.devRef .tc main_arg1)) := by
  after_results_simp; rfl
theorem h0_v3 : StableHlo.after hostOps0 Wv (Proc.devRef .tc main_v3) = colWords (Wv (Proc.devRef .tc main_arg1)) := by
  after_results_simp; rfl
theorem h0_v4 : StableHlo.after hostOps0 Wv (Proc.devRef .tc main_v4)
    = catW (Wv (Proc.devRef .tc main_arg3)) (Wv (Proc.devRef .tc main_arg5)) := by
  after_results_simp; rfl

set_option maxHeartbeats 1000000 in
theorem h1_v17 : StableHlo.after hostOps1 Wv (Proc.devRef .tc main_v17)
    = aggOf (Wv (Proc.devRef .tc main_v5)) (Wv (Proc.devRef .tc main_v1)) (Wv (Proc.devRef .tc main_v3)) := by
  after_results_simp; rfl
set_option maxHeartbeats 1000000 in
theorem h1_v22 : StableHlo.after hostOps1 Wv (Proc.devRef .tc main_v22) = cntOf (Wv (Proc.devRef .tc main_v3)) := by
  after_results_simp; rfl
set_option maxHeartbeats 1000000 in
theorem h1_v7 : StableHlo.after hostOps1 Wv (Proc.devRef .tc main_v7) = rightOf (Wv (Proc.devRef .tc main_v5)) := by
  after_results_simp; rfl
set_option maxHeartbeats 1000000 in
theorem h1_v23 : StableHlo.after hostOps1 Wv (Proc.devRef .tc main_v23) = rowOfVec (Wv (Proc.devRef .tc main_arg4)) := by
  after_results_simp; rfl

end Cert.KernelIdeal.Val

end
-- ==== Proof.KHostB.lean ====
/-
  The host operations before the third and the fourth region, as functions of what they read.

  Before region 2: the node values gathered at the targets (the target column normalised for a gather), the top and
  bottom halves of the gate weight, the two biases as rows.  Before region 3: the per-edge contributions segment-summed
  at the targets and added to the node values (`outOf`); each column's mean over the nodes (`meanOf`) and the inverse
  square root of its variance plus the guard (`invOf`); these and the scale and shift as rows.  Each lemma reads one
  buffer after the stretch, from ANY contents before it.
-/
import proofs.«112606_j24051816857689_2_alg».proof.Proof.Gen.KernelIdeal.Frame
import Idealize.ShloMosaic.Lib.StableHlo.Run
import Idealize.ShloMosaic.PureOps.Ideal
import Idealize.ShloMosaic.Lib.Pipeline.Value
import proofs.«112606_j24051816857689_2_alg».proof.Proof.KHostA
set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.StableHlo

/-- The node values gathered at the (normalised) targets. -/
def gatherAt (pre : FVec Ideal S100000x64 .f32) (w3 : IVec S1600000 32) : FVec Ideal S1600000x64 .bf16 :=
  Host.gather gather_S100000x64_S1600000x1_S1600000x64_1_0_n_n_0_1_164 (truncf .bf16 pre bitsLt_bf16_f32) (normCol w3)
/-- The top and bottom halves of the gate weight. -/
def topOf (wg : FVec Ideal S128x64 .f32) : FVec Ideal S64x64 .f32 := extractStridedSlice S64x64 ![0, 0] wg Facts₀.slices_S128x64_S64x64_0_0
def botOf (wg : FVec Ideal S128x64 .f32) : FVec Ideal S64x64 .f32 := extractStridedSlice S64x64 ![64, 0] wg Facts₀.slices_S128x64_S64x64_64_0

/-- The contributions segment-summed at the targets, added to the node values. -/
def outOf (pre : FVec Ideal S100000x64 .f32) (w3 : IVec S1600000 32) (contrib : FVec Ideal S1600000x64 .f32) : FVec Ideal S100000x64 .f32 :=
  addf pre (Host.scatterAdd scatter_S100000x64_S1600000x1_S1600000x64_1_0_0_1
    (broadcastInDim S100000x64 ![] Facts₀.bcast_S_S100000x64 (constant S_ .f32 0x00000000#32)) (rawCol w3) contrib)
/-- Each column's mean over the nodes. -/
def meanOf (out : FVec Ideal S100000x64 .f32) : FVec Ideal S64 .f32 :=
  Host.divf (Host.reduceAdd out (constant S_ .f32 0x00000000#32) Facts₀.reducesTo_S100000x64_S64_d0 Facts₀.h_S_)
    (broadcastInDim S64 ![] Facts₀.bcast_S_S64 (constant S_ .f32 0x47C35000#32))
/-- The deviation from the column mean. -/
def devOf (out : FVec Ideal S100000x64 .f32) : FVec Ideal S100000x64 .f32 :=
  subf out (broadcastInDim S100000x64 ![0, 1] Facts₀.bcast_S1x64_S100000x64_0_1 (broadcastInDim S1x64 ![1] Facts₀.bcast_S64_S1x64_1 (meanOf out)))
/-- The inverse square root of each column's variance plus the guard. -/
def invOf (out : FVec Ideal S100000x64 .f32) : FVec Ideal S64 .f32 :=
  Host.rsqrt (addf
    (Host.divf (Host.reduceAdd (mulf (devOf out) (devOf out)) (constant S_ .f32 0x00000000#32) Facts₀.reducesTo_S100000x64_S64_d0 Facts₀.h_S_)
      (broadcastInDim S64 ![] Facts₀.bcast_S_S64 (constant S_ .f32 0x47C35000#32)))
    (broadcastInDim S64 ![] Facts₀.bcast_S_S64 (constant S_ .f32 0x3727C5AC#32)))

variable (Wv : Valuation τ sig (Elt Ideal))

/-! ### Through the stretch before region 1: what it does not write -/
set_option maxHeartbeats 1000000 in
theorem h1_keep_v3 : StableHlo.after hostOps1 Wv (Proc.devRef .tc main_v3) = Wv (Proc.devRef .tc main_v3) := by after_results_simp
set_option maxHeartbeats 1000000 in
theorem h1_keep_arg2 : StableHlo.after hostOps1 Wv (Proc.devRef .tc main_arg2) = Wv (Proc.devRef .tc main_arg2) := by after_results_simp
set_option maxHeartbeats 1000000 in
theorem h1_keep_arg6 : StableHlo.after hostOps1 Wv (Proc.devRef .tc main_arg6) = Wv (Proc.devRef .tc main_arg6) := by after_results_simp
set_option maxHeartbeats 1000000 in
theorem h1_keep_arg7 : StableHlo.after hostOps1 Wv (Proc.devRef .tc main_arg7) = Wv (Proc.devRef .tc main_arg7) := by after_results_simp
set_option maxHeartbeats 1000000 in
theorem h1_keep_arg8 : StableHlo.after hostOps1 Wv (Proc.devRef .tc main_arg8) = Wv (Proc.devRef .tc main_arg8) := by after_results_simp
set_option maxHeartbeats 1000000 in
theorem h1_keep_arg9 : StableHlo.after hostOps1 Wv (Proc.devRef .tc main_arg9) = Wv (Proc.devRef .tc main_arg9) := by after_results_simp
set_option maxHeartbeats 1000000 in
theorem h1_keep_arg10 : StableHlo.after hostOps1 Wv (Proc.devRef .tc main_arg10) = Wv (Proc.devRef .tc main_arg10) := by after_results_simp
set_option maxHeartbeats 1000000 in
theorem h1_keep_arg11 : StableHlo.after hostOps1 Wv (Proc.devRef .tc main_arg11) = Wv (Proc.devRef .tc main_arg11) := by after_results_simp

/-! ### The stretch before region 2 -/
set_option maxHeartbeats 1000000 in
theorem h2_v32 : StableHlo.after hostOps2 Wv (Proc.devRef .tc main_v32)
    = gatherAt (Wv (Proc.devRef .tc main_v24)) (Wv (Proc.devRef .tc main_v3)) := by after_results_simp; rfl
set_option maxHeartbeats 1000000 in
theorem h2_v33 : StableHlo.after hostOps2 Wv (Proc.devRef .tc main_v33) = topOf (Wv (Proc.devRef .tc main_arg8)) := by after_results_simp; rfl
set_option maxHeartbeats 1000000 in
theorem h2_v34 : StableHlo.after hostOps2 Wv (Proc.devRef .tc main_v34) = botOf (Wv (Proc.devRef .tc main_arg8)) := by after_results_simp; rfl
set_option maxHeartbeats 1000000 in
theorem h2_v35 : StableHlo.after hostOps2 Wv (Proc.devRef .tc main_v35) = rowOfVec (Wv (Proc.devRef .tc main_arg7)) := by after_results_simp; rfl
set_option maxHeartbeats 1000000 in
theorem h2_v36 : StableHlo.after hostOps2 Wv (Proc.devRef .tc main_v36) = rowOfVec (Wv (Proc.devRef .tc main_arg9)) := by after_results_simp; rfl
set_option maxHeartbeats 1000000 in
theorem h2_keep_arg2 : StableHlo.after hostOps2 Wv (Proc.devRef .tc main_arg2) = Wv (Proc.devRef .tc main_arg2) := by after_results_simp
set_option maxHeartbeats 1000000 in
theorem h2_keep_arg6 : StableHlo.after hostOps2 Wv (Proc.devRef .tc main_arg6) = Wv (Proc.devRef .tc main_arg6) := by after_results_simp
set_option maxHeartbeats 1000000 in
theorem h2_keep_v24 : StableHlo.after hostOps2 Wv (Proc.devRef .tc main_v24) = Wv (Proc.devRef .tc main_v24) := by after_results_simp
set_option maxHeartbeats 1000000 in
theorem h2_keep_v3 : StableHlo.after hostOps2 Wv (Proc.devRef .tc main_v3) = Wv (Proc.devRef .tc main_v3) := by after_results_simp
set_option maxHeartbeats 1000000 in
theorem h2_keep_arg10 : StableHlo.after hostOps2 Wv (Proc.devRef .tc main_arg10) = Wv (Proc.devRef .tc main_arg10) := by after_results_simp
set_option maxHeartbeats 1000000 in
theorem h2_keep_arg11 : StableHlo.after hostOps2 Wv (Proc.devRef .tc main_arg11) = Wv (Proc.devRef .tc main_arg11) := by after_results_simp

/-! ### The stretch before region 3 -/
set_option maxHeartbeats 2000000 in
theorem h3_v41 : StableHlo.after hostOps3 Wv (Proc.devRef .tc main_v41)
    = outOf (Wv (Proc.devRef .tc main_v24)) (Wv (Proc.devRef .tc main_v3)) (Wv (Proc.devRef .tc main_v37)) := by after_results_simp; rfl
set_option maxHeartbeats 2000000 in
theorem h3_v55 : StableHlo.after hostOps3 Wv (Proc.devRef .tc main_v55)
    = rowOfVec (meanOf (outOf (Wv (Proc.devRef .tc main_v24)) (Wv (Proc.devRef .tc main_v3)) (Wv (Proc.devRef .tc main_v37)))) := by
  after_results_simp; rfl
set_option maxHeartbeats 2000000 in
theorem h3_v56 : StableHlo.after hostOps3 Wv (Proc.devRef .tc main_v56)
    = rowOfVec (invOf (outOf (Wv (Proc.devRef .tc main_v24)) (Wv (Proc.devRef .tc main_v3)) (Wv (Proc.devRef .tc main_v37)))) := by
  after_results_simp; rfl
set_option maxHeartbeats 2000000 in
theorem h3_v57 : StableHlo.after hostOps3 Wv (Proc.devRef .tc main_v57) = rowOfVec (Wv (Proc.devRef .tc main_arg10)) := by after_results_simp; rfl
set_option maxHeartbeats 2000000 in
theorem h3_v58 : StableHlo.after hostOps3 Wv (Proc.devRef .tc main_v58) = rowOfVec (Wv (Proc.devRef .tc main_arg11)) := by after_results_simp; rfl

end Cert.KernelIdeal.Val

end
-- ==== Proof.Spec.lean ====
/-
  What both programs compute, entry by entry, over the extended reals.

  A graph layer on 100000 nodes with 128 features and 1600000 edges with 32 attributes. Edge `e` goes from node
  `src e` to node `dst e`. A SEGMENT SUM over the edges into a node `n` adds `u e` over the edges whose target word, read
  signed, is `n`, starting from the zero word (`segSum`); `rowOf idx e` is the row a gather reads for edge `e`: the index
  word read signed and clamped into the node range.

  The neighbour mean followed by a linear map can be taken in either order:
  * one side (`preK`) maps every node by `Wl` first (`xl`), sums the mapped rows of a node's in-neighbours and divides the
    sum by the in-degree (at least 1);
  * the other side (`preR`) sums the in-neighbours' raw rows, divides each of the 128 sums by the in-degree and maps the
    quotient row by `Wl`.
  Both then add the bias `bl` and the node's own row mapped by `Wr`.  On real entries the two agree, because a finite sum
  and a division by a non-zero real commute with a linear map (`pre_eq` in the algebra module; it is the one place
  where finiteness of the inputs is used).

  Every edge then gets `eaL e = ea e · We + be`, a gate `logistic (pre (dst e) · Wg_top + eaL e · Wg_bot + bg)` — one side
  spells the product with the two halves of `Wg` separately (`logitK`), the other joins the two 64-vectors into one
  128-vector first (`catR`, `logitR`) and spells the logistic function as 1 / (1 + exp (−t)) — and the contribution
  gate · eaL, which is segment-summed into the node and added to `pre` (`outK`, `outR`).

  Last, each of the 64 columns is normalised by its mean and variance over the nodes (`mean`, `var`, `invStd`), scaled
  by `gamma`, shifted by `beta`, doubled and clipped below at zero; the two sides associate the product
  gamma · (out − mean) · invStd differently (`finK`, `finR`).
-/
import Idealize.ShloMosaic.PureOps.Ideal
import Idealize.ShloMosaic.Lib.ValueIdx

noncomputable section

open scoped BigOperators

namespace Cert.Spec

open Idealize.ShloMosaic Idealize.ShloMosaic.ValueIdx

/-- The arrays the layer is a function of: node features, the three index columns (source rows for the first
    gather, target words for the segment sums, target rows for the second gather), edge attributes, and the
    weights and biases. -/
structure Args where
  x : (⟨2, ![100000, 128]⟩ : Shape).Idx → EReal
  src : IVec ⟨2, ![1600000, 1]⟩ 32
  dst : IVec ⟨2, ![1600000, 1]⟩ 32
  dstG : IVec ⟨2, ![1600000, 1]⟩ 32
  ea : (⟨2, ![1600000, 32]⟩ : Shape).Idx → EReal
  Wl : (⟨2, ![128, 64]⟩ : Shape).Idx → EReal
  bl : (⟨1, ![64]⟩ : Shape).Idx → EReal
  Wr : (⟨2, ![128, 64]⟩ : Shape).Idx → EReal
  We : (⟨2, ![32, 64]⟩ : Shape).Idx → EReal
  be : (⟨1, ![64]⟩ : Shape).Idx → EReal
  Wg : (⟨2, ![128, 64]⟩ : Shape).Idx → EReal
  bg : (⟨1, ![64]⟩ : Shape).Idx → EReal
  gamma : (⟨1, ![64]⟩ : Shape).Idx → EReal
  beta : (⟨1, ![64]⟩ : Shape).Idx → EReal

/-- The float words the programs spell: 0, 1, 2, 100000 and the variance guard. -/
abbrev zero32 : EReal := Ideal.ofBits .f32 0x00000000#32
abbrev one32 : EReal := Ideal.ofBits .f32 0x3F800000#32
abbrev two32 : EReal := Ideal.ofBits .f32 0x40000000#32
abbrev nNodes32 : EReal := Ideal.ofBits .f32 0x47C35000#32
abbrev eps32 : EReal := Ideal.ofBits .f32 0x3727C5AC#32

/-- The row a gather reads for edge `e`: the index word read signed, clamped into [0, 99999]. -/
def rowOf (idx : IVec ⟨2, ![1600000, 1]⟩ 32) (e : Fin 1600000) : Fin 100000 :=
  ⟨min (idx (ix2 e (0 : Fin 1))).toInt.toNat (100000 - 1), by omega⟩

/-- The segment sum into node `n`: from the zero word, `u e` over the edges whose target word read signed is `n`. -/
def segSum (a : Args) (u : Fin 1600000 → EReal) (n : Fin 100000) : EReal :=
  zero32 + ∑ e : Fin 1600000, if (a.dst (ix2 e (0 : Fin 1))).toInt = (n.val : ℤ) then u e else 0

/-- The in-degree of node `n`, and the divisor of the mean: the in-degree, at least 1. -/
def cnt (a : Args) (n : Fin 100000) : EReal := segSum a (fun _ => one32) n
def den (a : Args) (n : Fin 100000) : EReal := max (cnt a n) one32

/-- Row `r` of the node features mapped by `Wl`, by `Wr`; edge `e`'s attributes mapped by `We` plus `be`. -/
def xl (a : Args) (r : Fin 100000) (o : Fin 64) : EReal := ∑ k : Fin 128, a.x (ix2 r k) * a.Wl (ix2 k o)
def xr (a : Args) (r : Fin 100000) (o : Fin 64) : EReal := ∑ k : Fin 128, a.x (ix2 r k) * a.Wr (ix2 k o)
def eaL (a : Args) (e : Fin 1600000) (o : Fin 64) : EReal :=
  (∑ k : Fin 32, a.ea (ix2 e k) * a.We (ix2 k o)) + a.be (ix1 o)

/-- Rows `j` and `64 + j` of the gate weight: its top and bottom halves. -/
def wgTop (j : Fin 64) : Fin 128 := ⟨j.val, by omega⟩
def wgBot (j : Fin 64) : Fin 128 := ⟨64 + j.val, by omega⟩

/-! ## Map first, then average -/

def preK (a : Args) (n : Fin 100000) (o : Fin 64) : EReal :=
  Ideal.div (segSum a (fun e => xl a (rowOf a.src e) o) n) (den a n) + a.bl (ix1 o) + xr a n o
def logitK (a : Args) (e : Fin 1600000) (o : Fin 64) : EReal :=
  (∑ j : Fin 64, preK a (rowOf a.dstG e) j * a.Wg (ix2 (wgTop j) o))
    + (∑ j : Fin 64, eaL a e j * a.Wg (ix2 (wgBot j) o)) + a.bg (ix1 o)
def contribK (a : Args) (e : Fin 1600000) (o : Fin 64) : EReal := Ideal.logistic (logitK a e o) * eaL a e o
def outK (a : Args) (n : Fin 100000) (o : Fin 64) : EReal := preK a n o + segSum a (fun e => contribK a e o) n

/-! ## Average first, then map -/

def preR (a : Args) (n : Fin 100000) (o : Fin 64) : EReal :=
  ((∑ k : Fin 128, Ideal.div (segSum a (fun e => a.x (ix2 (rowOf a.src e) k)) n) (den a n) * a.Wl (ix2 k o))
    + a.bl (ix1 o)) + xr a n o
def catR (a : Args) (e : Fin 1600000) (j : Fin 128) : EReal :=
  if h : j.val < 64 then preR a (rowOf a.dstG e) ⟨j.val, h⟩ else eaL a e ⟨j.val - 64, by omega⟩
def logitR (a : Args) (e : Fin 1600000) (o : Fin 64) : EReal :=
  (∑ j : Fin 128, catR a e j * a.Wg (ix2 j o)) + a.bg (ix1 o)
def contribR (a : Args) (e : Fin 1600000) (o : Fin 64) : EReal :=
  Ideal.div one32 (one32 + Ideal.exp (-(logitR a e o))) * eaL a e o
def outR (a : Args) (n : Fin 100000) (o : Fin 64) : EReal := preR a n o + segSum a (fun e => contribR a e o) n

/-! ## The column normalisation -/

def mean (out : Fin 100000 → Fin 64 → EReal) (o : Fin 64) : EReal :=
  Ideal.div (zero32 + ∑ n : Fin 100000, out n o) nNodes32
def var (out : Fin 100000 → Fin 64 → EReal) (o : Fin 64) : EReal :=
  Ideal.div (zero32 + ∑ n : Fin 100000, (out n o - mean out o) * (out n o - mean out o)) nNodes32
def invStd (out : Fin 100000 → Fin 64 → EReal) (o : Fin 64) : EReal := Ideal.rsqrt (var out o + eps32)
def finK (a : Args) (out : Fin 100000 → Fin 64 → EReal) (n : Fin 100000) (o : Fin 64) : EReal :=
  max (two32 * (a.gamma (ix1 o) * ((out n o - mean out o) * invStd out o) + a.beta (ix1 o))) zero32
def finR (a : Args) (out : Fin 100000 → Fin 64 → EReal) (n : Fin 100000) (o : Fin 64) : EReal :=
  max (two32 * (a.gamma (ix1 o) * (out n o - mean out o) * invStd out o + a.beta (ix1 o))) zero32

end Cert.Spec

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.LibScatterRows.lean ====
/-
  Row scatter-add read at an element.

  A segment sum over rows — operand [N, C] (or [N, B, C]), one signed row number per update row
  (scatter indices [E, 1]), updates [E, C] (or [E, B, C]) — adds update row e into operand row
  idx[e, 0] and drops it when that row number is outside [0, N). Read at element (n, o) of the
  result this is the operand's element plus the sum, over the update rows e whose row number is n,
  of the update's element (e, o). All sizes and the index width are arbitrary.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace ScatterRows

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-! ## Rank 2: operand [N, C], row numbers [E, 1], updates [E, C] -/

/-- The dimension numbers of a row scatter over a rank-2 operand: the updates' axis 1 is the window
    axis and goes to the operand's axis 1; the operand's axis 0 is inserted and is the one the row
    number addresses; the row number is the length-1 vector on the scatter indices' axis 1. -/
abbrev rows2Dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

section Rows2
variable {N E C w : Nat} (wf : ScatterDims.WF ⟨2, ![N, C]⟩ ⟨2, ![E, 1]⟩ ⟨2, ![E, C]⟩ [1] [0] [0] 1)

/-- On operand axis 0 the window of update (e, o) starts at the row number idx[e, 0], read signed. -/
theorem rows2_start0 (idx : IVec ⟨2, ![E, 1]⟩ w) (e : Fin E) (o : Fin C) :
    (rows2Dims N E C wf).start (ix2 e o) idx 0 = (idx (ix2 e (0 : Fin 1))).toInt := by
  unfold ScatterDims.start
  rw [dif_pos (show (0 : Fin 2) ∈ (rows2Dims N E C wf).scatterDimsToOperandDims from List.mem_singleton.mpr rfl)]
  have hsi : (rows2Dims N E C wf).siIdx (ix2 e o) ⟨List.idxOf (0 : Fin 2) (rows2Dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the row number does not address, the window starts at 0. -/
theorem rows2_start1 (idx : IVec ⟨2, ![E, 1]⟩ w) (e : Fin E) (o : Fin C) :
    (rows2Dims N E C wf).start (ix2 e o) idx 1 = 0 := by
  unfold ScatterDims.start
  have h : ¬ (1 : Fin 2) ∈ (rows2Dims N E C wf).scatterDimsToOperandDims := (show (1 : Fin 2) ∉ ([0] : List (Fin 2)) by decide)
  rw [dif_neg h]

/-- On the inserted operand axis 0 the window coordinate is 0. -/
theorem rows2_window0 (e : Fin E) (o : Fin C) : (rows2Dims N E C wf).window (ix2 e o) 0 = 0 := by
  unfold ScatterDims.window
  have h : ¬ (0 : Fin 2) ∈ (rows2Dims N E C wf).sKept := (show (0 : Fin 2) ∉ ([1] : List (Fin 2)) by decide)
  rw [dif_neg h]

/-- On operand axis 1 the window coordinate of update (e, o) is the column o. -/
theorem rows2_window1 (e : Fin E) (o : Fin C) : (rows2Dims N E C wf).window (ix2 e o) 1 = o.val := by
  unfold ScatterDims.window
  have h : (1 : Fin 2) ∈ (rows2Dims N E C wf).sKept := (show (1 : Fin 2) ∈ ([1] : List (Fin 2)) by decide)
  rw [dif_pos h]
  rfl

/-- Update (e, o') lands on operand element (n, o) exactly when its row number idx[e, 0], read
    signed, is n and its column o' is o. -/
theorem rows2_resultIdx?_iff (idx : IVec ⟨2, ![E, 1]⟩ w) (e : Fin E) (o' : Fin C) (n : Fin N) (o : Fin C) :
    (rows2Dims N E C wf).resultIdx? (ix2 e o') idx = some (ix2 n o) ↔
      (idx (ix2 e (0 : Fin 1))).toInt = (n.val : ℤ) ∧ o' = o := by
  rw [resultIdx?_eq_some_iff, Fin.forall_fin_two, rows2_start0, rows2_window0, rows2_start1, rows2_window1]
  show ((idx (ix2 e (0 : Fin 1))).toInt + ((0 : ℕ) : ℤ) = (n.val : ℤ) ∧ (0 : ℤ) + ((o'.val : ℕ) : ℤ) = (o.val : ℤ)) ↔ _
  rw [Fin.ext_iff]
  omega

/-- THE ROW SCATTER-ADD READ AT (n, o): the operand's element plus the sum of the updates' elements
    (e, o) over the update rows e whose row number idx[e, 0], read signed, is n. A row number outside
    [0, N) equals no n, so that update row is dropped. -/
theorem scatterAdd_rows2_apply (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) (rows2Dims N E C wf) x idx u (ix2 n o) =
      x (ix2 n o) + ∑ e : Fin E, if (idx (ix2 e (0 : Fin 1))).toInt = (n.val : ℤ) then u (ix2 e o) else 0 := by
  show Ideal.hostScatterAdd (rows2Dims N E C wf) x idx u (ix2 n o) = _
  unfold Ideal.hostScatterAdd
  congr 1
  rw [Finset.sum_filter, sum_idx2]
  refine Finset.sum_congr rfl fun e _ => ?_
  simp only [rows2_resultIdx?_iff]
  by_cases ht : (idx (ix2 e (0 : Fin 1))).toInt = (n.val : ℤ)
  · simp only [ht, true_and, if_true]
    exact Finset.sum_ite_eq' Finset.univ o _ |>.trans (if_pos (Finset.mem_univ o))
  · simp only [ht, false_and, if_false, Finset.sum_const_zero]

/-- The same reading for ANY record of dimension numbers whose four lists are those of a row scatter
    (each hypothesis is closed by reflexivity on a record written out field by field). -/
theorem scatterAdd_rows2_apply_of_dims (D : ScatterDims ⟨2, ![N, C]⟩ ⟨2, ![E, 1]⟩ ⟨2, ![E, C]⟩)
    (h1 : D.updateWindowDims = [1]) (h2 : D.insertedWindowDims = [0]) (h3 : D.scatterDimsToOperandDims = [0])
    (h4 : D.indexVectorDim = 1) (x : (⟨2, ![N, C]⟩ : Shape).Idx → EReal) (idx : IVec ⟨2, ![E, 1]⟩ w)
    (u : (⟨2, ![E, C]⟩ : Shape).Idx → EReal) (n : Fin N) (o : Fin C) :
    Host.scatterAdd (F := Ideal) (φ := .f32) D x idx u (ix2 n o) =
      x (ix2 n o) + ∑ e : Fin E, if (idx (ix2 e (0 : Fin 1))).toInt = (n.val : ℤ) then u (ix2 e o) else 0 := by
  obtain ⟨uw, iw, sd, iv, wf'⟩ := D
  simp only at h1 h2 h3 h4
  subst h1 h2 h3 h4
  exact scatterAdd_rows2_apply wf' x idx u n o

end Rows2

/-! ## Rank 3: operand [N, B, C], row numbers [E, 1], updates [E, B, C] -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A statement about every one of three axes is the statement about axis 0, axis 1 and axis 2. -/
theorem forall_fin3 {P : Fin 3 → Prop} : (∀ a, P a) ↔ P 0 ∧ P 1 ∧ P 2 := by
  constructor
  · intro h; exact ⟨h 0, h 1, h 2⟩
  · rintro ⟨h0, h1, h2⟩ a
    match a with
    | ⟨0, _⟩ => exact h0
    | ⟨1, _⟩ => exact h1
    | ⟨2, _⟩ => exact h2

/-- The dimension numbers of a row scatter over a rank-3 operand: the updates' axes 1 and 2 are the
    window axes and go to the operand's axes 1 and 2; the operand's axis 0 is inserted and is the
    one the row number addresses; the row number is the length-1 vector on the scatter indices'
    axis 1. -/
abbrev rows3Dims (N E B C : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ :=
  { updateWindowDims := [1, 2], insertedWindowDims := [0], scatterDimsToOperandDims := [0], indexVectorDim := 1, wf := wf }

section Rows3
variable {N E B C w : Nat} (wf : ScatterDims.WF ⟨3, ![N, B, C]⟩ ⟨2, ![E, 1]⟩ ⟨3, ![E, B, C]⟩ [1, 2] [0] [0] 1)

/-- On operand axis 0 the window of update (e, b, d) starts at the row number idx[e, 0], read signed. -/
theorem rows3_start0 (idx : IVec ⟨2, ![E, 1]⟩ w) (e : Fin E) (b : Fin B) (d : Fin C) :
    (rows3Dims N E B C wf).start (ix3 e b d) idx 0 = (idx (ix2 e (0 : Fin 1))).toInt := by
  unfold ScatterDims.start
  rw [dif_pos (show (0 : Fin 3) ∈ (rows3Dims N E B C wf).scatterDimsToOperandDims from List.mem_singleton.mpr rfl)]
  have hsi : (rows3Dims N E B C wf).siIdx (ix3 e b d) ⟨List.idxOf (0 : Fin 3) (rows3Dims N E B C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On operand axis 1, which the row number does not address, the window starts at 0. -/
theorem rows3_start1 (idx : IVec ⟨2, ![E, 1]⟩ w) (e : Fin E) (b : Fin B) (d : Fin C) :
    (rows3Dims N E B C wf).start (ix3 e b d) idx 1 = 0 := by
  unfold ScatterDims.start
  have h : ¬ (1 : Fin 3) ∈ (rows3Dims N E B C wf).scatterDimsToOperandDims := (show (1 : Fin 3) ∉ ([0] : List (Fin 3)) by decide)
  rw [dif_neg h]

/-- On operand axis 2, which the row number does not address, the window starts at 0. -/
theorem rows3_start2 (idx : IVec ⟨2, ![E, 1]⟩ w) (e : Fin E) (b : Fin B) (d : Fin C) :
    (rows3Dims N E B C wf).start (ix3 e b d) idx 2 = 0 := by
  unfold ScatterDims.start
  have h : ¬ (2 : Fin 3) ∈ (rows3Dims N E B C wf).scatterDimsToOperandDims := (show (2 : Fin 3) ∉ ([0] : List (Fin 3)) by decide)
  rw [dif_neg h]

/-- On the inserted operand axis 0 the window coordinate is 0. -/
theorem rows3_window0 (e : Fin E) (b : Fin B) (d : Fin C) : (rows3Dims N E B C wf).window (ix3 e b d) 0 = 0 := by
  unfold ScatterDims.window
  have h : ¬ (0 : Fin 3) ∈ (rows3Dims N E B C wf).sKept := (show (0 : Fin 3) ∉ ([1, 2] : List (Fin 3)) by decide)
  rw [dif_neg h]

/-- On operand axis 1 the window coordinate of update (e, b, d) is b. -/
theorem rows3_window1 (e : Fin E) (b : Fin B) (d : Fin C) : (rows3Dims N E B C wf).window (ix3 e b d) 1 = b.val := by
  unfold ScatterDims.window
  have h : (1 : Fin 3) ∈ (rows3Dims N E B C wf).sKept := (show (1 : Fin 3) ∈ ([1, 2] : List (Fin 3)) by decide)
  rw [dif_pos h]
  rfl

/-- On operand axis 2 the window coordinate of update (e, b, d) is d. -/
theorem rows3_window2 (e : Fin E) (b : Fin B) (d : Fin C) : (rows3Dims N E B C wf).window (ix3 e b d) 2 = d.val := by
  unfold ScatterDims.window
  have h : (2 : Fin 3) ∈ (rows3Dims N E B C wf).sKept := (show (2 : Fin 3) ∈ ([1, 2] : List (Fin 3)) by decide)
  rw [dif_pos h]
  rfl

/-- Update (e, b', d') lands on operand element (n, b, d) exactly when its row number idx[e, 0], read
    signed, is n and its two window coordinates are (b, d). -/
theorem rows3_resultIdx?_iff (idx : IVec ⟨2, ![E, 1]⟩ w) (e : Fin E) (b' : Fin B) (d' : Fin C) (n : Fin N)
    (b : Fin B) (d : Fin C) :
    (rows3Dims N E B C wf).resultIdx? (ix3 e b' d') idx = some (ix3 n b d) ↔
      (idx (ix2 e (0 : Fin 1))).toInt = (n.val : ℤ) ∧ b' = b ∧ d' = d := by
  rw [resultIdx?_eq_some_iff, forall_fin3, rows3_start0, rows3_window0, rows3_start1, rows3_window1,
    rows3_start2, rows3_window2]
  show ((idx (ix2 e (0 : Fin 1))).toInt + ((0 : ℕ) : ℤ) = (n.val : ℤ) ∧ (0 : ℤ) + ((b'.val : ℕ) : ℤ) = (b.val : ℤ) ∧
    (0 : ℤ) + ((d'.val : ℕ) : ℤ) = (d.val : ℤ)) ↔ _
  rw [Fin.ext_iff, Fin.ext_iff]
  omega

/-- THE ROW SCATTER-ADD READ AT (n, b, d): the operand's element plus the sum of the updates' elements
    (e, b, d) over the update rows e whose row number idx[e, 0], read signed, is n. A row number
    outside [0, N) equals no n, so that update row is dropped. -/
theorem scatterAdd_rows3_apply (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) (rows3Dims N E B C wf) x idx u (ix3 n b d) =
      x (ix3 n b d) + ∑ e : Fin E, if (idx (ix2 e (0 : Fin 1))).toInt = (n.val : ℤ) then u (ix3 e b d) else 0 := by
  show Ideal.hostScatterAdd (rows3Dims N E B C wf) x idx u (ix3 n b d) = _
  unfold Ideal.hostScatterAdd
  congr 1
  rw [Finset.sum_filter, sum_idx3]
  refine Finset.sum_congr rfl fun e _ => ?_
  simp only [rows3_resultIdx?_iff]
  by_cases ht : (idx (ix2 e (0 : Fin 1))).toInt = (n.val : ℤ)
  · simp only [ht, true_and, if_true]
    have hin : ∀ b' : Fin B, (∑ d' : Fin C, if b' = b ∧ d' = d then u (ix3 e b' d') else 0) =
        if b' = b then u (ix3 e b' d) else 0 := by
      intro b'
      by_cases hb : b' = b
      · simp only [hb, true_and, if_true]
        exact (Finset.sum_ite_eq' Finset.univ d _).trans (if_pos (Finset.mem_univ d))
      · simp only [hb, false_and, if_false, Finset.sum_const_zero]
    simp only [hin]
    exact (Finset.sum_ite_eq' Finset.univ b _).trans (if_pos (Finset.mem_univ b))
  · simp only [ht, false_and, if_false, Finset.sum_const_zero]

/-- The same reading for ANY record of dimension numbers whose four lists are those of a row scatter
    (each hypothesis is closed by reflexivity on a record written out field by field). -/
theorem scatterAdd_rows3_apply_of_dims (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1) (x : (⟨3, ![N, B, C]⟩ : Shape).Idx → EReal) (idx : IVec ⟨2, ![E, 1]⟩ w)
    (u : (⟨3, ![E, B, C]⟩ : Shape).Idx → EReal) (n : Fin N) (b : Fin B) (d : Fin C) :
    Host.scatterAdd (F := Ideal) (φ := .f32) D x idx u (ix3 n b d) =
      x (ix3 n b d) + ∑ e : Fin E, if (idx (ix2 e (0 : Fin 1))).toInt = (n.val : ℤ) then u (ix3 e b d) else 0 := by
  obtain ⟨uw, iw, sd, iv, wf'⟩ := D
  simp only at h1 h2 h3 h4
  subst h1 h2 h3 h4
  exact scatterAdd_rows3_apply wf' x idx u n b d

end Rows3

end ScatterRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.KRead.lean ====
/-
  The host stretches' functions read at an index.

  A segment sum read at (n, o) is the zero word plus the sum over the edges whose target word is n; a gather of rows
  reads the operand's row `Spec.rowOf idx e`; a slice of columns reads the shifted column; a vector cast to a row reads
  the vector; a column sum read at o is the zero word plus the sum over the rows.  All over variable operands.
-/
import proofs.«112606_j24051816857689_2_alg».proof.Proof.Gen.KernelIdeal.Frame
import Idealize.ShloMosaic.Lib.StableHlo.Run
import Idealize.ShloMosaic.PureOps.Ideal
import Idealize.ShloMosaic.Lib.Pipeline.Value
import proofs.«112606_j24051816857689_2_alg».proof.Proof.KHostB
import proofs.«112606_j24051816857689_2_alg».proof.Proof.Spec
import proofs.«112606_j24051816857689_2_alg».proof.Proof.LibSegments
import proofs.«112606_j24051816857689_2_alg».proof.Proof.LibScatterRows
import proofs.«112606_j24051816857689_2_alg».proof.Proof.LibColumns
import Idealize.ShloMosaic.Lib.ValueIdx
import Idealize.ShloMosaic.Lib.ValueLayout
import Idealize.ShloMosaic.PureOps.Ideal.Laws
set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.StableHlo

open Idealize.ShloMosaic.ValueIdx
open scoped BigOperators

/-- A float word broadcast from a scalar reads that word everywhere. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  (broadcastInDim_apply _ h _ i ix0 (fun a => a.elim0)).trans rfl

theorem rawCol_apply (w : IVec S1600000 32) (e : Fin 1600000) : rawCol w (ix2 e (0 : Fin 1)) = w (ix1 e) :=
  broadcastInDim_apply _ _ w _ (ix1 e) (fun a => by match a with | ⟨0, _⟩ => rfl)

/-- The gathered-and-segment-summed left half at (n, o). -/
theorem aggOf_apply (xcat : FVec Ideal S100000x128 .f32) (w1 w3 : IVec S1600000 32) (n : Fin 100000) (o : Fin 64) :
    aggOf xcat w1 w3 (ix2 n o) = Cert.Spec.zero32 + ∑ e : Fin 1600000,
      if ((rawCol w3) (ix2 e (0 : Fin 1))).toInt = (n.val : ℤ)
        then xcat (ix2 (Cert.Spec.rowOf (normCol w1) e) (⟨o.val, by omega⟩ : Fin 128)) else 0 := by
  unfold aggOf
  refine (ScatterRows.scatterAdd_rows2_apply_of_dims scatter_S100000x64_S1600000x1_S1600000x64_1_0_0_1 rfl rfl rfl rfl _ _ _ n o).trans ?_
  refine congrArg₂ (· + ·) (splat_apply _ _ _) (Finset.sum_congr rfl fun e _ => ?_)
  refine if_congr Iff.rfl ?_ rfl
  refine (Segments.gather_rows_apply_of_dims (by norm_num) gather_S100000x64_S1600000x1_S1600000x64_1_0_n_n_0_1_164
    rfl rfl rfl rfl rfl rfl rfl _ _ e o).trans ?_
  exact slice2_axis1_apply 0 xcat _ _ o _ (by show o.val = 0 + o.val; omega)

/-- The in-degree column at (n, 0). -/
theorem cntOf_apply (w3 : IVec S1600000 32) (n : Fin 100000) :
    cntOf w3 (ix2 n (0 : Fin 1)) = Cert.Spec.zero32 + ∑ e : Fin 1600000,
      if ((rawCol w3) (ix2 e (0 : Fin 1))).toInt = (n.val : ℤ) then Cert.Spec.one32 else 0 := by
  unfold cntOf
  refine (shapeCast_a_a1_apply _ _ n 0).trans ?_
  refine (Segments.scatterAdd_rows1_apply_of_dims scatter_S100000_S1600000x1_S1600000_n_0_0_1 rfl rfl rfl rfl _ _ _ n).trans ?_
  refine congrArg₂ (· + ·) (splat_apply _ _ _) (Finset.sum_congr rfl fun e _ => ?_)
  exact if_congr Iff.rfl (splat_apply _ _ _) rfl

/-- The right half at (n, o) is column 64 + o. -/
theorem rightOf_apply (xcat : FVec Ideal S100000x128 .f32) (n : Fin 100000) (o : Fin 64) :
    rightOf xcat (ix2 n o) = xcat (ix2 n (⟨64 + o.val, by omega⟩ : Fin 128)) :=
  slice2_axis1_apply 64 xcat _ n o _ rfl

/-- A vector as a row. -/
theorem rowOfVec_apply (b : FVec Ideal S64 .f32) (o : Fin 64) : rowOfVec b (ix2 (0 : Fin 1) o) = b (ix1 o) :=
  shapeCast_a_1a_apply b _ 0 o

/-- The two weights side by side: the left 64 columns are the first, the right 64 the second. -/
theorem catW_left (wl wr : FVec Ideal S128x64 .f32) (k : Fin 128) (o : Fin 64) :
    catW wl wr (ix2 k (⟨o.val, by omega⟩ : Fin 128)) = wl (ix2 k o) := by
  unfold catW
  exact concatenate_pair_apply_left (t := S128x128) (s₁ := S128x64) (s₂ := S128x64) (1 : Fin 2) wl wr
    Facts₀.concatenates_S128x64_S128x64_S128x128_d1 (ix2 k (⟨o.val, by omega⟩ : Fin 128)) rfl (ix2 k o)
    (fun b => by match b with | ⟨0, _⟩ => rfl | ⟨1, _⟩ => rfl)
theorem catW_right (wl wr : FVec Ideal S128x64 .f32) (k : Fin 128) (o : Fin 64) :
    catW wl wr (ix2 k (⟨64 + o.val, by omega⟩ : Fin 128)) = wr (ix2 k o) := by
  unfold catW
  exact concatenate_pair_apply_right (t := S128x128) (s₁ := S128x64) (s₂ := S128x64) (1 : Fin 2) wl wr
    Facts₀.concatenates_S128x64_S128x64_S128x128_d1 (ix2 k (⟨64 + o.val, by omega⟩ : Fin 128)) rfl rfl (ix2 k o)
    (fun b hb => by match b with | ⟨0, _⟩ => rfl | ⟨1, _⟩ => exact absurd rfl hb)
    (by show o.val + 64 = 64 + o.val; omega)

/-- The node values gathered at the targets, at (e, j). -/
theorem gatherAt_apply (pre : FVec Ideal S100000x64 .f32) (w3 : IVec S1600000 32) (e : Fin 1600000) (j : Fin 64) :
    gatherAt pre w3 (ix2 e j) = pre (ix2 (Cert.Spec.rowOf (normCol w3) e) j) :=
  Segments.gather_rows_apply_of_dims (by norm_num) gather_S100000x64_S1600000x1_S1600000x64_1_0_n_n_0_1_164
    rfl rfl rfl rfl rfl rfl rfl _ _ e j

/-- The top and bottom halves of the gate weight at (j, o). -/
theorem topOf_apply (wg : FVec Ideal S128x64 .f32) (j o : Fin 64) : topOf wg (ix2 j o) = wg (ix2 (Cert.Spec.wgTop j) o) :=
  slice2_axis0_apply 0 wg _ j o _ (by show j.val = 0 + j.val; omega)
theorem botOf_apply (wg : FVec Ideal S128x64 .f32) (j o : Fin 64) : botOf wg (ix2 j o) = wg (ix2 (Cert.Spec.wgBot j) o) :=
  slice2_axis0_apply 64 wg _ j o _ rfl

/-- The contributions segment-summed at the targets and added to the node values, at (n, o). -/
theorem outOf_apply (pre : FVec Ideal S100000x64 .f32) (w3 : IVec S1600000 32) (contrib : FVec Ideal S1600000x64 .f32)
    (n : Fin 100000) (o : Fin 64) :
    outOf pre w3 contrib (ix2 n o) = pre (ix2 n o) + (Cert.Spec.zero32 + ∑ e : Fin 1600000,
      if ((rawCol w3) (ix2 e (0 : Fin 1))).toInt = (n.val : ℤ) then contrib (ix2 e o) else 0) := by
  unfold outOf
  refine congrArg (pre (ix2 n o) + ·) ?_
  refine (ScatterRows.scatterAdd_rows2_apply_of_dims scatter_S100000x64_S1600000x1_S1600000x64_1_0_0_1 rfl rfl rfl rfl _ _ _ n o).trans ?_
  exact congrArg (· + _) (splat_apply _ _ _)

/-- A column sum from the zero word, at o. -/
theorem colSum_apply (y : FVec Ideal S100000x64 .f32) (o : Fin 64) :
    Host.reduceAdd (F := Ideal) y (constant S_ .f32 0x00000000#32) Facts₀.reducesTo_S100000x64_S64_d0 Facts₀.h_S_ (ix1 o)
      = Cert.Spec.zero32 + ∑ n : Fin 100000, y (ix2 n o) := by
  simp only [Host.reduceAdd, Ideal.hostReduceAdd_def]
  rw [Ideal.hostReduceAdd_single Facts₀.reducesTo_S100000x64_S64_d0 (by decide)]
  refine congrArg₂ (· + ·) rfl (Finset.sum_congr rfl fun k _ => ?_)
  exact congrArg y (funext fun a => Fin.ext (by match a with | ⟨0, _⟩ => rfl | ⟨1, _⟩ => rfl))

/-- The column mean at o, of an array given entry by entry. -/
theorem meanOf_apply (out : FVec Ideal S100000x64 .f32) (f : Fin 100000 → Fin 64 → EReal) (hf : ∀ n o, out (ix2 n o) = f n o)
    (o : Fin 64) : meanOf out (ix1 o) = Cert.Spec.mean f o := by
  unfold meanOf Cert.Spec.mean
  show Ideal.div _ _ = _
  refine congrArg₂ Ideal.div ((colSum_apply out o).trans ?_) (splat_apply _ _ _)
  exact congrArg (_ + ·) (Finset.sum_congr rfl fun n _ => hf n o)

/-- The deviation from the column mean at (n, o). -/
theorem devOf_apply (out : FVec Ideal S100000x64 .f32) (f : Fin 100000 → Fin 64 → EReal) (hf : ∀ n o, out (ix2 n o) = f n o)
    (n : Fin 100000) (o : Fin 64) : devOf out (ix2 n o) = f n o - Cert.Spec.mean f o := by
  unfold devOf
  show out (ix2 n o) - _ = _
  refine congrArg₂ (· - ·) (hf n o) ?_
  refine (broadcastInDim_apply _ _ _ _ (ix2 (0 : Fin 1) o) (fun a => by match a with | ⟨0, _⟩ => rfl | ⟨1, _⟩ => rfl)).trans ?_
  refine (broadcastInDim_apply _ _ _ _ (ix1 o) (fun a => by match a with | ⟨0, _⟩ => rfl)).trans ?_
  exact meanOf_apply out f hf o

/-- The inverse deviation at o. -/
theorem invOf_apply (out : FVec Ideal S100000x64 .f32) (f : Fin 100000 → Fin 64 → EReal) (hf : ∀ n o, out (ix2 n o) = f n o)
    (o : Fin 64) : invOf out (ix1 o) = Cert.Spec.invStd f o := by
  unfold invOf Cert.Spec.invStd Cert.Spec.var
  show Ideal.rsqrt (Ideal.div _ _ + _) = _
  refine congrArg Ideal.rsqrt (congrArg₂ (· + ·) (congrArg₂ Ideal.div ((colSum_apply _ o).trans ?_) (splat_apply _ _ _)) (splat_apply _ _ _))
  refine congrArg (_ + ·) (Finset.sum_congr rfl fun n _ => ?_)
  show devOf out (ix2 n o) * devOf out (ix2 n o) = _
  rw [devOf_apply out f hf n o]

end Cert.KernelIdeal.Val

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibTwoProducts.lean ====
/-
  Two matrix products and a bias row, read at one entry.

  A dense layer of the form  x₁ · w₁ + x₂ · w₂ + b  is spelt by a kernel as two matrix-unit products, each of operands
  rounded to a narrower float format and each accumulated into a zero array, added to one another and to the bias row
  broadcast over all rows. Over the extended reals a change of float format is the identity and the products are exact, so
  the entry (p, q) of the result is
      (∑ k, x₁[p, k] · w₁[k, q]) + (∑ k, x₂[p, k] · w₂[k, q]) + b[0, q].
  The statement is generic in the three extents (rows n, contracted extent K, columns H), in the record D that spells the
  plain product's dimension numbers, and in the proofs of the side conditions the operations carry. The bias row goes
  through a cast to its own shape before it is broadcast. The forms in which one or both left operands also go through a
  cast to their own shape follow, since such a cast is the identity.
-/
import Idealize.ShloMosaic.Lib.ValueLayout
import proofs.«112606_j24051816857689_2_alg».proof.Proof.LibDotCols

noncomputable section

open scoped BigOperators

namespace TwoProducts

open Idealize.ShloMosaic Idealize.ShloMosaic.ValueIdx

variable {n K H : Nat}

/-- A bias row cast to its own shape and broadcast over the rows reads, at (p, q), the row's entry q. -/
theorem bias_row_apply {α : Type} (brow : (⟨2, ![1, H]⟩ : Shape).Idx → α)
    (hc : (⟨2, ![1, H]⟩ : Shape).ShapeCasts ⟨2, ![1, H]⟩) (hb : (⟨2, ![1, H]⟩ : Shape).Broadcasts ⟨2, ![n, H]⟩)
    (p : Fin n) (q : Fin H) :
    broadcastTo ⟨2, ![n, H]⟩ (shapeCast ⟨2, ![1, H]⟩ brow hc) hb (ix2 p q) = brow (ix2 (0 : Fin 1) q) := by
  rw [broadcastTo_1b_ab_apply, shapeCast_self]

/-- One product of operands rounded to a narrower format, into the zero array, at an entry: the exact sum of products. -/
theorem rounded_product_apply {ψ : FTy} (D : DotDims ⟨2, ![n, K]⟩ ⟨2, ![K, H]⟩ ⟨2, ![n, H]⟩) (hD : D = DotDims.plain n K H)
    (prec : Option ContractPrecision) (hψ : ψ.bits < FTy.f32.bits)
    (x : FVec Ideal ⟨2, ![n, K]⟩ .f32) (w : FVec Ideal ⟨2, ![K, H]⟩ .f32) (p : Fin n) (q : Fin H) :
    matmul D prec (truncf ψ x hψ) (truncf ψ w hψ) (constant ⟨2, ![n, H]⟩ .f32 0x00000000#32) (ix2 p q)
      = ∑ k : Fin K, x (ix2 p k) * w (ix2 k q) :=
  (Cert.Lib.DotCols.matmul_cols_apply D hD prec (truncf ψ x hψ) (truncf ψ w hψ) p q).trans
    (Finset.sum_congr rfl fun _ _ => rfl)

/-- TWO PRODUCTS AND A BIAS ROW AT AN ENTRY (left operands as they are). -/
theorem two_products_apply {ψ : FTy} (D : DotDims ⟨2, ![n, K]⟩ ⟨2, ![K, H]⟩ ⟨2, ![n, H]⟩) (hD : D = DotDims.plain n K H)
    (prec : Option ContractPrecision) (hψ : ψ.bits < FTy.f32.bits)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ x1 hψ) (truncf ψ w1 hψ) (constant ⟨2, ![n, H]⟩ .f32 0x00000000#32))
               (matmul D prec (truncf ψ x2 hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [addf_apply, addf_apply, rounded_product_apply D hD, rounded_product_apply D hD, bias_row_apply]

/-- The same with the FIRST left operand cast to its own shape. -/
theorem two_products_cast_first_apply {ψ : FTy} (D : DotDims ⟨2, ![n, K]⟩ ⟨2, ![K, H]⟩ ⟨2, ![n, H]⟩)
    (hD : D = DotDims.plain n K H) (prec : Option ContractPrecision) (hψ : ψ.bits < FTy.f32.bits)
    (hx : (⟨2, ![n, K]⟩ : Shape).ShapeCasts ⟨2, ![n, K]⟩)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ (shapeCast ⟨2, ![n, K]⟩ x1 hx) hψ) (truncf ψ w1 hψ) (constant ⟨2, ![n, H]⟩ .f32 0x00000000#32))
               (matmul D prec (truncf ψ x2 hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [shapeCast_self x1 hx]
  exact two_products_apply D hD prec hψ hc hb x1 x2 w1 w2 brow p q

/-- The same with BOTH left operands cast to their own shape. -/
theorem two_products_cast_both_apply {ψ : FTy} (D : DotDims ⟨2, ![n, K]⟩ ⟨2, ![K, H]⟩ ⟨2, ![n, H]⟩)
    (hD : D = DotDims.plain n K H) (prec : Option ContractPrecision) (hψ : ψ.bits < FTy.f32.bits)
    (hx : (⟨2, ![n, K]⟩ : Shape).ShapeCasts ⟨2, ![n, K]⟩)
    (hc : (⟨2, ![1, H]⟩ : Shape).ShapeCasts ⟨2, ![1, H]⟩) (hb : (⟨2, ![1, H]⟩ : Shape).Broadcasts ⟨2, ![n, H]⟩)
    (x1 x2 : FVec Ideal ⟨2, ![n, K]⟩ .f32) (w1 w2 : FVec Ideal ⟨2, ![K, H]⟩ .f32) (brow : FVec Ideal ⟨2, ![1, H]⟩ .f32)
    (p : Fin n) (q : Fin H) :
    addf (addf (matmul D prec (truncf ψ (shapeCast ⟨2, ![n, K]⟩ x1 hx) hψ) (truncf ψ w1 hψ) (constant ⟨2, ![n, H]⟩ .f32 0x00000000#32))
               (matmul D prec (truncf ψ (shapeCast ⟨2, ![n, K]⟩ x2 hx) hψ) (truncf ψ w2 hψ) (constant ⟨2, ![n, H]⟩ .f32 0x00000000#32)))
         (broadcastTo ⟨2, ![n, H]⟩ (shapeCast ⟨2, ![1, H]⟩ brow hc) hb) (ix2 p q)
      = (∑ k : Fin K, x1 (ix2 p k) * w1 (ix2 k q)) + (∑ k : Fin K, x2 (ix2 p k) * w2 (ix2 k q))
          + brow (ix2 (0 : Fin 1) q) := by
  rw [shapeCast_self x1 hx, shapeCast_self x2 hx]
  exact two_products_apply D hD prec hψ hc hb x1 x2 w1 w2 brow p q

end TwoProducts

end
-- ==== Proof.Region0.lean ====
/-
  Region 0, read as one array.

  The first kernel multiplies the node features, a 100000 × 128 array, by a 128 × 128 weight array (two 128 × 64 weights set
  side by side), twenty row blocks of 5000 rows at a time: at point `t` it loads rows 5000 t … 5000 t + 4999 of the features
  and the whole weight array, rounds both to a narrower float format, multiplies them into a zero accumulator and stores the
  5000 × 128 product as block `t` of the output. Over the extended reals the rounding is the identity and the product is exact,
  so entry (p, q) of the stored block is ∑ k, x[5000 t + p, k] · w[k, q], which depends on the point only through the row
  5000 t + p. Hence every block is the restriction of ONE function of the two arrays as the region finds them (`xcat`), the
  twenty blocks cover the rows (row r lies in block r / 5000), and the output array after the region is that function.
-/
import proofs.«112606_j24051816857689_2_alg».proof.Proof.Gen.KernelIdeal.Frame
import proofs.«112606_j24051816857689_2_alg».proof.Proof.Spec
import proofs.«112606_j24051816857689_2_alg».proof.Proof.LibDotCols
import proofs.«112606_j24051816857689_2_alg».proof.Proof.LibTwoProducts
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Idealize.ShloMosaic Idealize.ShloMosaic.ValueIdx
open Idealize.ShloMosaic.TcCoe
open Idealize.ShloMosaic.Pipeline (Dat)

-- The buffer contents when the region is entered: everything below is generic in them.
variable (V : (c : Dev nD) → (b : Ref sig .tc) → Buf (Elt Ideal) ((c : Thread nD τ).loc b))

/-- A block offset of zero on both axes. -/
theorem zero_off0 : (![0, 0] : Fin 2 → Nat) = fun _ => 0 := funext fun a => by fin_cases a <;> rfl

/-- The product of a 100000 × 128 array by a 128 × 128 array, entry by entry: at (r, q) the sum over k of A[r, k] · W[k, q]. -/
def xcat (A : S100000x128.Idx → EReal) (W : S128x128.Idx → EReal) : S100000x128.Idx → EReal :=
  fun i => ∑ k : Fin 128, A (ix2 (⟨(i 0).val, idx2_lt0 i⟩ : Fin 100000) k) * W (ix2 k (⟨(i 1).val, idx2_lt1 i⟩ : Fin 128))

/-- At an index given by its coordinates. -/
theorem xcat_apply (A : S100000x128.Idx → EReal) (W : S128x128.Idx → EReal) (r : Fin 100000) (q : Fin 128) :
    xcat A W (ix2 r q) = ∑ k : Fin 128, A (ix2 r k) * W (ix2 k q) := rfl

/-- THE BODY AT AN ENTRY: the stored 5000 × 128 block holds at (p, q) the sum over k of x0[p, k] · x1[k, q] — the two roundings
    and the cast of the weight block to its own shape are identities, and the product into the zero array is exact. -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  rw [shapeCast_self]
  exact TwoProducts.rounded_product_apply _ rfl none _ x0 x1 p q

/-- The printed index maps, decided over the twenty points: the feature window and the output window are at row block `t`,
    column block 0; the weight window stays at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows 5000 t … 5000 t + 4999 of the feature array: its entry `x` is the array's
    entry `i` whenever `i` is row 5000 t + x₀, column x₁. -/
theorem blk0_0_apply (c : Dev nD) (t : Fin cfg0.N) (x : S5000x128.Idx) (i : S100000x128.Idx)
    (h0 : (i 0).val = t.val * 5000 + (x 0).val) (h1 : (i 1).val = (x 1).val) :
    (iblk0 V c 0 t : Vec Ideal S5000x128 .f32) x = (V c main_arg0 : S100000x128.Idx → EReal) i := by
  obtain ⟨e0, e1, -⟩ := idx_facts0 t
  unfold iblk0
  rw [View.read_apply]
  show V c main_arg0 _ = V c main_arg0 _
  refine congrArg _ ?_
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- The weight window's block at every point is the whole weight array. -/
theorem blk0_1_apply (c : Dev nD) (t : Fin cfg0.N) (x : S128x128.Idx) :
    (iblk0 V c 1 t : Vec Ideal S128x128 .f32) x = (V c main_v4 : S128x128.Idx → EReal) x := by
  obtain ⟨-, -, e0, e1, -⟩ := idx_facts0 t
  unfold iblk0
  rw [View.read_apply]
  show V c main_v4 _ = V c main_v4 _
  refine congrArg _ ?_
  funext a
  apply Fin.ext
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- WHAT POINT `t` WRITES BACK is block `t` of the product of the two arrays as the region finds them: entry (p, q) of the
    stored block is the sum over k of x[5000 t + p, k] · w[k, q], and the output block's entry (p, q) sits at row 5000 t + p,
    column q of the output array. -/
theorem flushed0_eq (c : Dev nD) (t : Fin cfg0.N) :
    (dat0 V c).flushed 2 t = ((cfg0.win 2).blk t).view.read (Elt Ideal) (xcat (V c main_arg0) (V c main_v4)) := by
  show (cfg0.win 2).cut (grid0.coords t) ((dat0 V c).after 2 t) = _
  rw [after0_2]
  unfold out0_2
  rw [View.canon_unit_zero zero_off0]
  simp only [View.ld_unit_zero (S := S5000x128) zero_off0, View.ld_unit_zero (S := S128x128) zero_off0]
  obtain ⟨-, -, -, -, e0, e1⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = xcat (V c main_arg0) (V c main_v4) (((cfg0.win 2).blk t).view.emb (ix2 p q))
  refine (pay0_apply _ _ p q).trans ?_
  unfold xcat
  refine Finset.sum_congr rfl fun k _ => ?_
  rw [blk0_1_apply V c t (ix2 k q)]
  have hq : (((cfg0.win 2).blk t).view.emb (ix2 p q) 1).val = q.val := by
    show win0_2.index t (1 : Fin 2) * 128 + 1 * q.val = q.val
    omega
  have hp : (((cfg0.win 2).blk t).view.emb (ix2 p q) 0).val = t.val * 5000 + p.val := by
    show win0_2.index t (0 : Fin 2) * 5000 + 1 * p.val = t.val * 5000 + p.val
    omega
  rw [blk0_0_apply V c t (ix2 p k) (ix2 ⟨(((cfg0.win 2).blk t).view.emb (ix2 p q) 0).val, idx2_lt0 _⟩ k) hp rfl]
  refine congrArg _ (congrArg _ ?_)
  funext a
  apply Fin.ext
  match a with
  | ⟨0, _⟩ => rfl
  | ⟨1, _⟩ => exact hq.symm

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v5).slice (win0_2.rect t)).set ↔ _
  rw [View.set_slice_whole, Rect.mem_set_unit]
  exact Iff.rfl

/-- Row `r` lies in the block of point `r / 5000`: the twenty row blocks cover the output array. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  obtain ⟨-, -, -, -, e0, e1⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY AFTER THE REGION is the product of the feature array by the weight array as the region finds them. -/
theorem final0 (c : Dev nD) : (dat0 V c).arrAt 2 cfg0.N = xcat (V c main_arg0) (V c main_v4) :=
  (dat0 V c).arrAt_eq_of_cover 2 (xcat (V c main_arg0) (V c main_v4)) (fun t _ => flushed0_eq V c t) cover0

/-- The same at an entry, with the two arrays named: whatever arrays `A`, `W` the region finds in its two inputs, the output
    holds at (r, q) the sum over k of A[r, k] · W[k, q]. -/
theorem arr0_of (c : Dev nD) (A : S100000x128.Idx → EReal) (W : S128x128.Idx → EReal)
    (hA : V c main_arg0 = A) (hW : V c main_v4 = W) (r : Fin 100000) (q : Fin 128) :
    (dat0 (F := Ideal) V c).arrAt 2 cfg0.N (ix2 r q) = ∑ k : Fin 128, A (ix2 r k) * W (ix2 k q) := by
  subst hA hW
  rw [final0 V c]
  rfl

/-- The same with the region's own inputs in place (each factor is an extended real: `id` only fixes that reading). -/
theorem arr0 (c : Dev nD) (r : Fin 100000) (q : Fin 128) :
    @Eq EReal ((dat0 (F := Ideal) V c).arrAt 2 cfg0.N (ix2 r q))
      (∑ k : Fin 128, (id (V c main_arg0 (ix2 r k)) : EReal) * (id (V c main_v4 (ix2 k q)) : EReal)) :=
  arr0_of V c _ _ rfl rfl r q

end Cert.KernelIdeal.Val

end
-- ==== Proof.Region1.lean ====
/-
  The node-combine region, read as one array.

  The region walks the 100000 node rows in 20 blocks of 5000.  At a block it divides each of the 64 summed entries of a
  row by the row's in-degree, clipped below at 1, adds the bias row and adds the node's own mapped row.  Every entry of
  the output therefore depends on the same row of the three row-blocked operands and on the same column of the bias
  row, and on nothing else:

      out[n, o] = sums[n, o] / max(deg[n, 0], 1) + bias[0, o] + own[n, o].

  The steps: the block's arithmetic at one entry (p, q) of a block; row p of block t of a row-blocked operand is row
  5000 t + p of its array, and the bias row's only block is the row; so what point t writes back is block t of the
  function above of the four arrays as the region finds them; row r lies in the block of point r / 5000, so the 20 blocks
  cover the array, and the array after the region is that function.  Nothing is assumed about the four arrays.
-/
import proofs.«112606_j24051816857689_2_alg».proof.Proof.Gen.KernelIdeal.Frame
import proofs.«112606_j24051816857689_2_alg».proof.Proof.Spec
import proofs.«112606_j24051816857689_2_alg».proof.Proof.LibColumns
import proofs.«112606_j24051816857689_2_alg».proof.Proof.LibTwoProducts
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- The zero offsets of a whole-block access, however spelt. -/
theorem zeroOffsets1 : (![0, 0] : Fin 2 → Nat) = fun _ => 0 := funext fun a => by fin_cases a <;> rfl

/-- The combined entry of node n, column o. -/
def combineAt (a0 : S100000x64.Idx → EReal) (a1 : S100000x1.Idx → EReal) (a2 : S100000x64.Idx → EReal)
    (a3 : S1x64.Idx → EReal) (n : Fin 100000) (o : Fin 64) : EReal :=
  Ideal.div (a0 (ix2 n o)) (max (a1 (ix2 n (0 : Fin 1))) Cert.Spec.one32) + a3 (ix2 (0 : Fin 1) o) + a2 (ix2 n o)

/-- The same, as a function of the array's index. -/
def combine (a0 : S100000x64.Idx → EReal) (a1 : S100000x1.Idx → EReal) (a2 : S100000x64.Idx → EReal)
    (a3 : S1x64.Idx → EReal) : S100000x64.Idx → EReal :=
  fun i => combineAt a0 a1 a2 a3 (i 0) (i 1)

/-- The block's arithmetic at entry (p, q): quotient by the clipped in-degree of row p, plus the bias entry q, plus the
    own entry. -/
theorem pay1_apply (x0 : Vec Ideal S5000x64 .f32) (x1 : Vec Ideal S5000x1 .f32) (x3 : Vec Ideal S1x64 .f32)
    (x2 : Vec Ideal S5000x64 .f32) (p : Fin 5000) (q : Fin 64) :
    k1_pay1 x0 x1 x3 x2 (ix2 p q)
      = Ideal.div (x0 (ix2 p q)) (max (x1 (ix2 p (0 : Fin 1))) Cert.Spec.one32) + x3 (ix2 (0 : Fin 1) q) + x2 (ix2 p q) := by
  unfold k1_pay1
  rw [addf_apply, addf_apply, divf_apply, shapeCast_self, shapeCast_self, TwoProducts.bias_row_apply,
    broadcastTo_a1_ab_apply, maximumf_apply, shapeCast_self, broadcast_apply]
  rfl

/-- The block index maps, decided over the 20 grid points: the three row-blocked inputs move with the output (block
    row = the point, block column 0), the bias row stays at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- When the four blocks hold, at row p, what the arrays hold at row n, the block's entry (p, q) is the combined entry
    (n, q). -/
theorem point_entry1 (x0 : Vec Ideal S5000x64 .f32) (x1 : Vec Ideal S5000x1 .f32) (x2 : Vec Ideal S5000x64 .f32)
    (x3 : Vec Ideal S1x64 .f32) (a0 : S100000x64.Idx → EReal) (a1 : S100000x1.Idx → EReal) (a2 : S100000x64.Idx → EReal)
    (a3 : S1x64.Idx → EReal) (p : Fin 5000) (q : Fin 64) (n : Fin 100000)
    (h0 : x0 (ix2 p q) = a0 (ix2 n q)) (h1 : x1 (ix2 p (0 : Fin 1)) = a1 (ix2 n (0 : Fin 1)))
    (h2 : x2 (ix2 p q) = a2 (ix2 n q)) (h3 : x3 (ix2 (0 : Fin 1) q) = a3 (ix2 (0 : Fin 1) q)) :
    k1_pay1 x0 x1 x3 x2 (ix2 p q) = combineAt a0 a1 a2 a3 n q := by
  rw [pay1_apply, h0, h1, h2, h3]; rfl

/-- Block t of the summed rows: its row p is row 5000 t + p of the array. -/
theorem iblk1_0_apply (c : Dev nD) (t : Fin cfg1.N) (p : Fin 5000) (q : Fin 64) (n : Fin 100000)
    (hn : n.val = t.val * 5000 + p.val) :
    (iblk1 V c 0 t : Vec Ideal S5000x64 .f32) (ix2 p q) = (V c main_v17 : S100000x64.Idx → EReal) (ix2 n q) := by
  obtain ⟨e0, e1, -⟩ := idx_facts1 t
  unfold iblk1
  show (V c main_v17 : S100000x64.Idx → EReal) (((cfg1.win 0).blk t).view.emb (ix2 p q)) = _
  refine congrArg (V c main_v17 : S100000x64.Idx → EReal) (funext fun a => Fin.ext ?_)
  match a with
  | ⟨0, _⟩ => show win1_0.index t (0 : Fin 2) * 5000 + 1 * p.val = n.val; omega
  | ⟨1, _⟩ => show win1_0.index t (1 : Fin 2) * 64 + 1 * q.val = q.val; omega

/-- Block t of the in-degree column: its row p is row 5000 t + p of the column. -/
theorem iblk1_1_apply (c : Dev nD) (t : Fin cfg1.N) (p : Fin 5000) (n : Fin 100000)
    (hn : n.val = t.val * 5000 + p.val) :
    (iblk1 V c 1 t : Vec Ideal S5000x1 .f32) (ix2 p (0 : Fin 1)) = (V c main_v22 : S100000x1.Idx → EReal) (ix2 n (0 : Fin 1)) := by
  obtain ⟨-, -, e0, e1, -⟩ := idx_facts1 t
  unfold iblk1
  show (V c main_v22 : S100000x1.Idx → EReal) (((cfg1.win 1).blk t).view.emb (ix2 p (0 : Fin 1))) = _
  refine congrArg (V c main_v22 : S100000x1.Idx → EReal) (funext fun a => Fin.ext ?_)
  match a with
  | ⟨0, _⟩ => show win1_1.index t (0 : Fin 2) * 5000 + 1 * p.val = n.val; omega
  | ⟨1, _⟩ => show win1_1.index t (1 : Fin 2) * 1 + 1 * 0 = 0; omega

/-- Block t of the node's own mapped rows: its row p is row 5000 t + p of the array. -/
theorem iblk1_2_apply (c : Dev nD) (t : Fin cfg1.N) (p : Fin 5000) (q : Fin 64) (n : Fin 100000)
    (hn : n.val = t.val * 5000 + p.val) :
    (iblk1 V c 2 t : Vec Ideal S5000x64 .f32) (ix2 p q) = (V c main_v7 : S100000x64.Idx → EReal) (ix2 n q) := by
  obtain ⟨-, -, -, -, e0, e1, -⟩ := idx_facts1 t
  unfold iblk1
  show (V c main_v7 : S100000x64.Idx → EReal) (((cfg1.win 2).blk t).view.emb (ix2 p q)) = _
  refine congrArg (V c main_v7 : S100000x64.Idx → EReal) (funext fun a => Fin.ext ?_)
  match a with
  | ⟨0, _⟩ => show win1_2.index t (0 : Fin 2) * 5000 + 1 * p.val = n.val; omega
  | ⟨1, _⟩ => show win1_2.index t (1 : Fin 2) * 64 + 1 * q.val = q.val; omega

/-- The bias row's one block is the row itself, at every point. -/
theorem iblk1_3_apply (c : Dev nD) (t : Fin cfg1.N) (q : Fin 64) :
    (iblk1 V c 3 t : Vec Ideal S1x64 .f32) (ix2 (0 : Fin 1) q) = (V c main_v23 : S1x64.Idx → EReal) (ix2 (0 : Fin 1) q) := by
  obtain ⟨-, -, -, -, -, -, e0, e1, -⟩ := idx_facts1 t
  unfold iblk1
  show (V c main_v23 : S1x64.Idx → EReal) (((cfg1.win 3).blk t).view.emb (ix2 (0 : Fin 1) q)) = _
  refine congrArg (V c main_v23 : S1x64.Idx → EReal) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- What point t writes back is block t of the combined array of the arrays as the region finds them. -/
theorem flushed1_eq (c : Dev nD) (t : Fin cfg1.N) :
    (dat1 (F := Ideal) V c).flushed 4 t = ((cfg1.win 4).blk t).view.read (Elt Ideal)
      (combine (V c main_v17) (V c main_v22) (V c main_v7) (V c main_v23)) := by
  show (cfg1.win 4).cut (grid1.coords t) ((dat1 (F := Ideal) V c).after 4 t) = _
  rw [after1_4]
  unfold out1_4
  rw [View.canon_unit_zero zeroOffsets1]
  simp only [View.ld_unit_zero (S := S5000x64) zeroOffsets1, View.ld_unit_zero (S := S5000x1) zeroOffsets1,
    View.ld_unit_zero (S := S1x64) zeroOffsets1]
  obtain ⟨-, -, -, -, -, -, -, -, e0, e1⟩ := idx_facts1 t
  have hN : cfg1.N = 20 := N_1
  funext j
  obtain ⟨p, q, rfl⟩ : ∃ (p : Fin 5000) (q : Fin 64), j = ix2 p q := ⟨j 0, j 1, eq_ix2 j⟩
  have ht : t.val < 20 := hN ▸ t.isLt
  obtain ⟨n, hn⟩ : ∃ n : Fin 100000, n.val = t.val * 5000 + p.val :=
    ⟨⟨t.val * 5000 + p.val, by have := p.isLt; omega⟩, rfl⟩
  refine (point_entry1 (iblk1 V c 0 t) (iblk1 V c 1 t) (iblk1 V c 2 t) (iblk1 V c 3 t)
    (V c main_v17) (V c main_v22) (V c main_v7) (V c main_v23) p q n
    (iblk1_0_apply V c t p q n hn) (iblk1_1_apply V c t p n hn) (iblk1_2_apply V c t p q n hn)
    (iblk1_3_apply V c t q)).trans ?_
  have h0 : (((cfg1.win 4).blk t).view.emb (ix2 p q) 0 : Fin 100000) = n :=
    Fin.ext (by show win1_4.index t (0 : Fin 2) * 5000 + 1 * p.val = n.val; omega)
  have h1 : (((cfg1.win 4).blk t).view.emb (ix2 p q) 1 : Fin 64) = q :=
    Fin.ext (by show win1_4.index t (1 : Fin 2) * 64 + 1 * q.val = q.val; omega)
  exact (congrArg₂ (combineAt (V c main_v17) (V c main_v22) (V c main_v7) (V c main_v23)) h0 h1).symm

/-- An index of the array is in point t's block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v24).slice (win1_4.rect t)).set ↔ _
  rw [View.set_slice_whole, Rect.mem_set_unit]
  exact Iff.rfl

/-- Row r of the array is in the block of point r / 5000. -/
theorem cover1 (i : S100000x64.Idx) :
    ∃ t : Fin cfg1.N, (cfg1.win 4).flush t = true ∧ i ∈ ((cfg1.win 4).blk t).view.set := by
  have hN : cfg1.N = 20 := N_1
  have hi0 : (i 0).val < 100000 := (i 0).isLt
  have hi1 : (i 1).val < 64 := (i 1).isLt
  let t : Fin cfg1.N := ⟨(i 0).val / 5000, by rw [hN]; omega⟩
  have htv : t.val = (i 0).val / 5000 := rfl
  obtain ⟨-, -, -, -, -, -, -, -, e0, e1⟩ := idx_facts1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The array after the region, as one function of the arrays the region finds. -/
theorem final1 (c : Dev nD) : (dat1 (F := Ideal) V c).arrAt 4 cfg1.N
    = combine (V c main_v17) (V c main_v22) (V c main_v7) (V c main_v23) :=
  (dat1 (F := Ideal) V c).arrAt_eq_of_cover 4 (combine (V c main_v17) (V c main_v22) (V c main_v7) (V c main_v23))
    (fun t _ => flushed1_eq V c t) cover1

/-- The array after the region, entry by entry. -/
theorem arr1 (c : Dev nD) (n : Fin 100000) (o : Fin 64) :
    (dat1 (F := Ideal) V c).arrAt 4 cfg1.N (ix2 n o)
      = Ideal.div (V c main_v17 (ix2 n o)) (max (V c main_v22 (ix2 n (0 : Fin 1))) Cert.Spec.one32) + V c main_v23 (ix2 (0 : Fin 1) o) + V c main_v7 (ix2 n o) := by
  rw [final1]
  rfl

end Cert.KernelIdeal.Val
end
-- ==== Proof.KChainA.lean ====
/-
  The idealized kernel program's buffers, followed from the launch through its first two regions.

  `args` collects the launch arrays as the specification's record: the source column normalised for a gather, the
  target column as it is (for the segment sums) and normalised (for the second gather).  Region 0 leaves
  x · [Wl | Wr]; its left half is `Spec.xl`, its right half `Spec.xr`.  The host then gathers the left half's rows at the
  sources and segment-sums them at the targets, counts the in-degrees, and region 1 divides, adds the bias and the
  right half: the node values `Spec.preK`.
-/
import proofs.«112606_j24051816857689_2_alg».proof.Proof.Gen.KernelIdeal.Frame
import Idealize.ShloMosaic.Lib.StableHlo.Run
import Idealize.ShloMosaic.PureOps.Ideal
import Idealize.ShloMosaic.Lib.Pipeline.Value
import proofs.«112606_j24051816857689_2_alg».proof.Proof.KRead
import proofs.«112606_j24051816857689_2_alg».proof.Proof.Region0
import proofs.«112606_j24051816857689_2_alg».proof.Proof.Region1
set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.StableHlo

open Idealize.ShloMosaic.ValueIdx
open scoped BigOperators

/-- The launch arrays as the specification's record. -/
def args (a0 : FVec Ideal S100000x128 .f32) (a1 : IVec S2x1600000 32) (a2 : FVec Ideal S1600000x32 .f32)
    (a3 : FVec Ideal S128x64 .f32) (a4 : FVec Ideal S64 .f32) (a5 : FVec Ideal S128x64 .f32) (a6 : FVec Ideal S32x64 .f32)
    (a7 : FVec Ideal S64 .f32) (a8 : FVec Ideal S128x64 .f32) (a9 a10 a11 : FVec Ideal S64 .f32) : Cert.Spec.Args :=
  { x := a0, src := normCol (rowWords a1), dst := rawCol (colWords a1), dstG := normCol (colWords a1), ea := a2,
    Wl := a3, bl := a4, Wr := a5, We := a6, be := a7, Wg := a8, bg := a9, gamma := a10, beta := a11 }

variable (m : (ℓ : Loc nD τ sig) → Buf (Elt Ideal) ℓ) (ρ : Dev nD → PrngReg) (c : Dev nD)

/-- An entry of a float buffer, read as an extended real (the buffer's entry type unfolds to it). -/
local notation "⟪" x "⟫" => (@id EReal x)

/-- The record of the launch memory `m` on core `c`. -/
abbrev A : Cert.Spec.Args := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-! ## Before and after region 0 -/

theorem w1_v1 : W1 m ρ c (Proc.devRef .tc main_v1) = rowWords (m ((c : Thread nD τ).loc main_arg1)) := (h0_v1 (W0 m ρ c)).trans rfl
theorem w1_v3 : W1 m ρ c (Proc.devRef .tc main_v3) = colWords (m ((c : Thread nD τ).loc main_arg1)) := (h0_v3 (W0 m ρ c)).trans rfl
theorem v1_arg0 : V1 m ρ c main_arg0 = (m ((c : Thread nD τ).loc main_arg0)) := (h0_arg (W0 m ρ c) main_arg0 (by decide)).trans rfl
theorem v1_v4 : V1 m ρ c main_v4 = catW (m ((c : Thread nD τ).loc main_arg3)) (m ((c : Thread nD τ).loc main_arg5)) := (h0_v4 (W0 m ρ c)).trans rfl
/-- An argument array is as launched after the first stretch. -/
theorem w1_arg (b : Ref sig .tc) (hb : b ≠ main_v0 ∧ b ≠ main_v1 ∧ b ≠ main_v2 ∧ b ≠ main_v3 ∧ b ≠ main_v4) :
    W1 m ρ c (Proc.devRef .tc b) = W0 m ρ c (Proc.devRef .tc b) := h0_arg (W0 m ρ c) b hb

/-- Region 0 leaves the features times the joined weights. -/
theorem w2_v5 (r : Fin 100000) (q : Fin 128) :
    ⟪W2 m ρ c (Proc.devRef .tc main_v5) (ix2 r q)⟫
      = ∑ k : Fin 128, (A m c).x (ix2 r k) * catW (A m c).Wl (A m c).Wr (ix2 k q) := by
  rw [show W2 m ρ c (Proc.devRef .tc main_v5) = (dat0 (V1 m ρ) c).arrAt 2 cfg0.N from W2_arr m ρ c 2]
  exact arr0_of (V1 m ρ) c _ _ (v1_arg0 m ρ c) (v1_v4 m ρ c) r q

theorem xl_eq (r : Fin 100000) (o : Fin 64) :
    ⟪W2 m ρ c (Proc.devRef .tc main_v5) (ix2 r (⟨o.val, by omega⟩ : Fin 128))⟫ = Cert.Spec.xl (A m c) r o := by
  rw [w2_v5]; unfold Cert.Spec.xl
  exact Finset.sum_congr rfl fun k _ => congrArg (_ * ·) (catW_left _ _ k o)
theorem xr_eq (r : Fin 100000) (o : Fin 64) :
    ⟪W2 m ρ c (Proc.devRef .tc main_v5) (ix2 r (⟨64 + o.val, by omega⟩ : Fin 128))⟫ = Cert.Spec.xr (A m c) r o := by
  rw [w2_v5]; unfold Cert.Spec.xr
  exact Finset.sum_congr rfl fun k _ => congrArg (_ * ·) (catW_right _ _ k o)

theorem w2_v1 : W2 m ρ c (Proc.devRef .tc main_v1) = rowWords (m ((c : Thread nD τ).loc main_arg1)) :=
  (W2_of_ne m ρ c main_v1 (by decide)).trans (w1_v1 m ρ c)
theorem w2_v3 : W2 m ρ c (Proc.devRef .tc main_v3) = colWords (m ((c : Thread nD τ).loc main_arg1)) :=
  (W2_of_ne m ρ c main_v3 (by decide)).trans (w1_v3 m ρ c)
/-- An argument array other than the features is as launched after region 0. -/
theorem w2_arg (b : Ref sig .tc) (hb : b ≠ main_v0 ∧ b ≠ main_v1 ∧ b ≠ main_v2 ∧ b ≠ main_v3 ∧ b ≠ main_v4)
    (hb' : ∀ w, Pipeline.arrRef spec0 w ≠ b) : W2 m ρ c (Proc.devRef .tc b) = W0 m ρ c (Proc.devRef .tc b) :=
  (W2_of_ne m ρ c b hb').trans (w1_arg m ρ c b hb)

/-! ## Before and after region 1 -/

theorem v3_v17 (n : Fin 100000) (o : Fin 64) :
    V3 m ρ c main_v17 (ix2 n o)
      = Cert.Spec.segSum (A m c) (fun e => Cert.Spec.xl (A m c) (Cert.Spec.rowOf (A m c).src e) o) n := by
  rw [show V3 m ρ c main_v17 = aggOf (W2 m ρ c (Proc.devRef .tc main_v5)) (W2 m ρ c (Proc.devRef .tc main_v1))
        (W2 m ρ c (Proc.devRef .tc main_v3)) from h1_v17 (W2 m ρ c)]
  rw [w2_v1, w2_v3, aggOf_apply]
  unfold Cert.Spec.segSum
  refine congrArg (_ + ·) (Finset.sum_congr rfl fun e _ => if_congr Iff.rfl ?_ rfl)
  exact xl_eq m ρ c _ o

theorem v3_v22 (n : Fin 100000) : V3 m ρ c main_v22 (ix2 n (0 : Fin 1)) = Cert.Spec.cnt (A m c) n := by
  rw [show V3 m ρ c main_v22 = cntOf (W2 m ρ c (Proc.devRef .tc main_v3)) from h1_v22 (W2 m ρ c)]
  rw [w2_v3, cntOf_apply]
  rfl

theorem v3_v7 (n : Fin 100000) (o : Fin 64) : V3 m ρ c main_v7 (ix2 n o) = Cert.Spec.xr (A m c) n o := by
  rw [show V3 m ρ c main_v7 = rightOf (W2 m ρ c (Proc.devRef .tc main_v5)) from h1_v7 (W2 m ρ c)]
  rw [rightOf_apply]
  exact xr_eq m ρ c n o

theorem v3_v23 (o : Fin 64) : V3 m ρ c main_v23 (ix2 (0 : Fin 1) o) = (A m c).bl (ix1 o) := by
  rw [show V3 m ρ c main_v23 = rowOfVec (W2 m ρ c (Proc.devRef .tc main_arg4)) from h1_v23 (W2 m ρ c)]
  rw [rowOfVec_apply, w2_arg m ρ c main_arg4 (by decide) (by decide)]
  rfl

/-- Region 1 leaves the node values. -/
theorem w4_v24 (n : Fin 100000) (o : Fin 64) :
    W4 m ρ c (Proc.devRef .tc main_v24) (ix2 n o) = Cert.Spec.preK (A m c) n o := by
  rw [show W4 m ρ c (Proc.devRef .tc main_v24) = (dat1 (V3 m ρ) c).arrAt 4 cfg1.N from W4_arr m ρ c 4]
  rw [arr1 (V3 m ρ) c n o, v3_v17, v3_v22, v3_v23, v3_v7]
  rfl

end Cert.KernelIdeal.Val

end
-- ==== Proof.Region2.lean ====
/-
  Region 2, read as one array.

  The third kernel computes, for each of the 1600000 edges and each of the 64 columns, the gated contribution of the edge,
  two hundred row blocks of 8000 edges at a time. At point `t` it loads rows 8000 t … 8000 t + 7999 of the edge attributes
  (32 columns) and of the gathered node rows (64 columns, in a narrower float format), and whole: a 32 × 64 weight with its
  bias row, two 64 × 64 weights and a second bias row. It maps the attributes by the 32 × 64 weight and adds the bias row
  (`m`), forms  (gathered rows) · (first 64 × 64 weight) + m · (second 64 × 64 weight) + (second bias row),  applies the
  logistic function and multiplies by `m`. Every product is of operands rounded to the narrower format into a zero
  accumulator; over the extended reals the roundings and the casts of a block to its own shape are identities and the
  products are exact sums. Entry (p, o) of the stored block therefore depends on the point only through the edge row
  8000 t + p: every block is the restriction of ONE function of the seven arrays as the region finds them (`gate`), the two
  hundred blocks cover the rows (row e lies in block e / 8000), and the output array after the region is that function.
-/
import proofs.«112606_j24051816857689_2_alg».proof.Proof.Gen.KernelIdeal.Frame
import proofs.«112606_j24051816857689_2_alg».proof.Proof.Spec
import proofs.«112606_j24051816857689_2_alg».proof.Proof.LibDotCols
import proofs.«112606_j24051816857689_2_alg».proof.Proof.LibTwoProducts
import Idealize.ShloMosaic.Lib.Pipeline.Value
import Idealize.ShloMosaic.Lib.ValueIdx
import Idealize.ShloMosaic.Lib.ValueLayout

noncomputable section

open scoped BigOperators

namespace Cert.KernelIdeal.Val

open Cert.KernelIdeal Cert.KernelIdeal.Gen Idealize.ShloMosaic Idealize.ShloMosaic.ValueIdx
open Idealize.ShloMosaic.TcCoe
open Idealize.ShloMosaic.Pipeline (Dat)

/-- An entry of a buffer read as the extended real it is. -/
local notation "⟪" x "⟫" => (@id EReal x)

-- The buffer contents when the region is entered: everything below is generic in them.
variable (V : (c : Dev nD) → (b : Ref sig .tc) → Buf (Elt Ideal) ((c : Thread nD τ).loc b))

/-- A block offset of zero on both axes. -/
theorem zero_off2 : (![0, 0] : Fin 2 → Nat) = fun _ => 0 := funext fun a => by fin_cases a <;> rfl

/-- One row of edge attributes mapped by the 32 × 64 weight, plus the bias row: the kernel's first product of rounded operands
    into the zero array, with the bias row cast to its own shape and broadcast over the rows, read at (p, j). -/
theorem mapped_apply (v0 : Vec Ideal S8000x32 .f32) (v2 : Vec Ideal S32x64 .f32) (v5 : Vec Ideal S1x64 .f32) (p : Fin 8000) (j : Fin 64) :
    addf (F := Ideal) (matmul (F := Ideal) dot_S8000x32_S32x64_S8000x64_1_0_0_1_n_n none (truncf .bf16 v0 bitsLt_bf16_f32) (truncf .bf16 v2 bitsLt_bf16_f32)
            (constant (F := Ideal) S8000x64 .f32 0x00000000#32))
         (broadcastTo S8000x64 (shapeCast S1x64 v5 shapeCasts_S1x64_S1x64) broadcasts_S1x64_S8000x64) (ix2 p j)
      = (∑ k : Fin 32, v0 (ix2 p k) * v2 (ix2 k j)) + v5 (ix2 (0 : Fin 1) j) := by
  refine (addf_apply _ _ _).trans ?_
  exact congrArg₂ (· + ·) (TwoProducts.rounded_product_apply dot_S8000x32_S32x64_S8000x64_1_0_0_1_n_n rfl none bitsLt_bf16_f32 v0 v2 p j)
    (TwoProducts.bias_row_apply v5 shapeCasts_S1x64_S1x64 broadcasts_S1x64_S8000x64 p j)

/-- THE BODY AT AN ENTRY: the stored 8000 × 64 block holds at (p, o) the logistic function of
    (∑ j, v9[p, j] · v12[j, o]) + (∑ j, m[p, j] · v15[j, o]) + v21[0, o], times m[p, o], where m[p, j] = (∑ k, v0[p, k] · v2[k, j]) + v5[0, j]. -/
theorem pay2_apply (v0 : Vec Ideal S8000x32 .f32) (v2 : Vec Ideal S32x64 .f32) (v5 : Vec Ideal S1x64 .f32)
    (v9 : Vec Ideal S8000x64 .bf16) (v12 v15 : Vec Ideal S64x64 .f32) (v21 : Vec Ideal S1x64 .f32) (p : Fin 8000) (o : Fin 64) :
    k2_pay1 v0 v2 v5 v9 v12 v15 v21 (ix2 p o)
      = Ideal.logistic ((∑ j : Fin 64, v9 (ix2 p j) * v12 (ix2 j o))
            + (∑ j : Fin 64, ((∑ k : Fin 32, v0 (ix2 p k) * v2 (ix2 k j)) + v5 (ix2 (0 : Fin 1) j)) * v15 (ix2 j o))
            + v21 (ix2 (0 : Fin 1) o))
          * ((∑ k : Fin 32, v0 (ix2 p k) * v2 (ix2 k o)) + v5 (ix2 (0 : Fin 1) o)) := by
  unfold k2_pay1
  refine (mulf_apply _ _ _).trans ?_
  refine congrArg₂ (· * ·) ?_ (mapped_apply v0 v2 v5 p o)
  show Ideal.logistic _ = Ideal.logistic _
  refine congrArg Ideal.logistic ?_
  refine (addf_apply _ _ _).trans ?_
  refine congrArg₂ (· + ·) ?_ (TwoProducts.bias_row_apply v21 _ _ p o)
  refine (addf_apply _ _ _).trans ?_
  refine congrArg₂ (· + ·) ?_ ?_
  · rw [shapeCast_self v9, shapeCast_self v12]
    exact (Cert.Lib.DotCols.matmul_cols_apply _ rfl none _ _ p o).trans (Finset.sum_congr rfl fun _ _ => rfl)
  · rw [shapeCast_self v15]
    refine (Cert.Lib.DotCols.matmul_cols_apply _ rfl none _ _ p o).trans (Finset.sum_congr rfl fun j _ => ?_)
    refine congrArg₂ (· * ·) ?_ rfl
    exact mapped_apply v0 v2 v5 p j

/-- The printed index maps, decided over the two hundred points: the two edge-row windows and the output window are at row
    block `t`, column block 0; the five small operands stay at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The edge-attribute window's block at point `t` is rows 8000 t … 8000 t + 7999 of the attribute array. -/
theorem blk2_0_row (c : Dev nD) (t : Fin cfg2.N) (p : Fin 8000) (k : Fin 32) (e : Fin 1600000) (he : e.val = t.val * 8000 + p.val) :
    (iblk2 V c 0 t : Vec Ideal S8000x32 .f32) (ix2 p k) = (V c main_arg2 : S1600000x32.Idx → EReal) (ix2 e k) := by
  obtain ⟨e0, e1, -⟩ := idx_facts2 t
  unfold iblk2
  rw [View.read_apply]
  show V c main_arg2 _ = V c main_arg2 _
  refine congrArg _ ?_
  funext a
  apply Fin.ext
  match a with
  | ⟨0, _⟩ => show win2_0.index t (0 : Fin 2) * 8000 + 1 * p.val = e.val; omega
  | ⟨1, _⟩ => show win2_0.index t (1 : Fin 2) * 32 + 1 * k.val = k.val; omega

/-- The gathered-rows window's block at point `t` is rows 8000 t … 8000 t + 7999 of the gathered array. -/
theorem blk2_1_row (c : Dev nD) (t : Fin cfg2.N) (p : Fin 8000) (j : Fin 64) (e : Fin 1600000) (he : e.val = t.val * 8000 + p.val) :
    (iblk2 V c 1 t : Vec Ideal S8000x64 .bf16) (ix2 p j) = (V c main_v32 : S1600000x64.Idx → EReal) (ix2 e j) := by
  obtain ⟨-, -, e0, e1, -⟩ := idx_facts2 t
  unfold iblk2
  rw [View.read_apply]
  show V c main_v32 _ = V c main_v32 _
  refine congrArg _ ?_
  funext a
  apply Fin.ext
  match a with
  | ⟨0, _⟩ => show win2_1.index t (0 : Fin 2) * 8000 + 1 * p.val = e.val; omega
  | ⟨1, _⟩ => show win2_1.index t (1 : Fin 2) * 64 + 1 * j.val = j.val; omega

/-- Window 2's block at every point is its whole array. -/
theorem blk2_2_apply (c : Dev nD) (t : Fin cfg2.N) (x : S32x64.Idx) :
    (iblk2 V c 2 t : Vec Ideal S32x64 .f32) x = (V c main_arg6 : S32x64.Idx → EReal) x := by
  have e := (idx_facts2 t).2.2.2.2
  unfold iblk2
  rw [View.read_apply]
  show V c main_arg6 _ = V c main_arg6 _
  refine congrArg _ ?_
  funext a
  apply Fin.ext
  match a with
  | ⟨0, _⟩ => show win2_2.index t (0 : Fin 2) * 32 + 1 * (x 0).val = (x 0).val; omega
  | ⟨1, _⟩ => show win2_2.index t (1 : Fin 2) * 64 + 1 * (x 1).val = (x 1).val; omega

/-- Window 3's block at every point is its whole array. -/
theorem blk2_3_apply (c : Dev nD) (t : Fin cfg2.N) (x : S1x64.Idx) :
    (iblk2 V c 3 t : Vec Ideal S1x64 .f32) x = (V c main_v35 : S1x64.Idx → EReal) x := by
  have e := (idx_facts2 t).2.2.2.2
  unfold iblk2
  rw [View.read_apply]
  show V c main_v35 _ = V c main_v35 _
  refine congrArg _ ?_
  funext a
  apply Fin.ext
  match a with
  | ⟨0, _⟩ => show win2_3.index t (0 : Fin 2) * 1 + 1 * (x 0).val = (x 0).val; omega
  | ⟨1, _⟩ => show win2_3.index t (1 : Fin 2) * 64 + 1 * (x 1).val = (x 1).val; omega

/-- Window 4's block at every point is its whole array. -/
theorem blk2_4_apply (c : Dev nD) (t : Fin cfg2.N) (x : S64x64.Idx) :
    (iblk2 V c 4 t : Vec Ideal S64x64 .f32) x = (V c main_v33 : S64x64.Idx → EReal) x := by
  have e := (idx_facts2 t).2.2.2.2
  unfold iblk2
  rw [View.read_apply]
  show V c main_v33 _ = V c main_v33 _
  refine congrArg _ ?_
  funext a
  apply Fin.ext
  match a with
  | ⟨0, _⟩ => show win2_4.index t (0 : Fin 2) * 64 + 1 * (x 0).val = (x 0).val; omega
  | ⟨1, _⟩ => show win2_4.index t (1 : Fin 2) * 64 + 1 * (x 1).val = (x 1).val; omega

/-- Window 5's block at every point is its whole array. -/
theorem blk2_5_apply (c : Dev nD) (t : Fin cfg2.N) (x : S64x64.Idx) :
    (iblk2 V c 5 t : Vec Ideal S64x64 .f32) x = (V c main_v34 : S64x64.Idx → EReal) x := by
  have e := (idx_facts2 t).2.2.2.2
  unfold iblk2
  rw [View.read_apply]
  show V c main_v34 _ = V c main_v34 _
  refine congrArg _ ?_
  funext a
  apply Fin.ext
  match a with
  | ⟨0, _⟩ => show win2_5.index t (0 : Fin 2) * 64 + 1 * (x 0).val = (x 0).val; omega
  | ⟨1, _⟩ => show win2_5.index t (1 : Fin 2) * 64 + 1 * (x 1).val = (x 1).val; omega

/-- Window 6's block at every point is its whole array. -/
theorem blk2_6_apply (c : Dev nD) (t : Fin cfg2.N) (x : S1x64.Idx) :
    (iblk2 V c 6 t : Vec Ideal S1x64 .f32) x = (V c main_v36 : S1x64.Idx → EReal) x := by
  have e := (idx_facts2 t).2.2.2.2
  unfold iblk2
  rw [View.read_apply]
  show V c main_v36 _ = V c main_v36 _
  refine congrArg _ ?_
  funext a
  apply Fin.ext
  match a with
  | ⟨0, _⟩ => show win2_6.index t (0 : Fin 2) * 1 + 1 * (x 0).val = (x 0).val; omega
  | ⟨1, _⟩ => show win2_6.index t (1 : Fin 2) * 64 + 1 * (x 1).val = (x 1).val; omega

/-- THE GATED EDGE CONTRIBUTION at edge `e`, column `o`: with the edge's attributes mapped by the 32 × 64 weight plus its bias row
    (`m j`), the logistic function of  (gathered row) · (top weight) + m · (bottom weight) + (gate bias), times `m o`. -/
def gateAt (EA : S1600000x32.Idx → EReal) (P : S1600000x64.Idx → EReal) (We : S32x64.Idx → EReal) (be : S1x64.Idx → EReal)
    (Wt Wb : S64x64.Idx → EReal) (bg : S1x64.Idx → EReal) (e : Fin 1600000) (o : Fin 64) : EReal :=
  Ideal.logistic ((∑ j : Fin 64, P (ix2 e j) * Wt (ix2 j o))
        + (∑ j : Fin 64, ((∑ k : Fin 32, EA (ix2 e k) * We (ix2 k j)) + be (ix2 (0 : Fin 1) j)) * Wb (ix2 j o))
        + bg (ix2 (0 : Fin 1) o))
    * ((∑ k : Fin 32, EA (ix2 e k) * We (ix2 k o)) + be (ix2 (0 : Fin 1) o))

/-- The same as one 1600000 × 64 array. -/
def gate (EA : S1600000x32.Idx → EReal) (P : S1600000x64.Idx → EReal) (We : S32x64.Idx → EReal) (be : S1x64.Idx → EReal)
    (Wt Wb : S64x64.Idx → EReal) (bg : S1x64.Idx → EReal) : S1600000x64.Idx → EReal :=
  fun i => gateAt EA P We be Wt Wb bg ⟨(i 0).val, idx2_lt0 i⟩ ⟨(i 1).val, idx2_lt1 i⟩

theorem gate_apply (EA : S1600000x32.Idx → EReal) (P : S1600000x64.Idx → EReal) (We : S32x64.Idx → EReal) (be : S1x64.Idx → EReal)
    (Wt Wb : S64x64.Idx → EReal) (bg : S1x64.Idx → EReal) (e : Fin 1600000) (o : Fin 64) :
    gate EA P We be Wt Wb bg (ix2 e o) = gateAt EA P We be Wt Wb bg e o := rfl

/-- WHAT POINT `t` WRITES BACK is block `t` of the gated contributions of the seven arrays as the region finds them: entry
    (p, o) of the stored block depends on the point only through the edge row 8000 t + p, where the output block's entry sits. -/
theorem flushed2_eq (c : Dev nD) (t : Fin cfg2.N) :
    (dat2 V c).flushed 7 t = ((cfg2.win 7).blk t).view.read (Elt Ideal)
      (gate (V c main_arg2) (V c main_v32) (V c main_arg6) (V c main_v35) (V c main_v33) (V c main_v34) (V c main_v36)) := by
  show (cfg2.win 7).cut (grid2.coords t) ((dat2 V c).after 7 t) = _
  rw [after2_7]
  unfold out2_7
  rw [View.canon_unit_zero zero_off2]
  simp only [View.ld_unit_zero (S := S8000x32) zero_off2, View.ld_unit_zero (S := S8000x64) zero_off2,
    View.ld_unit_zero (S := S32x64) zero_off2, View.ld_unit_zero (S := S1x64) zero_off2, View.ld_unit_zero (S := S64x64) zero_off2]
  have e7 := (idx_facts2 t).2.2.2.2.2.2.2.2.2.2.2.2.2.2
  funext j
  obtain ⟨p, o, rfl⟩ : ∃ (p : Fin 8000) (o : Fin 64), j = ix2 p o := ⟨j 0, j 1, eq_ix2 j⟩
  show k2_pay1 (iblk2 V c 0 t) (iblk2 V c 2 t) (iblk2 V c 3 t) (iblk2 V c 1 t) (iblk2 V c 4 t) (iblk2 V c 5 t) (iblk2 V c 6 t) (ix2 p o)
    = gate (V c main_arg2) (V c main_v32) (V c main_arg6) (V c main_v35) (V c main_v33) (V c main_v34) (V c main_v36)
        (((cfg2.win 7).blk t).view.emb (ix2 p o))
  refine (pay2_apply _ _ _ _ _ _ _ p o).trans ?_
  have ho : (((cfg2.win 7).blk t).view.emb (ix2 p o) 1).val = o.val := by
    show win2_7.index t (1 : Fin 2) * 64 + 1 * o.val = o.val
    omega
  have he : (((cfg2.win 7).blk t).view.emb (ix2 p o) 0).val = t.val * 8000 + p.val := by
    show win2_7.index t (0 : Fin 2) * 8000 + 1 * p.val = t.val * 8000 + p.val
    omega
  have ho' : (⟨(((cfg2.win 7).blk t).view.emb (ix2 p o) 1).val, idx2_lt1 _⟩ : Fin 64) = o := Fin.ext ho
  simp only [fun k => blk2_0_row V c t p k ⟨(((cfg2.win 7).blk t).view.emb (ix2 p o) 0).val, idx2_lt0 _⟩ he,
    fun j => blk2_1_row V c t p j ⟨(((cfg2.win 7).blk t).view.emb (ix2 p o) 0).val, idx2_lt0 _⟩ he,
    blk2_2_apply V c t, blk2_3_apply V c t, blk2_4_apply V c t, blk2_5_apply V c t, blk2_6_apply V c t]
  exact congrArg (gateAt (V c main_arg2) (V c main_v32) (V c main_arg6) (V c main_v35) (V c main_v33) (V c main_v34) (V c main_v36)
    ⟨(((cfg2.win 7).blk t).view.emb (ix2 p o) 0).val, idx2_lt0 _⟩) ho'.symm

/-- An index of the output array is in point `t`'s block iff each coordinate is in the block's range on its axis. -/
theorem mem_blk2 (t : Fin cfg2.N) (i : S1600000x64.Idx) :
    i ∈ ((cfg2.win 7).blk t).view.set ↔ ∀ a : Fin 2, win2_7.index t a * S8000x64.size a ≤ (i a).val ∧ (i a).val < win2_7.index t a * S8000x64.size a + S8000x64.size a := by
  show i ∈ ((View.whole main_v37).slice (win2_7.rect t)).set ↔ _
  rw [View.set_slice_whole, Rect.mem_set_unit]
  exact Iff.rfl

/-- Edge row `e` lies in the block of point `e / 8000`: the two hundred row blocks cover the output array. -/
theorem cover2 (i : S1600000x64.Idx) :
    ∃ t : Fin cfg2.N, (cfg2.win 7).flush t = true ∧ i ∈ ((cfg2.win 7).blk t).view.set := by
  have hi0 : (i 0).val < 1600000 := idx2_lt0 i
  have hi1 : (i 1).val < 64 := idx2_lt1 i
  have hN : cfg2.N = 200 := N_2
  let t : Fin cfg2.N := ⟨(i 0).val / 8000, by rw [hN]; omega⟩
  have e7 := (idx_facts2 t).2.2.2.2.2.2.2.2.2.2.2.2.2.2
  have ht : t.val = (i 0).val / 8000 := rfl
  refine ⟨t, flush2_7 t, ?_⟩
  rw [mem_blk2]
  intro a
  match a with
  | ⟨0, _⟩ => show win2_7.index t (0 : Fin 2) * 8000 ≤ (i 0).val ∧ (i 0).val < win2_7.index t (0 : Fin 2) * 8000 + 8000; omega
  | ⟨1, _⟩ => show win2_7.index t (1 : Fin 2) * 64 ≤ (i 1).val ∧ (i 1).val < win2_7.index t (1 : Fin 2) * 64 + 64; omega

/-- THE OUTPUT ARRAY AFTER THE REGION is the array of gated edge contributions of the seven arrays as the region finds them. -/
theorem final2 (c : Dev nD) : (dat2 V c).arrAt 7 cfg2.N
    = gate (V c main_arg2) (V c main_v32) (V c main_arg6) (V c main_v35) (V c main_v33) (V c main_v34) (V c main_v36) :=
  (dat2 V c).arrAt_eq_of_cover 7 _ (fun t _ => flushed2_eq V c t) cover2

/-- The same at an entry, with the seven arrays named. -/
theorem arr2_of (c : Dev nD) (EA : S1600000x32.Idx → EReal) (P : S1600000x64.Idx → EReal) (We : S32x64.Idx → EReal)
    (be : S1x64.Idx → EReal) (Wt Wb : S64x64.Idx → EReal) (bg : S1x64.Idx → EReal)
    (hEA : V c main_arg2 = EA) (hP : V c main_v32 = P) (hWe : V c main_arg6 = We) (hbe : V c main_v35 = be)
    (hWt : V c main_v33 = Wt) (hWb : V c main_v34 = Wb) (hbg : V c main_v36 = bg) (e : Fin 1600000) (o : Fin 64) :
    (dat2 (F := Ideal) V c).arrAt 7 cfg2.N (ix2 e o)
      = Ideal.logistic ((∑ j : Fin 64, P (ix2 e j) * Wt (ix2 j o))
            + (∑ j : Fin 64, ((∑ k : Fin 32, EA (ix2 e k) * We (ix2 k j)) + be (ix2 (0 : Fin 1) j)) * Wb (ix2 j o))
            + bg (ix2 (0 : Fin 1) o))
          * ((∑ k : Fin 32, EA (ix2 e k) * We (ix2 k o)) + be (ix2 (0 : Fin 1) o)) := by
  subst hEA hP hWe hbe hWt hWb hbg
  rw [final2 V c]
  rfl

/-- The same with the region's own inputs in place (every entry read is an extended real: the brackets only fix that reading). -/
theorem arr2 (c : Dev nD) (e : Fin 1600000) (o : Fin 64) :
    ⟪(dat2 (F := Ideal) V c).arrAt 7 cfg2.N (ix2 e o)⟫
      = Ideal.logistic ((∑ j : Fin 64, ⟪V c main_v32 (ix2 e j)⟫ * ⟪V c main_v33 (ix2 j o)⟫)
            + (∑ j : Fin 64, ((∑ k : Fin 32, ⟪V c main_arg2 (ix2 e k)⟫ * ⟪V c main_arg6 (ix2 k j)⟫) + ⟪V c main_v35 (ix2 (0 : Fin 1) j)⟫) * ⟪V c main_v34 (ix2 j o)⟫)
            + ⟪V c main_v36 (ix2 (0 : Fin 1) o)⟫)
        * ((∑ k : Fin 32, ⟪V c main_arg2 (ix2 e k)⟫ * ⟪V c main_arg6 (ix2 k o)⟫) + ⟪V c main_v35 (ix2 (0 : Fin 1) o)⟫) :=
  arr2_of V c _ _ _ _ _ _ _ rfl rfl rfl rfl rfl rfl rfl e o

end Cert.KernelIdeal.Val

end
-- ==== Proof.Region3.lean ====
/-
  The normalise / scale / double / clip region, read as one array.

  The region walks the 100000 node rows in 20 blocks of 5000.  At a block it subtracts from each of the 64 entries of a
  row the column's mean, multiplies by the column's inverse deviation, then by gamma, adds beta, doubles and clips below
  at zero.  Every entry of the output depends on the same entry of the row-blocked input and on the same column of the
  four small rows, and on nothing else:

      out[n, o] = max(2 · (gamma[0, o] · ((in[n, o] − mean[0, o]) · invdev[0, o]) + beta[0, o]), 0).

  The steps: the block's arithmetic at one entry (p, q) of a block; row p of block t of the row-blocked input is row
  5000 t + p of its array, and each small row's only block is the row; so what point t writes back is block t of the
  function above of the five arrays as the region finds them; row r lies in the block of point r / 5000, so the 20 blocks
  cover the array, and the array after the region is that function.  Nothing is assumed about the five arrays.
-/
import proofs.«112606_j24051816857689_2_alg».proof.Proof.Gen.KernelIdeal.Frame
import proofs.«112606_j24051816857689_2_alg».proof.Proof.Spec
import proofs.«112606_j24051816857689_2_alg».proof.Proof.LibTwoProducts
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.ValueIdx Idealize.ShloMosaic.TcCoe

variable (V : (c : Dev nD) → (b : Ref sig .tc) → Buf (Elt Ideal) ((c : Thread nD τ).loc b))

/-- An entry of a buffer, named as the extended real it is. -/
local notation "⟪" x "⟫" => (@id EReal x)

/-- The zero offsets of a whole-block access, however spelt. -/
theorem zeroOffsets3 : (![0, 0] : Fin 2 → Nat) = fun _ => 0 := funext fun a => by fin_cases a <;> rfl

/-- The normalised, scaled, shifted, doubled and clipped entry of node n, column o. -/
def normClipAt (a0 : S100000x64.Idx → EReal) (mu : S1x64.Idx → EReal) (is : S1x64.Idx → EReal)
    (ga : S1x64.Idx → EReal) (be : S1x64.Idx → EReal) (n : Fin 100000) (o : Fin 64) : EReal :=
  max (Cert.Spec.two32 * (ga (ix2 (0 : Fin 1) o) * ((a0 (ix2 n o) - mu (ix2 (0 : Fin 1) o)) * is (ix2 (0 : Fin 1) o))
    + be (ix2 (0 : Fin 1) o))) Cert.Spec.zero32

/-- The same, as a function of the array's index. -/
def normClip (a0 : S100000x64.Idx → EReal) (mu : S1x64.Idx → EReal) (is : S1x64.Idx → EReal)
    (ga : S1x64.Idx → EReal) (be : S1x64.Idx → EReal) : S100000x64.Idx → EReal :=
  fun i => normClipAt a0 mu is ga be (i 0) (i 1)

/-- The block's arithmetic at entry (p, q): the entry less the column's mean, times the column's inverse deviation,
    times gamma, plus beta, doubled, clipped below at zero. -/
theorem pay3_apply (x0 : Vec Ideal S5000x64 .f32) (x1 : Vec Ideal S1x64 .f32) (x2 : Vec Ideal S1x64 .f32)
    (x3 : Vec Ideal S1x64 .f32) (x4 : Vec Ideal S1x64 .f32) (p : Fin 5000) (q : Fin 64) :
    k3_pay1 x0 x1 x2 x3 x4 (ix2 p q)
      = max (Cert.Spec.two32 * (x3 (ix2 (0 : Fin 1) q) * ((x0 (ix2 p q) - x1 (ix2 (0 : Fin 1) q)) * x2 (ix2 (0 : Fin 1) q))
          + x4 (ix2 (0 : Fin 1) q))) Cert.Spec.zero32 := by
  unfold k3_pay1
  rw [maximumf_apply, mulf_apply, addf_apply, mulf_apply, mulf_apply, subf_apply,
    TwoProducts.bias_row_apply, TwoProducts.bias_row_apply, TwoProducts.bias_row_apply, TwoProducts.bias_row_apply,
    shapeCast_self, broadcast_apply, broadcast_apply]
  rfl

/-- The block index maps of the row-blocked input and of the output, decided over the 20 grid points: block row = the
    point, block column 0. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0 :=
  (by decide +kernel : ∀ t : Fin grid3.N, _)

/-- The four small rows stay at block (0, 0). -/
theorem rows_facts3 : ∀ t : Fin cfg3.N, (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0) :=
  (by decide +kernel : ∀ t : Fin grid3.N, _)

/-- When the row-blocked input holds, at row p, what its array holds at row n, and the four small blocks hold their rows,
    the block's entry (p, q) is the entry (n, q) of the function above. -/
theorem point_entry3 (x0 : Vec Ideal S5000x64 .f32) (x1 : Vec Ideal S1x64 .f32) (x2 : Vec Ideal S1x64 .f32)
    (x3 : Vec Ideal S1x64 .f32) (x4 : Vec Ideal S1x64 .f32) (a0 : S100000x64.Idx → EReal) (mu : S1x64.Idx → EReal)
    (is : S1x64.Idx → EReal) (ga : S1x64.Idx → EReal) (be : S1x64.Idx → EReal) (p : Fin 5000) (q : Fin 64) (n : Fin 100000)
    (h0 : x0 (ix2 p q) = a0 (ix2 n q)) (h1 : x1 (ix2 (0 : Fin 1) q) = mu (ix2 (0 : Fin 1) q))
    (h2 : x2 (ix2 (0 : Fin 1) q) = is (ix2 (0 : Fin 1) q)) (h3 : x3 (ix2 (0 : Fin 1) q) = ga (ix2 (0 : Fin 1) q))
    (h4 : x4 (ix2 (0 : Fin 1) q) = be (ix2 (0 : Fin 1) q)) :
    k3_pay1 x0 x1 x2 x3 x4 (ix2 p q) = normClipAt a0 mu is ga be n q := by
  rw [pay3_apply, h0, h1, h2, h3, h4]; rfl

/-- Block t of the input rows: its row p is row 5000 t + p of the array. -/
theorem iblk3_0_apply (c : Dev nD) (t : Fin cfg3.N) (p : Fin 5000) (q : Fin 64) (n : Fin 100000)
    (hn : n.val = t.val * 5000 + p.val) :
    (iblk3 V c 0 t : Vec Ideal S5000x64 .f32) (ix2 p q) = (V c main_v41 : S100000x64.Idx → EReal) (ix2 n q) := by
  obtain ⟨e0, e1, -⟩ := idx_facts3 t
  unfold iblk3
  show (V c main_v41 : S100000x64.Idx → EReal) (((cfg3.win 0).blk t).view.emb (ix2 p q)) = _
  refine congrArg (V c main_v41 : S100000x64.Idx → EReal) (funext fun a => Fin.ext ?_)
  match a with
  | ⟨0, _⟩ => show win3_0.index t (0 : Fin 2) * 5000 + 1 * p.val = n.val; omega
  | ⟨1, _⟩ => show win3_0.index t (1 : Fin 2) * 64 + 1 * q.val = q.val; omega

/-- The mean row's one block is the row itself, at every point. -/
theorem iblk3_1_apply (c : Dev nD) (t : Fin cfg3.N) (q : Fin 64) :
    (iblk3 V c 1 t : Vec Ideal S1x64 .f32) (ix2 (0 : Fin 1) q) = (V c main_v55 : S1x64.Idx → EReal) (ix2 (0 : Fin 1) q) := by
  obtain ⟨e0, e1⟩ := (rows_facts3 t).1
  unfold iblk3
  show (V c main_v55 : S1x64.Idx → EReal) (((cfg3.win 1).blk t).view.emb (ix2 (0 : Fin 1) q)) = _
  refine congrArg (V c main_v55 : S1x64.Idx → EReal) (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- The inverse-deviation row's one block is the row itself, at every point. -/
theorem iblk3_2_apply (c : Dev nD) (t : Fin cfg3.N) (q : Fin 64) :
    (iblk3 V c 2 t : Vec Ideal S1x64 .f32) (ix2 (0 : Fin 1) q) = (V c main_v56 : S1x64.Idx → EReal) (ix2 (0 : Fin 1) q) := by
  obtain ⟨e0, e1⟩ := (rows_facts3 t).2.1
  unfold iblk3
  show (V c main_v56 : S1x64.Idx → EReal) (((cfg3.win 2).blk t).view.emb (ix2 (0 : Fin 1) q)) = _
  refine congrArg (V c main_v56 : S1x64.Idx → EReal) (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- The gamma row's one block is the row itself, at every point. -/
theorem iblk3_3_apply (c : Dev nD) (t : Fin cfg3.N) (q : Fin 64) :
    (iblk3 V c 3 t : Vec Ideal S1x64 .f32) (ix2 (0 : Fin 1) q) = (V c main_v57 : S1x64.Idx → EReal) (ix2 (0 : Fin 1) q) := by
  obtain ⟨e0, e1⟩ := (rows_facts3 t).2.2.1
  unfold iblk3
  show (V c main_v57 : S1x64.Idx → EReal) (((cfg3.win 3).blk t).view.emb (ix2 (0 : Fin 1) q)) = _
  refine congrArg (V c main_v57 : S1x64.Idx → EReal) (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- The beta row's one block is the row itself, at every point. -/
theorem iblk3_4_apply (c : Dev nD) (t : Fin cfg3.N) (q : Fin 64) :
    (iblk3 V c 4 t : Vec Ideal S1x64 .f32) (ix2 (0 : Fin 1) q) = (V c main_v58 : S1x64.Idx → EReal) (ix2 (0 : Fin 1) q) := by
  obtain ⟨e0, e1⟩ := (rows_facts3 t).2.2.2
  unfold iblk3
  show (V c main_v58 : S1x64.Idx → EReal) (((cfg3.win 4).blk t).view.emb (ix2 (0 : Fin 1) q)) = _
  refine congrArg (V c main_v58 : S1x64.Idx → EReal) (funext fun a => Fin.ext ?_)
  match a with
  | ⟨0, _⟩ => show win3_4.index t (0 : Fin 2) * 1 + 1 * 0 = 0; omega
  | ⟨1, _⟩ => show win3_4.index t (1 : Fin 2) * 64 + 1 * q.val = q.val; omega

/-- What point t writes back is block t of the function above of the arrays as the region finds them. -/
theorem flushed3_eq (c : Dev nD) (t : Fin cfg3.N) :
    (dat3 (F := Ideal) V c).flushed 5 t = ((cfg3.win 5).blk t).view.read (Elt Ideal)
      (normClip (V c main_v41) (V c main_v55) (V c main_v56) (V c main_v57) (V c main_v58)) := by
  show (cfg3.win 5).cut (grid3.coords t) ((dat3 (F := Ideal) V c).after 5 t) = _
  rw [after3_5]
  unfold out3_5
  rw [View.canon_unit_zero zeroOffsets3]
  simp only [View.ld_unit_zero (S := S5000x64) zeroOffsets3, View.ld_unit_zero (S := S1x64) zeroOffsets3]
  obtain ⟨-, -, e0, e1⟩ := idx_facts3 t
  have hN : cfg3.N = 20 := N_3
  funext j
  obtain ⟨p, q, rfl⟩ : ∃ (p : Fin 5000) (q : Fin 64), j = ix2 p q := ⟨j 0, j 1, eq_ix2 j⟩
  have ht : t.val < 20 := hN ▸ t.isLt
  obtain ⟨n, hn⟩ : ∃ n : Fin 100000, n.val = t.val * 5000 + p.val :=
    ⟨⟨t.val * 5000 + p.val, by have := p.isLt; omega⟩, rfl⟩
  refine (point_entry3 (iblk3 V c 0 t) (iblk3 V c 1 t) (iblk3 V c 2 t) (iblk3 V c 3 t) (iblk3 V c 4 t)
    (V c main_v41) (V c main_v55) (V c main_v56) (V c main_v57) (V c main_v58) p q n
    (iblk3_0_apply V c t p q n hn) (iblk3_1_apply V c t q) (iblk3_2_apply V c t q) (iblk3_3_apply V c t q)
    (iblk3_4_apply V c t q)).trans ?_
  have h0 : (((cfg3.win 5).blk t).view.emb (ix2 p q) 0 : Fin 100000) = n :=
    Fin.ext (by show win3_5.index t (0 : Fin 2) * 5000 + 1 * p.val = n.val; omega)
  have h1 : (((cfg3.win 5).blk t).view.emb (ix2 p q) 1 : Fin 64) = q :=
    Fin.ext (by show win3_5.index t (1 : Fin 2) * 64 + 1 * q.val = q.val; omega)
  exact (congrArg₂ (normClipAt (V c main_v41) (V c main_v55) (V c main_v56) (V c main_v57) (V c main_v58)) h0 h1).symm

/-- An index of the array is in point t's block iff each coordinate is in the block's range on its axis. -/
theorem mem_blk3 (t : Fin cfg3.N) (i : S100000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v59).slice (win3_5.rect t)).set ↔ _
  rw [View.set_slice_whole, Rect.mem_set_unit]
  exact Iff.rfl

/-- Row r of the array is in the block of point r / 5000. -/
theorem cover3 (i : S100000x64.Idx) :
    ∃ t : Fin cfg3.N, (cfg3.win 5).flush t = true ∧ i ∈ ((cfg3.win 5).blk t).view.set := by
  have hN : cfg3.N = 20 := N_3
  have hi0 : (i 0).val < 100000 := (i 0).isLt
  have hi1 : (i 1).val < 64 := (i 1).isLt
  let t : Fin cfg3.N := ⟨(i 0).val / 5000, by rw [hN]; omega⟩
  have htv : t.val = (i 0).val / 5000 := rfl
  obtain ⟨-, -, e0, e1⟩ := idx_facts3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The array after the region, as one function of the arrays the region finds. -/
theorem final3 (c : Dev nD) : (dat3 (F := Ideal) V c).arrAt 5 cfg3.N
    = normClip (V c main_v41) (V c main_v55) (V c main_v56) (V c main_v57) (V c main_v58) :=
  (dat3 (F := Ideal) V c).arrAt_eq_of_cover 5
    (normClip (V c main_v41) (V c main_v55) (V c main_v56) (V c main_v57) (V c main_v58))
    (fun t _ => flushed3_eq V c t) cover3

/-- The array after the region, entry by entry.  (The product by gamma and the difference are written with their
    operand type named, the entries being extended reals.) -/
theorem arr3_plain (c : Dev nD) (n : Fin 100000) (o : Fin 64) :
    (dat3 (F := Ideal) V c).arrAt 5 cfg3.N (ix2 n o)
      = max (Cert.Spec.two32 * (HMul.hMul (α := EReal) (β := EReal) (V c main_v57 (ix2 (0 : Fin 1) o))
            (HSub.hSub (α := EReal) (β := EReal) (V c main_v41 (ix2 n o)) (V c main_v55 (ix2 (0 : Fin 1) o))
              * V c main_v56 (ix2 (0 : Fin 1) o))
          + V c main_v58 (ix2 (0 : Fin 1) o))) Cert.Spec.zero32 := by
  rw [final3]
  rfl

/-- The same with the five entries it reads named. -/
theorem arr3_of (c : Dev nD) (n : Fin 100000) (o : Fin 64) (x mu is ga be : EReal)
    (hx : x = V c main_v41 (ix2 n o)) (hmu : mu = V c main_v55 (ix2 (0 : Fin 1) o))
    (his : is = V c main_v56 (ix2 (0 : Fin 1) o)) (hga : ga = V c main_v57 (ix2 (0 : Fin 1) o))
    (hbe : be = V c main_v58 (ix2 (0 : Fin 1) o)) :
    (dat3 (F := Ideal) V c).arrAt 5 cfg3.N (ix2 n o)
      = max (Cert.Spec.two32 * (ga * ((x - mu) * is) + be)) Cert.Spec.zero32 := by
  subst hx hmu his hga hbe
  exact arr3_plain V c n o

/-- The same, each entry named as an extended real. -/
theorem arr3 (c : Dev nD) (n : Fin 100000) (o : Fin 64) :
    ⟪(dat3 (F := Ideal) V c).arrAt 5 cfg3.N (ix2 n o)⟫
      = max (Cert.Spec.two32 * (⟪V c main_v57 (ix2 (0 : Fin 1) o)⟫ * ((⟪V c main_v41 (ix2 n o)⟫ - ⟪V c main_v55 (ix2 (0 : Fin 1) o)⟫) * ⟪V c main_v56 (ix2 (0 : Fin 1) o)⟫) + ⟪V c main_v58 (ix2 (0 : Fin 1) o)⟫)) Cert.Spec.zero32 :=
  arr3_plain V c n o

end Cert.KernelIdeal.Val
end
-- ==== Proof.KChainB.lean ====
/-
  The idealized kernel program's buffers, followed through its last two regions to the result.

  The node values are gathered at the targets and region 2 computes every edge's gated contribution
  `Spec.contribK`; the host segment-sums the contributions at the targets and adds them to the node values
  (`Spec.outK`), takes each column's mean and inverse deviation, and region 3 normalises, scales, shifts, doubles and
  clips: the result is `Spec.finK` of `Spec.outK`.
-/
import proofs.«112606_j24051816857689_2_alg».proof.Proof.Gen.KernelIdeal.Frame
import Idealize.ShloMosaic.Lib.StableHlo.Run
import Idealize.ShloMosaic.PureOps.Ideal
import Idealize.ShloMosaic.Lib.Pipeline.Value
import proofs.«112606_j24051816857689_2_alg».proof.Proof.KChainA
import proofs.«112606_j24051816857689_2_alg».proof.Proof.Region2
import proofs.«112606_j24051816857689_2_alg».proof.Proof.Region3
set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem Idealize.ShloMosaic.StableHlo

open Idealize.ShloMosaic.ValueIdx
open scoped BigOperators

variable (m : (ℓ : Loc nD τ sig) → Buf (Elt Ideal) ℓ) (ρ : Dev nD → PrngReg) (c : Dev nD)

/-- An entry of a float buffer, read as an extended real (the buffer's entry type unfolds to it). -/
local notation "⟪" x "⟫" => (@id EReal x)

/-! ## What region 1 and the stretch before it leave alone -/

theorem w4_v3 : W4 m ρ c (Proc.devRef .tc main_v3) = colWords (m ((c : Thread nD τ).loc main_arg1)) :=
  (W4_of_ne m ρ c main_v3 (by decide)).trans ((h1_keep_v3 (W2 m ρ c)).trans (w2_v3 m ρ c))
theorem w4_arg2 : W4 m ρ c (Proc.devRef .tc main_arg2) = (m ((c : Thread nD τ).loc main_arg2)) :=
  (W4_of_ne m ρ c main_arg2 (by decide)).trans ((h1_keep_arg2 (W2 m ρ c)).trans ((w2_arg m ρ c main_arg2 (by decide) (by decide)).trans rfl))
theorem w4_arg6 : W4 m ρ c (Proc.devRef .tc main_arg6) = (m ((c : Thread nD τ).loc main_arg6)) :=
  (W4_of_ne m ρ c main_arg6 (by decide)).trans ((h1_keep_arg6 (W2 m ρ c)).trans ((w2_arg m ρ c main_arg6 (by decide) (by decide)).trans rfl))
theorem w4_arg7 : W4 m ρ c (Proc.devRef .tc main_arg7) = (m ((c : Thread nD τ).loc main_arg7)) :=
  (W4_of_ne m ρ c main_arg7 (by decide)).trans ((h1_keep_arg7 (W2 m ρ c)).trans ((w2_arg m ρ c main_arg7 (by decide) (by decide)).trans rfl))
theorem w4_arg8 : W4 m ρ c (Proc.devRef .tc main_arg8) = (m ((c : Thread nD τ).loc main_arg8)) :=
  (W4_of_ne m ρ c main_arg8 (by decide)).trans ((h1_keep_arg8 (W2 m ρ c)).trans ((w2_arg m ρ c main_arg8 (by decide) (by decide)).trans rfl))
theorem w4_arg9 : W4 m ρ c (Proc.devRef .tc main_arg9) = (m ((c : Thread nD τ).loc main_arg9)) :=
  (W4_of_ne m ρ c main_arg9 (by decide)).trans ((h1_keep_arg9 (W2 m ρ c)).trans ((w2_arg m ρ c main_arg9 (by decide) (by decide)).trans rfl))
theorem w4_arg10 : W4 m ρ c (Proc.devRef .tc main_arg10) = (m ((c : Thread nD τ).loc main_arg10)) :=
  (W4_of_ne m ρ c main_arg10 (by decide)).trans ((h1_keep_arg10 (W2 m ρ c)).trans ((w2_arg m ρ c main_arg10 (by decide) (by decide)).trans rfl))
theorem w4_arg11 : W4 m ρ c (Proc.devRef .tc main_arg11) = (m ((c : Thread nD τ).loc main_arg11)) :=
  (W4_of_ne m ρ c main_arg11 (by decide)).trans ((h1_keep_arg11 (W2 m ρ c)).trans ((w2_arg m ρ c main_arg11 (by decide) (by decide)).trans rfl))

/-! ## Before and after region 2 -/

theorem v5_arg2 : V5 m ρ c main_arg2 = (m ((c : Thread nD τ).loc main_arg2)) := (h2_keep_arg2 (W4 m ρ c)).trans (w4_arg2 m ρ c)
theorem v5_arg6 : V5 m ρ c main_arg6 = (m ((c : Thread nD τ).loc main_arg6)) := (h2_keep_arg6 (W4 m ρ c)).trans (w4_arg6 m ρ c)

/-- The region-2 inputs as whole arrays. -/
theorem v5_v32_fun : V5 m ρ c main_v32 = gatherAt (W4 m ρ c (Proc.devRef .tc main_v24)) (colWords (m ((c : Thread nD τ).loc main_arg1))) := by
  rw [show V5 m ρ c main_v32 = gatherAt (W4 m ρ c (Proc.devRef .tc main_v24)) (W4 m ρ c (Proc.devRef .tc main_v3))
        from h2_v32 (W4 m ρ c), w4_v3]
theorem v5_v33_fun : V5 m ρ c main_v33 = topOf (m ((c : Thread nD τ).loc main_arg8)) := (h2_v33 (W4 m ρ c)).trans (congrArg topOf (w4_arg8 m ρ c))
theorem v5_v34_fun : V5 m ρ c main_v34 = botOf (m ((c : Thread nD τ).loc main_arg8)) := (h2_v34 (W4 m ρ c)).trans (congrArg botOf (w4_arg8 m ρ c))
theorem v5_v35_fun : V5 m ρ c main_v35 = rowOfVec (m ((c : Thread nD τ).loc main_arg7)) := (h2_v35 (W4 m ρ c)).trans (congrArg rowOfVec (w4_arg7 m ρ c))
theorem v5_v36_fun : V5 m ρ c main_v36 = rowOfVec (m ((c : Thread nD τ).loc main_arg9)) := (h2_v36 (W4 m ρ c)).trans (congrArg rowOfVec (w4_arg9 m ρ c))

/-- An edge's mapped attributes, from the launch arrays. -/
theorem eaL_eq (e : Fin 1600000) (o : Fin 64) :
    (∑ k : Fin 32, (A m c).ea (ix2 e k) * (A m c).We (ix2 k o)) + rowOfVec (A m c).be (ix2 (0 : Fin 1) o)
      = Cert.Spec.eaL (A m c) e o := by
  rw [rowOfVec_apply]
  rfl

/-- Region 2 leaves every edge's gated contribution. -/
theorem w6_v37 (e : Fin 1600000) (o : Fin 64) :
    W6 m ρ c (Proc.devRef .tc main_v37) (ix2 e o) = Cert.Spec.contribK (A m c) e o := by
  rw [show W6 m ρ c (Proc.devRef .tc main_v37) = (dat2 (V5 m ρ) c).arrAt 7 cfg2.N from W6_arr m ρ c 7]
  refine (arr2_of (V5 m ρ) c _ _ _ _ _ _ _ (v5_arg2 m ρ c) (v5_v32_fun m ρ c) (v5_arg6 m ρ c) (v5_v35_fun m ρ c)
    (v5_v33_fun m ρ c) (v5_v34_fun m ρ c) (v5_v36_fun m ρ c) e o).trans ?_
  unfold Cert.Spec.contribK Cert.Spec.logitK
  refine congrArg₂ (· * ·) (congrArg Ideal.logistic (congrArg₂ (· + ·) (congrArg₂ (· + ·)
    (Finset.sum_congr rfl fun j _ => congrArg₂ (· * ·) ((gatherAt_apply _ _ e j).trans (w4_v24 m ρ c _ j)) (topOf_apply _ j o))
    (Finset.sum_congr rfl fun j _ => congrArg₂ (· * ·) (eaL_eq m c e j) (botOf_apply _ j o)))
    (rowOfVec_apply _ o))) (eaL_eq m c e o)

/-! ## Before and after region 3 -/

theorem w6_v24 : W6 m ρ c (Proc.devRef .tc main_v24) = W4 m ρ c (Proc.devRef .tc main_v24) :=
  (W6_of_ne m ρ c main_v24 (by decide)).trans (h2_keep_v24 (W4 m ρ c))
theorem w6_v3 : W6 m ρ c (Proc.devRef .tc main_v3) = colWords (m ((c : Thread nD τ).loc main_arg1)) :=
  (W6_of_ne m ρ c main_v3 (by decide)).trans ((h2_keep_v3 (W4 m ρ c)).trans (w4_v3 m ρ c))
theorem w6_arg10 : W6 m ρ c (Proc.devRef .tc main_arg10) = (m ((c : Thread nD τ).loc main_arg10)) :=
  (W6_of_ne m ρ c main_arg10 (by decide)).trans ((h2_keep_arg10 (W4 m ρ c)).trans (w4_arg10 m ρ c))
theorem w6_arg11 : W6 m ρ c (Proc.devRef .tc main_arg11) = (m ((c : Thread nD τ).loc main_arg11)) :=
  (W6_of_ne m ρ c main_arg11 (by decide)).trans ((h2_keep_arg11 (W4 m ρ c)).trans (w4_arg11 m ρ c))

/-- The node values plus the segment-summed contributions. -/
theorem out_eq (n : Fin 100000) (o : Fin 64) :
    outOf (W6 m ρ c (Proc.devRef .tc main_v24)) (W6 m ρ c (Proc.devRef .tc main_v3)) (W6 m ρ c (Proc.devRef .tc main_v37)) (ix2 n o)
      = Cert.Spec.outK (A m c) n o := by
  rw [outOf_apply, w6_v3, w6_v24]
  unfold Cert.Spec.outK Cert.Spec.segSum
  refine congrArg₂ (· + ·) (w4_v24 m ρ c n o) (congrArg (_ + ·) (Finset.sum_congr rfl fun e _ => if_congr Iff.rfl ?_ rfl))
  exact w6_v37 m ρ c e o

theorem v7_v41 (n : Fin 100000) (o : Fin 64) : V7 m ρ c main_v41 (ix2 n o) = Cert.Spec.outK (A m c) n o := by
  rw [show V7 m ρ c main_v41 = outOf (W6 m ρ c (Proc.devRef .tc main_v24)) (W6 m ρ c (Proc.devRef .tc main_v3))
        (W6 m ρ c (Proc.devRef .tc main_v37)) from h3_v41 (W6 m ρ c)]
  exact out_eq m ρ c n o
theorem v7_v55 (o : Fin 64) : V7 m ρ c main_v55 (ix2 (0 : Fin 1) o) = Cert.Spec.mean (Cert.Spec.outK (A m c)) o := by
  rw [show V7 m ρ c main_v55 = rowOfVec (meanOf (outOf (W6 m ρ c (Proc.devRef .tc main_v24)) (W6 m ρ c (Proc.devRef .tc main_v3))
        (W6 m ρ c (Proc.devRef .tc main_v37)))) from h3_v55 (W6 m ρ c)]
  rw [rowOfVec_apply]
  exact meanOf_apply _ _ (out_eq m ρ c) o
theorem v7_v56 (o : Fin 64) : V7 m ρ c main_v56 (ix2 (0 : Fin 1) o) = Cert.Spec.invStd (Cert.Spec.outK (A m c)) o := by
  rw [show V7 m ρ c main_v56 = rowOfVec (invOf (outOf (W6 m ρ c (Proc.devRef .tc main_v24)) (W6 m ρ c (Proc.devRef .tc main_v3))
        (W6 m ρ c (Proc.devRef .tc main_v37)))) from h3_v56 (W6 m ρ c)]
  rw [rowOfVec_apply]
  exact invOf_apply _ _ (out_eq m ρ c) o
theorem v7_v57 (o : Fin 64) : V7 m ρ c main_v57 (ix2 (0 : Fin 1) o) = (A m c).gamma (ix1 o) := by
  rw [show V7 m ρ c main_v57 = rowOfVec (W6 m ρ c (Proc.devRef .tc main_arg10)) from h3_v57 (W6 m ρ c)]
  rw [w6_arg10, rowOfVec_apply]
  rfl
theorem v7_v58 (o : Fin 64) : V7 m ρ c main_v58 (ix2 (0 : Fin 1) o) = (A m c).beta (ix1 o) := by
  rw [show V7 m ρ c main_v58 = rowOfVec (W6 m ρ c (Proc.devRef .tc main_arg11)) from h3_v58 (W6 m ρ c)]
  rw [w6_arg11, rowOfVec_apply]
  rfl

/-- THE RESULT, entry by entry. -/
theorem w8_v59 (n : Fin 100000) (o : Fin 64) :
    W8 m ρ c (Proc.devRef .tc main_v59) (ix2 n o) = Cert.Spec.finK (A m c) (Cert.Spec.outK (A m c)) n o := by
  rw [show W8 m ρ c (Proc.devRef .tc main_v59) = (dat3 (V7 m ρ) c).arrAt 5 cfg3.N from W8_arr m ρ c 5]
  exact arr3_of (V7 m ρ) c n o _ _ _ _ _ (v7_v41 m ρ c n o).symm (v7_v55 m ρ c o).symm (v7_v56 m ρ c o).symm
    (v7_v57 m ρ c o).symm (v7_v58 m ρ c o).symm

end Cert.KernelIdeal.Val

end
-- ==== Proof.RefValue1.lean ====
/-
  The reference's value, entry by entry — part 1: the neighbour mean.

  The reference gathers, for every edge, the raw feature row of the edge's source node, sums the gathered rows
  into the edge's target node (a segment sum from the zero word), counts the edges into each node the same way,
  divides each of the 128 sums by the count (at least 1), maps the quotient row by Wl, and adds the bias and the
  node's own row mapped by Wr. Read at node n and column o this is the specification's preR.

  Its three index columns (source rows, target words, target rows) are stages of the program itself: they are
  carried as they are in the argument record, never opened.
-/
import proofs.«112606_j24051816857689_2_alg».proof.Proof.Gen.ReferenceIdeal.Read
import proofs.«112606_j24051816857689_2_alg».proof.Proof.Spec
import proofs.«112606_j24051816857689_2_alg».proof.Proof.LibSegments
import proofs.«112606_j24051816857689_2_alg».proof.Proof.LibScatterRows

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable (x0 : (⟨S100000x128, .f32⟩ : BufTy).Contents (Elt Ideal)) (x1 : (⟨S2x1600000, .i32⟩ : BufTy).Contents (Elt Ideal))
  (x2 : (⟨S1600000x32, .f32⟩ : BufTy).Contents (Elt Ideal)) (x3 : (⟨S128x64, .f32⟩ : BufTy).Contents (Elt Ideal))
  (x4 : (⟨S64, .f32⟩ : BufTy).Contents (Elt Ideal)) (x5 : (⟨S128x64, .f32⟩ : BufTy).Contents (Elt Ideal))
  (x6 : (⟨S32x64, .f32⟩ : BufTy).Contents (Elt Ideal)) (x7 : (⟨S64, .f32⟩ : BufTy).Contents (Elt Ideal))
  (x8 : (⟨S128x64, .f32⟩ : BufTy).Contents (Elt Ideal)) (x9 x10 x11 : (⟨S64, .f32⟩ : BufTy).Contents (Elt Ideal))

/-- the reference's argument record: its three index columns are its own stages -/
def args : Cert.Spec.Args :=
  { x := x0, src := Read.val_main_v9 (F := Ideal) x1, dst := Read.val_main_v12 (F := Ideal) x1,
    dstG := Read.val_main_v38 (F := Ideal) x1,
    ea := x2, Wl := x3, bl := x4, Wr := x5, We := x6, be := x7, Wg := x8, bg := x9, gamma := x10, beta := x11 }

local notation "A" => args x0 x1 x2 x3 x4 x5 x6 x7 x8 x9 x10 x11

/-- The first gather at (e, k): the raw feature k of the row the source column names for edge e. -/
theorem stage10 (e : Fin 1600000) (k : Fin 128) :
    Read.val_main_v10 (F := Ideal) x0 x1 (ix2 e k) = (A).x (ix2 (Cert.Spec.rowOf (A).src e) k) := by
  unfold Read.val_main_v10
  exact Segments.gather_rows_apply_of_dims (N := 100000) (E := 1600000) (C := 128) (w := 32) (by norm_num)
    gather_S100000x128_S1600000x1_S1600000x128_1_0_n_n_0_1_1128 rfl rfl rfl rfl rfl rfl rfl
    x0 (Read.val_main_v9 (F := Ideal) x1) e k

/-- The first segment sum at (n, k): the raw feature k summed over the in-neighbours of n. -/
theorem stage13 (n : Fin 100000) (k : Fin 128) :
    Read.val_main_v13 (F := Ideal) x0 x1 (ix2 n k)
      = Cert.Spec.segSum A (fun e => (A).x (ix2 (Cert.Spec.rowOf (A).src e) k)) n := by
  unfold Read.val_main_v13
  refine (ScatterRows.scatterAdd_rows2_apply_of_dims (N := 100000) (E := 1600000) (C := 128) (w := 32)
    scatter_S100000x128_S1600000x1_S1600000x128_1_0_0_1 rfl rfl rfl rfl
    (Read.val_main_v11 (F := Ideal)) (Read.val_main_v12 (F := Ideal) x1) (Read.val_main_v10 (F := Ideal) x0 x1) n k).trans ?_
  unfold Cert.Spec.segSum
  refine congrArg₂ (· + ·) ?_ (Finset.sum_congr rfl fun e _ => ?_)
  · rw [Read.val_main_v11_apply, Read.val_main_cst_apply]; rfl
  · rw [stage10]; rfl

/-- The count at n: one per edge whose target word is n, from the zero word. -/
theorem stage17 (n : Fin 100000) : Read.val_main_v17 (F := Ideal) x1 (ix1 n) = Cert.Spec.cnt A n := by
  unfold Read.val_main_v17
  refine (Segments.scatterAdd_rows1_apply_of_dims (N := 100000) (E := 1600000) (w := 32)
    scatter_S100000_S1600000x1_S1600000_n_0_0_1 rfl rfl rfl rfl
    (Read.val_main_v15 (F := Ideal)) (Read.val_main_v16 (F := Ideal) x1) (Read.val_main_v14 (F := Ideal)) n).trans ?_
  unfold Cert.Spec.cnt Cert.Spec.segSum
  refine congrArg₂ (· + ·) ?_ (Finset.sum_congr rfl fun e _ => ?_)
  · rw [Read.val_main_v15_apply, Read.val_main_cst_2_apply]; rfl
  · rw [Read.val_main_v14_apply, Read.val_main_cst_1_apply]; rfl

/-- The divisor at n: the count, at least 1. -/
theorem stage19 (n : Fin 100000) : Read.val_main_v19 (F := Ideal) x1 (ix1 n) = Cert.Spec.den A n := by
  rw [Read.val_main_v19_apply, stage17 x0 x1 x2 x3 x4 x5 x6 x7 x8 x9 x10 x11, Read.val_main_v18_apply, Read.val_main_cst_3_apply]; rfl

/-- The divisor spread over the 128 columns. -/
theorem stage21 (n : Fin 100000) (k : Fin 128) :
    Read.val_main_v21 (F := Ideal) x1 (ix2 n k) = Cert.Spec.den A n := by
  have h21 : Read.idx_main_v21 (ix2 n k) = ix2 n (0 : Fin 1) :=
    funext fun a => Fin.ext (by match a with | ⟨0, _⟩ => rfl | ⟨1, _⟩ => rfl)
  have h20 : Read.idx_main_v20 (ix2 n (0 : Fin 1)) = ix1 n :=
    funext fun a => Fin.ext (by match a with | ⟨0, _⟩ => rfl)
  rw [Read.val_main_v21_apply, h21, Read.val_main_v20_apply, h20, stage19 x0 x1 x2 x3 x4 x5 x6 x7 x8 x9 x10 x11]

/-- The neighbour mean at (n, k). -/
theorem stage22 (n : Fin 100000) (k : Fin 128) :
    Read.val_main_v22 (F := Ideal) x0 x1 (ix2 n k)
      = Ideal.div (Cert.Spec.segSum A (fun e => (A).x (ix2 (Cert.Spec.rowOf (A).src e) k)) n) (Cert.Spec.den A n) := by
  rw [Read.val_main_v22_apply, stage13 x0 x1 x2 x3 x4 x5 x6 x7 x8 x9 x10 x11, stage21 x0 x1 x2 x3 x4 x5 x6 x7 x8 x9 x10 x11]; rfl

/-- The neighbour mean mapped by Wl at (n, o). -/
theorem stage23 (n : Fin 100000) (o : Fin 64) :
    Read.val_main_v23 (F := Ideal) x0 x1 x3 (ix2 n o)
      = ∑ k : Fin 128, Ideal.div (Cert.Spec.segSum A (fun e => (A).x (ix2 (Cert.Spec.rowOf (A).src e) k)) n) (Cert.Spec.den A n)
          * (A).Wl (ix2 k o) := by
  rw [Read.val_main_v23_apply]
  refine Finset.sum_congr rfl fun k _ => ?_
  have hl : Read.lidx_main_v23 (ix2 n o) k = ix2 n k :=
    funext fun a => Fin.ext (by match a with | ⟨0, _⟩ => rfl | ⟨1, _⟩ => rfl)
  have hr : Read.ridx_main_v23 (ix2 n o) k = ix2 k o :=
    funext fun a => Fin.ext (by match a with | ⟨0, _⟩ => rfl | ⟨1, _⟩ => rfl)
  rw [hl, hr, stage22 x0 x1 x2 x3 x4 x5 x6 x7 x8 x9 x10 x11]; rfl

/-- The bias bl spread over the nodes. -/
theorem stage25 (n : Fin 100000) (o : Fin 64) : Read.val_main_v25 (F := Ideal) x4 (ix2 n o) = (A).bl (ix1 o) := by
  have h25 : Read.idx_main_v25 (ix2 n o) = ix2 (0 : Fin 1) o :=
    funext fun a => Fin.ext (by match a with | ⟨0, _⟩ => rfl | ⟨1, _⟩ => rfl)
  have h24 : Read.idx_main_v24 (ix2 (0 : Fin 1) o) = ix1 o :=
    funext fun a => Fin.ext (by match a with | ⟨0, _⟩ => rfl)
  rw [Read.val_main_v25_apply, h25, Read.val_main_v24_apply, h24]; rfl

/-- The node's own row mapped by Wr. -/
theorem stage27 (n : Fin 100000) (o : Fin 64) : Read.val_main_v27 (F := Ideal) x0 x5 (ix2 n o) = Cert.Spec.xr A n o := by
  rw [Read.val_main_v27_apply]
  unfold Cert.Spec.xr
  refine Finset.sum_congr rfl fun k _ => ?_
  have hl : Read.lidx_main_v27 (ix2 n o) k = ix2 n k :=
    funext fun a => Fin.ext (by match a with | ⟨0, _⟩ => rfl | ⟨1, _⟩ => rfl)
  have hr : Read.ridx_main_v27 (ix2 n o) k = ix2 k o :=
    funext fun a => Fin.ext (by match a with | ⟨0, _⟩ => rfl | ⟨1, _⟩ => rfl)
  rw [hl, hr]; rfl

/-- STAGE (i): the reference's pre-activation at (n, o) is the specification's average-first, map-second form. -/
theorem stage28 (n : Fin 100000) (o : Fin 64) :
    Read.val_main_v28 (F := Ideal) x0 x1 x3 x4 x5 (ix2 n o) = Cert.Spec.preR A n o := by
  rw [Read.val_main_v28_apply, Read.val_main_v26_apply, stage23 x0 x1 x2 x3 x4 x5 x6 x7 x8 x9 x10 x11,
    stage25 x0 x1 x2 x3 x4 x5 x6 x7 x8 x9 x10 x11, stage27 x0 x1 x2 x3 x4 x5 x6 x7 x8 x9 x10 x11]
  rfl

end Cert.ReferenceIdeal.RefValue

end
-- ==== Proof.RefValue2.lean ====
/-
  The reference's value, entry by entry — part 2: the edge gate and the edge contribution.

  Every edge e gets eaL e = ea e · We + be. The reference gathers the pre-activation row of the edge's target
  node (the row the target-row column names, clamped), joins it with eaL e into one 128-vector (catR: the first
  64 entries the gathered row, the last 64 eaL e), maps the joined vector by Wg and adds bg (logitR), spells the
  logistic function as 1 / (1 + exp (−t)) and multiplies the gate by eaL e (contribR).
-/
import proofs.«112606_j24051816857689_2_alg».proof.Proof.RefValue1

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable (x0 : (⟨S100000x128, .f32⟩ : BufTy).Contents (Elt Ideal)) (x1 : (⟨S2x1600000, .i32⟩ : BufTy).Contents (Elt Ideal))
  (x2 : (⟨S1600000x32, .f32⟩ : BufTy).Contents (Elt Ideal)) (x3 : (⟨S128x64, .f32⟩ : BufTy).Contents (Elt Ideal))
  (x4 : (⟨S64, .f32⟩ : BufTy).Contents (Elt Ideal)) (x5 : (⟨S128x64, .f32⟩ : BufTy).Contents (Elt Ideal))
  (x6 : (⟨S32x64, .f32⟩ : BufTy).Contents (Elt Ideal)) (x7 : (⟨S64, .f32⟩ : BufTy).Contents (Elt Ideal))
  (x8 : (⟨S128x64, .f32⟩ : BufTy).Contents (Elt Ideal)) (x9 x10 x11 : (⟨S64, .f32⟩ : BufTy).Contents (Elt Ideal))

local notation "A" => args x0 x1 x2 x3 x4 x5 x6 x7 x8 x9 x10 x11

/-- The edge attributes mapped by We plus be, at (e, o). -/
theorem stage32 (e : Fin 1600000) (o : Fin 64) :
    Read.val_main_v32 (F := Ideal) x2 x6 x7 (ix2 e o) = Cert.Spec.eaL A e o := by
  have h31 : Read.idx_main_v31 (ix2 e o) = ix2 (0 : Fin 1) o := funext fun a => Fin.ext (by match a with | ⟨0, _⟩ => rfl | ⟨1, _⟩ => rfl)
  have h30 : Read.idx_main_v30 (ix2 (0 : Fin 1) o) = ix1 o := funext fun a => Fin.ext (by match a with | ⟨0, _⟩ => rfl)
  rw [Read.val_main_v32_apply, Read.val_main_v29_apply, Read.val_main_v31_apply, h31, Read.val_main_v30_apply, h30]
  unfold Cert.Spec.eaL
  show (_ : EReal) + _ = _ + _
  refine congrArg₂ (· + ·) (Finset.sum_congr rfl fun k _ => ?_) rfl
  have hl : Read.lidx_main_v29 (ix2 e o) k = ix2 e k := funext fun a => Fin.ext (by match a with | ⟨0, _⟩ => rfl | ⟨1, _⟩ => rfl)
  have hr : Read.ridx_main_v29 (ix2 e o) k = ix2 k o := funext fun a => Fin.ext (by match a with | ⟨0, _⟩ => rfl | ⟨1, _⟩ => rfl)
  rw [hl, hr]; rfl

/-- The second gather at (e, j): the pre-activation j of the row the target-row column names for edge e. -/
theorem stage39 (e : Fin 1600000) (j : Fin 64) :
    Read.val_main_v39 (F := Ideal) x0 x1 x3 x4 x5 (ix2 e j) = Cert.Spec.preR A (Cert.Spec.rowOf (A).dstG e) j := by
  unfold Read.val_main_v39
  refine (Segments.gather_rows_apply_of_dims (N := 100000) (E := 1600000) (C := 64) (w := 32) (by norm_num)
    gather_S100000x64_S1600000x1_S1600000x64_1_0_n_n_0_1_164 rfl rfl rfl rfl rfl rfl rfl
    (Read.val_main_v28 (F := Ideal) x0 x1 x3 x4 x5) (Read.val_main_v38 (F := Ideal) x1) e j).trans ?_
  exact stage28 x0 x1 x2 x3 x4 x5 x6 x7 x8 x9 x10 x11 (Cert.Spec.rowOf (A).dstG e) j

/-- The joined 128-vector at (e, j): the gathered pre-activation for j < 64, eaL at j − 64 otherwise. -/
theorem stage40 (e : Fin 1600000) (j : Fin 128) :
    Read.val_main_v40 (F := Ideal) x0 x1 x2 x3 x4 x5 x6 x7 (ix2 e j) = Cert.Spec.catR A e j := by
  unfold Read.val_main_v40 Cert.Spec.catR
  by_cases h : j.val < 64
  · rw [dif_pos h]
    refine (concatenate_pair_apply_left (t := S1600000x128) (s₁ := S1600000x64) (s₂ := S1600000x64) (1 : Fin 2)
      (Read.val_main_v39 (F := Ideal) x0 x1 x3 x4 x5) (Read.val_main_v32 (F := Ideal) x2 x6 x7)
      concatenates_S1600000x64_S1600000x64_S1600000x128_d1 (ix2 e j) rfl (ix2 e (⟨j.val, h⟩ : Fin 64))
      (fun b => by match b with | ⟨0, _⟩ => rfl | ⟨1, _⟩ => rfl)).trans ?_
    exact stage39 x0 x1 x2 x3 x4 x5 x6 x7 x8 x9 x10 x11 e ⟨j.val, h⟩
  · rw [dif_neg h]
    have hj : j.val - 64 < 64 := by have := j.isLt; omega
    refine (concatenate_pair_apply_right (t := S1600000x128) (s₁ := S1600000x64) (s₂ := S1600000x64) (1 : Fin 2)
      (Read.val_main_v39 (F := Ideal) x0 x1 x3 x4 x5) (Read.val_main_v32 (F := Ideal) x2 x6 x7)
      concatenates_S1600000x64_S1600000x64_S1600000x128_d1 (ix2 e j) rfl rfl (ix2 e (⟨j.val - 64, hj⟩ : Fin 64))
      (fun b hb => by
        match b, hb with
        | ⟨0, _⟩, _ => rfl
        | ⟨1, _⟩, hb => exact absurd rfl hb)
      (by show (j.val - 64) + 64 = j.val; omega)).trans ?_
    exact stage32 x0 x1 x2 x3 x4 x5 x6 x7 x8 x9 x10 x11 e ⟨j.val - 64, hj⟩

/-- The gate's argument at (e, o): the joined vector mapped by Wg, plus bg. -/
theorem stage44 (e : Fin 1600000) (o : Fin 64) :
    Read.val_main_v44 (F := Ideal) x0 x1 x2 x3 x4 x5 x6 x7 x8 x9 (ix2 e o) = Cert.Spec.logitR A e o := by
  have h43 : Read.idx_main_v43 (ix2 e o) = ix2 (0 : Fin 1) o := funext fun a => Fin.ext (by match a with | ⟨0, _⟩ => rfl | ⟨1, _⟩ => rfl)
  have h42 : Read.idx_main_v42 (ix2 (0 : Fin 1) o) = ix1 o := funext fun a => Fin.ext (by match a with | ⟨0, _⟩ => rfl)
  rw [Read.val_main_v44_apply, Read.val_main_v41_apply, Read.val_main_v43_apply, h43, Read.val_main_v42_apply, h42]
  unfold Cert.Spec.logitR
  show (_ : EReal) + _ = _ + _
  refine congrArg₂ (· + ·) (Finset.sum_congr rfl fun k _ => ?_) rfl
  have hl : Read.lidx_main_v41 (ix2 e o) k = ix2 e k := funext fun a => Fin.ext (by match a with | ⟨0, _⟩ => rfl | ⟨1, _⟩ => rfl)
  have hr : Read.ridx_main_v41 (ix2 e o) k = ix2 k o := funext fun a => Fin.ext (by match a with | ⟨0, _⟩ => rfl | ⟨1, _⟩ => rfl)
  rw [hl, hr, stage40 x0 x1 x2 x3 x4 x5 x6 x7 x8 x9 x10 x11]; rfl

/-- STAGE (ii): the edge contribution at (e, o): the gate 1 / (1 + exp (−logit)) times eaL. -/
theorem stage51 (e : Fin 1600000) (o : Fin 64) :
    Read.val_main_v51 (F := Ideal) x0 x1 x2 x3 x4 x5 x6 x7 x8 x9 (ix2 e o) = Cert.Spec.contribR A e o := by
  rw [Read.val_main_v51_apply, Read.val_main_v50_apply, Read.val_main_v49_apply, Read.val_main_cst_7_apply,
    Read.val_main_v48_apply, Read.val_main_v47_apply, Read.val_main_cst_6_apply, Read.val_main_v46_apply,
    Read.val_main_v45_apply, stage44 x0 x1 x2 x3 x4 x5 x6 x7 x8 x9 x10 x11, stage32 x0 x1 x2 x3 x4 x5 x6 x7 x8 x9 x10 x11]
  unfold Cert.Spec.contribR
  simp only [Ideal.mulf_def, Ideal.hostDivf_def, Ideal.addf_def, Ideal.hostUnary_exp_def, Ideal.hostNegf_def,
    Ideal.negf_def, Ideal.ofBits_def]

end Cert.ReferenceIdeal.RefValue

end
-- ==== Proof.RefValue.lean ====
/-
  The reference's value, entry by entry — part 3: the node output and the column normalisation.

  The edge contributions are segment-summed into their target nodes and added to the pre-activation (outR).
  Each of the 64 columns is then centred by its mean over the 100000 nodes, scaled by gamma and by the inverse
  square root of its variance plus the guard, shifted by beta, doubled, and clipped below at the zero word; the
  reference multiplies gamma · (out − mean) first and the inverse deviation second (finR).
-/
import proofs.«112606_j24051816857689_2_alg».proof.Proof.RefValue2

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

variable (x0 : (⟨S100000x128, .f32⟩ : BufTy).Contents (Elt Ideal)) (x1 : (⟨S2x1600000, .i32⟩ : BufTy).Contents (Elt Ideal))
  (x2 : (⟨S1600000x32, .f32⟩ : BufTy).Contents (Elt Ideal)) (x3 : (⟨S128x64, .f32⟩ : BufTy).Contents (Elt Ideal))
  (x4 : (⟨S64, .f32⟩ : BufTy).Contents (Elt Ideal)) (x5 : (⟨S128x64, .f32⟩ : BufTy).Contents (Elt Ideal))
  (x6 : (⟨S32x64, .f32⟩ : BufTy).Contents (Elt Ideal)) (x7 : (⟨S64, .f32⟩ : BufTy).Contents (Elt Ideal))
  (x8 : (⟨S128x64, .f32⟩ : BufTy).Contents (Elt Ideal)) (x9 x10 x11 : (⟨S64, .f32⟩ : BufTy).Contents (Elt Ideal))

local notation "A" => args x0 x1 x2 x3 x4 x5 x6 x7 x8 x9 x10 x11

/-- The second segment sum at (n, o): the contributions of the edges into n. -/
theorem stage54 (n : Fin 100000) (o : Fin 64) :
    Read.val_main_v54 (F := Ideal) x0 x1 x2 x3 x4 x5 x6 x7 x8 x9 (ix2 n o)
      = Cert.Spec.segSum A (fun e => Cert.Spec.contribR A e o) n := by
  unfold Read.val_main_v54
  refine (ScatterRows.scatterAdd_rows2_apply_of_dims (N := 100000) (E := 1600000) (C := 64) (w := 32)
    scatter_S100000x64_S1600000x1_S1600000x64_1_0_0_1 rfl rfl rfl rfl
    (Read.val_main_v52 (F := Ideal)) (Read.val_main_v53 (F := Ideal) x1)
    (Read.val_main_v51 (F := Ideal) x0 x1 x2 x3 x4 x5 x6 x7 x8 x9) n o).trans ?_
  unfold Cert.Spec.segSum
  refine congrArg₂ (· + ·) ?_ (Finset.sum_congr rfl fun e _ => ?_)
  · rw [Read.val_main_v52_apply, Read.val_main_cst_8_apply]; rfl
  · rw [stage51 x0 x1 x2 x3 x4 x5 x6 x7 x8 x9 x10 x11]; rfl

/-- STAGE (iii): the node output at (n, o). -/
theorem stage55 (n : Fin 100000) (o : Fin 64) :
    Read.val_main_v55 (F := Ideal) x0 x1 x2 x3 x4 x5 x6 x7 x8 x9 (ix2 n o) = Cert.Spec.outR A n o := by
  rw [Read.val_main_v55_apply, stage28 x0 x1 x2 x3 x4 x5 x6 x7 x8 x9 x10 x11, stage54 x0 x1 x2 x3 x4 x5 x6 x7 x8 x9 x10 x11]; rfl

/-- The column mean. -/
theorem stage58 (o : Fin 64) :
    Read.val_main_v58 (F := Ideal) x0 x1 x2 x3 x4 x5 x6 x7 x8 x9 (ix1 o) = Cert.Spec.mean (Cert.Spec.outR A) o := by
  rw [Read.val_main_v58_apply, Read.val_main_v56_apply, Read.val_main_cst_9_apply, Read.val_main_v57_apply,
    Read.val_main_cst_10_apply]
  unfold Cert.Spec.mean
  show Ideal.div ((_ : EReal) + _) _ = Ideal.div (_ + _) _
  refine congrArg₂ Ideal.div (congrArg₂ (· + ·) rfl (Finset.sum_congr rfl fun k _ => ?_)) rfl
  have h56 : Read.idx_main_v56 (ix1 o) k = ix2 k o := funext fun a => Fin.ext (by match a with | ⟨0, _⟩ => rfl | ⟨1, _⟩ => rfl)
  rw [h56, stage55 x0 x1 x2 x3 x4 x5 x6 x7 x8 x9 x10 x11]

/-- The column mean spread over the nodes (the reference spreads it twice: for the variance and for the result). -/
theorem stage60 (n : Fin 100000) (o : Fin 64) :
    Read.val_main_v60 (F := Ideal) x0 x1 x2 x3 x4 x5 x6 x7 x8 x9 (ix2 n o) = Cert.Spec.mean (Cert.Spec.outR A) o := by
  have h60 : Read.idx_main_v60 (ix2 n o) = ix2 (0 : Fin 1) o := funext fun a => Fin.ext (by match a with | ⟨0, _⟩ => rfl | ⟨1, _⟩ => rfl)
  have h59 : Read.idx_main_v59 (ix2 (0 : Fin 1) o) = ix1 o := funext fun a => Fin.ext (by match a with | ⟨0, _⟩ => rfl)
  rw [Read.val_main_v60_apply, h60, Read.val_main_v59_apply, h59, stage58 x0 x1 x2 x3 x4 x5 x6 x7 x8 x9 x10 x11]

theorem stage67 (n : Fin 100000) (o : Fin 64) :
    Read.val_main_v67 (F := Ideal) x0 x1 x2 x3 x4 x5 x6 x7 x8 x9 (ix2 n o) = Cert.Spec.mean (Cert.Spec.outR A) o := by
  have h67 : Read.idx_main_v67 (ix2 n o) = ix2 (0 : Fin 1) o := funext fun a => Fin.ext (by match a with | ⟨0, _⟩ => rfl | ⟨1, _⟩ => rfl)
  have h66 : Read.idx_main_v66 (ix2 (0 : Fin 1) o) = ix1 o := funext fun a => Fin.ext (by match a with | ⟨0, _⟩ => rfl)
  rw [Read.val_main_v67_apply, h67, Read.val_main_v66_apply, h66, stage58 x0 x1 x2 x3 x4 x5 x6 x7 x8 x9 x10 x11]

/-- The column variance. -/
theorem stage65 (o : Fin 64) :
    Read.val_main_v65 (F := Ideal) x0 x1 x2 x3 x4 x5 x6 x7 x8 x9 (ix1 o) = Cert.Spec.var (Cert.Spec.outR A) o := by
  rw [Read.val_main_v65_apply, Read.val_main_v63_apply, Read.val_main_cst_11_apply, Read.val_main_v64_apply,
    Read.val_main_cst_12_apply]
  unfold Cert.Spec.var
  show Ideal.div ((_ : EReal) + _) _ = Ideal.div (_ + _) _
  refine congrArg₂ Ideal.div (congrArg₂ (· + ·) rfl (Finset.sum_congr rfl fun k _ => ?_)) rfl
  have h63 : Read.idx_main_v63 (ix1 o) k = ix2 k o := funext fun a => Fin.ext (by match a with | ⟨0, _⟩ => rfl | ⟨1, _⟩ => rfl)
  rw [h63, Read.val_main_v62_apply, Read.val_main_v61_apply, stage55 x0 x1 x2 x3 x4 x5 x6 x7 x8 x9 x10 x11, stage60 x0 x1 x2 x3 x4 x5 x6 x7 x8 x9 x10 x11]
  rfl

/-- The inverse deviation of the column. -/
theorem stage74 (o : Fin 64) :
    Read.val_main_v74 (F := Ideal) x0 x1 x2 x3 x4 x5 x6 x7 x8 x9 (ix1 o) = Cert.Spec.invStd (Cert.Spec.outR A) o := by
  rw [Read.val_main_v74_apply, Read.val_main_v73_apply, stage65 x0 x1 x2 x3 x4 x5 x6 x7 x8 x9 x10 x11, Read.val_main_v72_apply,
    Read.val_main_cst_13_apply]
  rfl

theorem stage76 (n : Fin 100000) (o : Fin 64) :
    Read.val_main_v76 (F := Ideal) x0 x1 x2 x3 x4 x5 x6 x7 x8 x9 (ix2 n o) = Cert.Spec.invStd (Cert.Spec.outR A) o := by
  have h76 : Read.idx_main_v76 (ix2 n o) = ix2 (0 : Fin 1) o := funext fun a => Fin.ext (by match a with | ⟨0, _⟩ => rfl | ⟨1, _⟩ => rfl)
  have h75 : Read.idx_main_v75 (ix2 (0 : Fin 1) o) = ix1 o := funext fun a => Fin.ext (by match a with | ⟨0, _⟩ => rfl)
  rw [Read.val_main_v76_apply, h76, Read.val_main_v75_apply, h75, stage74 x0 x1 x2 x3 x4 x5 x6 x7 x8 x9 x10 x11]

/-- gamma and beta spread over the nodes. -/
theorem stage70 (n : Fin 100000) (o : Fin 64) : Read.val_main_v70 (F := Ideal) x10 (ix2 n o) = (A).gamma (ix1 o) := by
  have h70 : Read.idx_main_v70 (ix2 n o) = ix2 (0 : Fin 1) o := funext fun a => Fin.ext (by match a with | ⟨0, _⟩ => rfl | ⟨1, _⟩ => rfl)
  have h69 : Read.idx_main_v69 (ix2 (0 : Fin 1) o) = ix1 o := funext fun a => Fin.ext (by match a with | ⟨0, _⟩ => rfl)
  rw [Read.val_main_v70_apply, h70, Read.val_main_v69_apply, h69]; rfl

theorem stage79 (n : Fin 100000) (o : Fin 64) : Read.val_main_v79 (F := Ideal) x11 (ix2 n o) = (A).beta (ix1 o) := by
  have h79 : Read.idx_main_v79 (ix2 n o) = ix2 (0 : Fin 1) o := funext fun a => Fin.ext (by match a with | ⟨0, _⟩ => rfl | ⟨1, _⟩ => rfl)
  have h78 : Read.idx_main_v78 (ix2 (0 : Fin 1) o) = ix1 o := funext fun a => Fin.ext (by match a with | ⟨0, _⟩ => rfl)
  rw [Read.val_main_v79_apply, h79, Read.val_main_v78_apply, h78]; rfl

/-- STAGE (iv), THE REFERENCE'S RESULT at (n, o): the normalised, scaled, shifted, doubled and clipped output. -/
theorem result_apply (n : Fin 100000) (o : Fin 64) :
    Read.val_main_v83 (F := Ideal) x0 x1 x2 x3 x4 x5 x6 x7 x8 x9 x10 x11 (ix2 n o)
      = Cert.Spec.finR A (Cert.Spec.outR A) n o := by
  rw [Read.val_main_v83_apply, Read.val_main_v82_apply, Read.val_main_v81_apply, Read.val_main_cst_14_apply,
    Read.val_main_v80_apply, Read.val_main_v77_apply, Read.val_main_v71_apply, stage70 x0 x1 x2 x3 x4 x5 x6 x7 x8 x9 x10 x11, Read.val_main_v68_apply,
    stage55 x0 x1 x2 x3 x4 x5 x6 x7 x8 x9 x10 x11, stage67 x0 x1 x2 x3 x4 x5 x6 x7 x8 x9 x10 x11, stage76 x0 x1 x2 x3 x4 x5 x6 x7 x8 x9 x10 x11, stage79 x0 x1 x2 x3 x4 x5 x6 x7 x8 x9 x10 x11, Read.val_main_call0_v0_apply,
    Read.val_main_call0_cst_apply]
  rfl

end Cert.ReferenceIdeal.RefValue

end
-- ==== Proof.LibRealSums.lean ====
/-
  Finite sums of real numbers inside the extended reals, and a quotient moved across such a sum.

  General facts, with no program in sight: `Fin' x` says that the extended real `x` is a real; a finite sum and a sum of two such are
  again real (`fin'_sum`, `fin'_add`), the coercion of a finite real sum is the sum of the coercions (`coe_sum`), the inverse of any
  extended real is a real (`fin'_inv`), and `div_sum_mul`: for real `a c`, `h c` and any `D ≠ 0`,
  `(∑ c, a c · h c) / D = ∑ c, (a c / D) · h c` for the extended reals' own division.  The use: a row normalised before a
  matrix product against the same row normalised after it.

  One program divides every entry of a row of `a` by the row's total `D` and then takes the row's inner product with a
  column of `h`; the other takes the inner product first and divides once.  On the extended reals a quotient by a nonzero
  `D` is the product with the inverse of `D`, which is always a real, and a real factor moves across a finite sum of REAL
  terms — but not across a sum that may hold both infinities, which is why every entry of `a` and `h` is asked to be a real here.
  (Division by zero is not a product at all on the extended reals, hence `D ≠ 0`.)
-/
import Idealize.ShloMosaic.PureOps.Ideal

noncomputable section

open scoped BigOperators

namespace Cert.Lib.RealSums

open Idealize.ShloMosaic

/-- "Neither infinity": the extended real is a real number. -/
def Fin' (x : EReal) : Prop := x ≠ ⊤ ∧ x ≠ ⊥

theorem Fin'.exists_real {x : EReal} (h : Fin' x) : ∃ r : ℝ, x = (r : EReal) :=
  ⟨x.toReal, (EReal.coe_toReal h.1 h.2).symm⟩

theorem fin'_coe (r : ℝ) : Fin' (r : EReal) := ⟨EReal.coe_ne_top r, EReal.coe_ne_bot r⟩

/-- The coercion of a finite sum of reals is the sum of the coercions. -/
theorem coe_sum {ι : Type*} (s : Finset ι) (f : ι → ℝ) : ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- A finite sum of reals is a real. -/
theorem fin'_sum {ι : Type*} (s : Finset ι) (a : ι → EReal) (ha : ∀ c, Fin' (a c)) : Fin' (∑ c ∈ s, a c) := by
  choose a' ha' using fun c => (ha c).exists_real
  have : (∑ c ∈ s, a c) = ((∑ c ∈ s, a' c : ℝ) : EReal) := by
    rw [coe_sum]; exact Finset.sum_congr rfl fun c _ => ha' c
  rw [this]; exact fin'_coe _

theorem fin'_add {x y : EReal} (hx : Fin' x) (hy : Fin' y) : Fin' (x + y) := by
  obtain ⟨a, rfl⟩ := hx.exists_real
  obtain ⟨b, rfl⟩ := hy.exists_real
  rw [← EReal.coe_add]; exact fin'_coe _

theorem fin'_zero : Fin' (0 : EReal) := by
  rw [← EReal.coe_zero]; exact fin'_coe _

/-- The inverse of an extended real is never an infinity (the inverses of both infinities, and of zero, are zero). -/
theorem fin'_inv (D : EReal) : Fin' D⁻¹ := by
  induction D using EReal.rec
  · rw [EReal.inv_bot]; exact fin'_zero
  · rw [← EReal.coe_inv]; exact fin'_coe _
  · rw [EReal.inv_top]; exact fin'_zero

/-- THE LAW. For real entries and a nonzero divisor, dividing the inner product is the inner product of the divided entries:
    off zero a quotient is the product with the divisor's inverse, which is a real, and a real factor moves across a sum of reals. -/
theorem div_sum_mul {ι : Type*} (s : Finset ι) (a h : ι → EReal) (D : EReal)
    (ha : ∀ c, Fin' (a c)) (hh : ∀ c, Fin' (h c)) (hD0 : D ≠ 0) :
    Ideal.div (∑ c ∈ s, a c * h c) D = ∑ c ∈ s, Ideal.div (a c) D * h c := by
  obtain ⟨e, he⟩ := (fin'_inv D).exists_real
  choose a' ha' using fun c => (ha c).exists_real
  choose h' hh' using fun c => (hh c).exists_real
  have e1 : (∑ c ∈ s, a c * h c) = ((∑ c ∈ s, a' c * h' c : ℝ) : EReal) := by
    rw [coe_sum]; exact Finset.sum_congr rfl fun c _ => by rw [ha' c, hh' c, EReal.coe_mul]
  have e2 : (∑ c ∈ s, Ideal.div (a c) D * h c) = ((∑ c ∈ s, a' c * e * h' c : ℝ) : EReal) := by
    rw [coe_sum]
    exact Finset.sum_congr rfl fun c _ => by rw [Ideal.div, if_neg hD0, he, ha' c, hh' c, EReal.coe_mul, EReal.coe_mul]
  rw [e1, e2, Ideal.div, if_neg hD0, he, ← EReal.coe_mul, Finset.sum_mul]
  exact congrArg _ (Finset.sum_congr rfl fun c _ => by ring)

end Cert.Lib.RealSums

end
-- ==== Proof.Algebra.lean ====
/-
  The two ways of spelling the layer agree entry by entry, over the extended reals, once the node features and the
  first weight matrix are real.

  * The float words for 0 and 1 denote 0 and 1.
  * The divisor of the neighbour mean is at least 1, so it is not 0.
  * A segment sum of inner products is the inner product of the segment sums (`segSum_sum_mul`): a swap of two finite
    sums and distributivity, valid on REAL entries (the extended reals do not distribute in general).  With the
    quotient moved across the inner product (`div_sum_mul`) this gives `pre_eq`: map-then-average is average-then-map.
  * A sum over 128 indices is the sum over the first 64 plus the sum over the last 64 (`sum_split`); this and
    `pre_eq` give `logit_eq`.
  * The logistic function is 1 / (1 + exp (−t)) by definition (`contrib_eq`), so the two outputs agree (`out_eq`),
    and the last step is associativity of the product (`fin_eq`).
-/
import proofs.«112606_j24051816857689_2_alg».proof.Proof.Spec
import proofs.«112606_j24051816857689_2_alg».proof.Proof.LibRealSums

noncomputable section

open scoped BigOperators

namespace Cert.Spec

open Idealize.ShloMosaic Idealize.ShloMosaic.ValueIdx Cert.Lib.RealSums

/-! ## The float words -/

/-- The word `+0.0` denotes 0. -/
theorem zero32_eq : zero32 = 0 := by
  simp [Ideal.ofBits, Ideal.ieee]

/-- The word `1.0` denotes 1. -/
theorem one32_eq : one32 = 1 := by
  simp [Ideal.ofBits, Ideal.ieee, -EReal.coe_mul]; norm_num

/-! ## The divisor -/

/-- The divisor of the mean is at least 1, hence not 0. -/
theorem den_ne_zero (a : Args) (n : Fin 100000) : den a n ≠ 0 := by
  have h : (1 : EReal) ≤ den a n := by
    unfold den; rw [one32_eq]; exact le_max_right _ _
  exact (lt_of_lt_of_le zero_lt_one h).ne'

/-! ## Segment sums of real entries -/

/-- A segment sum of reals is a real. -/
theorem segSum_fin (a : Args) (u : Fin 1600000 → EReal) (hu : ∀ e, Fin' (u e)) (n : Fin 100000) :
    Fin' (segSum a u n) := by
  unfold segSum
  rw [zero32_eq]
  refine fin'_add fin'_zero (fin'_sum _ _ fun e => ?_)
  split_ifs
  · exact hu e
  · exact fin'_zero

/-- On real entries, a conditional sum of inner products is the inner product of the conditional sums: both are the
    double sum over the `e` that satisfy the condition and over `k`.  Distributivity and a swap of two finite sums, in the
    reals. -/
theorem sum_ite_sum_mul {ι κ : Type*} (s : Finset ι) (t : Finset κ) (c : ι → Prop) [DecidablePred c]
    (x : ι → κ → EReal) (w : κ → EReal) (hx : ∀ e k, Fin' (x e k)) (hw : ∀ k, Fin' (w k)) :
    (∑ e ∈ s, if c e then ∑ k ∈ t, x e k * w k else 0) = ∑ k ∈ t, (∑ e ∈ s, if c e then x e k else 0) * w k := by
  choose X hX using fun e k => (hx e k).exists_real
  choose W hW using fun k => (hw k).exists_real
  -- the left side is the coercion of a real double sum
  have hL : (∑ e ∈ s, if c e then ∑ k ∈ t, x e k * w k else 0)
      = ((∑ e ∈ s, if c e then ∑ k ∈ t, X e k * W k else 0 : ℝ) : EReal) := by
    rw [coe_sum]
    refine Finset.sum_congr rfl fun e _ => ?_
    split_ifs
    · rw [coe_sum]; exact Finset.sum_congr rfl fun k _ => by rw [hX e k, hW k, EReal.coe_mul]
    · exact EReal.coe_zero.symm
  -- so is the right side
  have hR : (∑ k ∈ t, (∑ e ∈ s, if c e then x e k else 0) * w k)
      = ((∑ k ∈ t, (∑ e ∈ s, if c e then X e k else 0) * W k : ℝ) : EReal) := by
    rw [coe_sum]
    refine Finset.sum_congr rfl fun k _ => ?_
    rw [EReal.coe_mul, coe_sum, hW k]
    refine congrArg (fun z : EReal => z * (W k : EReal)) ?_
    refine Finset.sum_congr rfl fun e _ => ?_
    split_ifs
    · exact hX e k
    · exact EReal.coe_zero.symm
  rw [hL, hR]
  refine EReal.coe_eq_coe_iff.mpr ?_
  -- in the reals: distribute, swap the two sums, and split on the condition
  simp only [Finset.sum_mul]
  rw [Finset.sum_comm]
  refine Finset.sum_congr rfl fun e _ => ?_
  split_ifs
  · rfl
  · simp only [zero_mul, Finset.sum_const_zero]

/-- On real entries, the segment sum of the inner products `∑ k, x e k · w k` is the inner product of the segment sums. -/
theorem segSum_sum_mul (a : Args) (x : Fin 1600000 → Fin 128 → EReal) (w : Fin 128 → EReal)
    (hx : ∀ e k, Fin' (x e k)) (hw : ∀ k, Fin' (w k)) (n : Fin 100000) :
    segSum a (fun e => ∑ k : Fin 128, x e k * w k) n = ∑ k : Fin 128, segSum a (fun e => x e k) n * w k := by
  unfold segSum
  rw [zero32_eq]
  simp only [zero_add]
  exact sum_ite_sum_mul Finset.univ Finset.univ (fun e : Fin 1600000 => (a.dst (ix2 e (0 : Fin 1))).toInt = (n.val : ℤ))
    x w hx hw

/-! ## Map-then-average is average-then-map -/

theorem pre_eq (a : Args) (hx : ∀ i, Fin' (a.x i)) (hWl : ∀ i, Fin' (a.Wl i)) (n : Fin 100000) (o : Fin 64) :
    preK a n o = preR a n o := by
  have key : Ideal.div (segSum a (fun e => xl a (rowOf a.src e) o) n) (den a n)
      = ∑ k : Fin 128, Ideal.div (segSum a (fun e => a.x (ix2 (rowOf a.src e) k)) n) (den a n) * a.Wl (ix2 k o) := by
    refine Eq.trans ?_ (div_sum_mul Finset.univ (fun k : Fin 128 => segSum a (fun e => a.x (ix2 (rowOf a.src e) k)) n)
      (fun k : Fin 128 => a.Wl (ix2 k o)) (den a n)
      (fun k => segSum_fin a _ (fun e => hx _) n) (fun k => hWl _) (den_ne_zero a n))
    refine congrArg (fun z : EReal => Ideal.div z (den a n)) ?_
    exact segSum_sum_mul a (fun e k => a.x (ix2 (rowOf a.src e) k)) (fun k => a.Wl (ix2 k o))
      (fun e k => hx _) (fun k => hWl _) n
  unfold preK preR
  rw [key]

/-! ## The gate -/

/-- A sum over 128 indices is the sum over the first 64 plus the sum over the last 64. -/
theorem sum_split (f : Fin 128 → EReal) :
    ∑ j : Fin 128, f j = (∑ j : Fin 64, f (wgTop j)) + ∑ j : Fin 64, f (wgBot j) :=
  Fin.sum_univ_add (a := 64) (b := 64) f

theorem logit_eq (a : Args) (hx : ∀ i, Fin' (a.x i)) (hWl : ∀ i, Fin' (a.Wl i)) (e : Fin 1600000) (o : Fin 64) :
    logitK a e o = logitR a e o := by
  have h1 : ∀ j : Fin 64, catR a e (wgTop j) = preK a (rowOf a.dstG e) j := by
    intro j
    have hj : (wgTop j).val < 64 := j.isLt
    have hjj : (⟨(wgTop j).val, hj⟩ : Fin 64) = j := Fin.ext rfl
    unfold catR
    rw [dif_pos hj, hjj, pre_eq a hx hWl]
  have h2 : ∀ j : Fin 64, catR a e (wgBot j) = eaL a e j := by
    intro j
    have hj : ¬ (wgBot j).val < 64 := by
      show ¬ 64 + j.val < 64
      omega
    unfold catR
    have hjj : (⟨(wgBot j).val - 64, by omega⟩ : Fin 64) = j := by
      apply Fin.ext
      show 64 + j.val - 64 = j.val
      omega
    rw [dif_neg hj, hjj]
  unfold logitK logitR
  rw [sum_split (fun j => catR a e j * a.Wg (ix2 j o))]
  simp only [h1, h2]

theorem contrib_eq (a : Args) (hx : ∀ i, Fin' (a.x i)) (hWl : ∀ i, Fin' (a.Wl i)) (e : Fin 1600000) (o : Fin 64) :
    contribK a e o = contribR a e o := by
  unfold contribK contribR
  rw [logit_eq a hx hWl, one32_eq]
  rfl

theorem out_eq (a : Args) (hx : ∀ i, Fin' (a.x i)) (hWl : ∀ i, Fin' (a.Wl i)) : outK a = outR a := by
  funext n o
  have hc : (fun e => contribK a e o) = (fun e => contribR a e o) := funext fun e => contrib_eq a hx hWl e o
  unfold outK outR
  rw [pre_eq a hx hWl, hc]

/-! ## The normalised output -/

theorem fin_eq (a : Args)
    (hx : ∀ i, Cert.Lib.RealSums.Fin' (a.x i)) (hWl : ∀ i, Cert.Lib.RealSums.Fin' (a.Wl i))
    (n : Fin 100000) (o : Fin 64) :
    finK a (outK a) n o = finR a (outR a) n o := by
  rw [out_eq a hx hWl]
  unfold finK finR
  rw [mul_assoc]

end Cert.Spec

end
-- ==== Proof.Finite.lean ====
/-
  FINITENESS FROM THE PRECONDITION. The precondition says, of each float argument, that the comparison |x| < +∞ holds at
  every entry (one bit per entry), reduced by "and" over all axes to a single bit, and that the eleven bits so obtained,
  and-ed together, give 1. An "and" that is 1 has both operands 1, so each argument's bit is 1; a reduction by "and" into
  a single result that is 1 met only 1s, so the comparison holds at every entry; and on the extended reals
  |x| = max x (-x) is +∞ exactly at x = +∞ and x = -∞, so |x| < +∞ says that x is a real number. Only the first
  argument (100000 × 128) and the fourth (128 × 64) are read off here.
-/
import proofs.«112606_j24051816857689_2_alg».proof.Pre_finite_inputs
import proofs.«112606_j24051816857689_2_alg».proof.Proof.Gen.Pre_finite_inputs
import proofs.«112606_j24051816857689_2_alg».proof.Proof.LibRealSums
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs Cert.Lib.RealSums

/-- The scalar shape has one index. -/
instance subsingleton_scalar_idx : Subsingleton S_.Idx := ⟨fun a b => funext fun d => d.elim0⟩

/-- The pattern 0x7F800000 denotes +∞. -/
theorem inf_bits : Ideal.ofBits .f32 0x7F800000#32 = (⊤ : EReal) := by simp [Ideal.ofBits, Ideal.ieee]

/-- One entry: if the comparison |x| < +∞ answers 1 then x is a real number (|+∞| = |-∞| = +∞). -/
theorem fin'_of_bit (x : EReal)
    (h : Ideal.cmp .olt (max x (-x)) (Ideal.ofBits .f32 0x7F800000#32) = 1#1) : Fin' x := by
  rw [inf_bits] at h
  have hlt : max x (-x) < ⊤ := by
    by_contra hn
    simp [Ideal.cmp, hn] at h
  constructor
  · intro hx; subst hx; simp at hlt
  · intro hx; subst hx; simp at hlt

/-- One argument: if "every entry has |x| < +∞", reduced by "and" over all axes, is 1, then every entry is a real. -/
theorem all_fin' {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : Fin' (a i) :=
  fin'_of_bit (a i) (Host.reduce_andi_all _ _ hr hu ix0 e i)

theorem of_pre [Cert.Pre_finite_inputs.Facts]
    (a0 : FVec Ideal S100000x128 .f32) (a1 : IVec S2x1600000 32) (a2 : FVec Ideal S1600000x32 .f32)
    (a3 : FVec Ideal S128x64 .f32) (a4 : FVec Ideal S64 .f32) (a5 : FVec Ideal S128x64 .f32) (a6 : FVec Ideal S32x64 .f32)
    (a7 : FVec Ideal S64 .f32) (a8 : FVec Ideal S128x64 .f32) (a9 : FVec Ideal S64 .f32) (a10 : FVec Ideal S64 .f32)
    (a11 : FVec Ideal S64 .f32)
    (h : Cert.Pre_finite_inputs.fn (F := Ideal) a0 a1 a2 a3 a4 a5 a6 a7 a8 a9 a10 a11 = fun _ => 1#1) :
    (∀ i, Cert.Lib.RealSums.Fin' (a0 i)) ∧ (∀ i, Cert.Lib.RealSums.Fin' (a3 i)) := by
  have e := congrFun h ix0
  unfold Cert.Pre_finite_inputs.fn Cert.Pre_finite_inputs.fn_part1 Cert.Pre_finite_inputs.fn_part2
    Cert.Pre_finite_inputs.fn_part3 at e
  dsimp only at e
  simp only [andi, IntOp.andi_eq_one] at e
  obtain ⟨⟨⟨⟨⟨⟨⟨⟨⟨⟨h0, -⟩, h3⟩, -⟩, -⟩, -⟩, -⟩, -⟩, -⟩, -⟩, -⟩ := e
  exact ⟨all_fin' a0 _ _ _ h0, all_fin' a3 _ _ _ h3⟩

end Cert.Finite

end
-- ==== Proof.lean ====
/-
  The certificate of a graph layer: a neighbour mean with two linear maps, an edge gate, a segment sum, a column
  normalisation, a doubling and a clip at zero — computed by four pipelined kernels among host gathers and segment
  sums, against the same layer written as plain array operations.

  The three frames are the generated frame proofs of the two printed kernel programs and the reference's generated run
  with its result dropped.  The idealization rewrote nothing, so `preserves` is `True`.

  `algebraic`: at the ideal instance the kernel program's result is `Spec.finK` of `Spec.outK` of its launch arrays
  (the run with its result named, and the buffers followed through the four regions), the reference's result is
  `Spec.finR` of `Spec.outR` of the same arrays (its generated run read operation by operation), the two argument
  records are the same record, and the two functions agree on real feature and weight entries (the algebra module:
  a finite sum and a division by a non-zero real commute with a linear map; a sum over 128 splits into two sums over
  64; the logistic function is 1 / (1 + exp (−t)); a product of three factors re-associates).  The precondition gives
  exactly that the entries are real.
-/
import proofs.«112606_j24051816857689_2_alg».proof.Defs
import proofs.«112606_j24051816857689_2_alg».proof.Proof.Gen.Kernel
import proofs.«112606_j24051816857689_2_alg».proof.Proof.Gen.Kernel.Skeleton
import proofs.«112606_j24051816857689_2_alg».proof.Proof.Gen.Kernel.Launch
import proofs.«112606_j24051816857689_2_alg».proof.Proof.Gen.Kernel.Points
import proofs.«112606_j24051816857689_2_alg».proof.Proof.Gen.Kernel.Frame
import proofs.«112606_j24051816857689_2_alg».proof.Proof.Gen.KernelIdeal
import proofs.«112606_j24051816857689_2_alg».proof.Proof.Gen.KernelIdeal.Skeleton
import proofs.«112606_j24051816857689_2_alg».proof.Proof.Gen.KernelIdeal.Launch
import proofs.«112606_j24051816857689_2_alg».proof.Proof.Gen.KernelIdeal.Points
import proofs.«112606_j24051816857689_2_alg».proof.Proof.Gen.KernelIdeal.Frame
import proofs.«112606_j24051816857689_2_alg».proof.Proof.Gen.ReferenceIdeal
import proofs.«112606_j24051816857689_2_alg».proof.Proof.Gen.ReferenceIdeal.Run
import proofs.«112606_j24051816857689_2_alg».proof.Proof.Gen.ReferenceIdeal.Read
import proofs.«112606_j24051816857689_2_alg».proof.Proof.Gen.Pre_finite_inputs
import proofs.«112606_j24051816857689_2_alg».proof.Proof.KernelRun
import proofs.«112606_j24051816857689_2_alg».proof.Proof.KChainB
import proofs.«112606_j24051816857689_2_alg».proof.Proof.RefValue
import proofs.«112606_j24051816857689_2_alg».proof.Proof.Algebra
import proofs.«112606_j24051816857689_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs' argument records are one record: the three index columns are spelt by the same operations. -/
theorem args_eq (a0 : FVec Ideal Cert.KernelIdeal.S100000x128 .f32) (a1 : IVec Cert.KernelIdeal.S2x1600000 32)
    (a2 : FVec Ideal Cert.KernelIdeal.S1600000x32 .f32) (a3 : FVec Ideal Cert.KernelIdeal.S128x64 .f32)
    (a4 : FVec Ideal Cert.KernelIdeal.S64 .f32) (a5 : FVec Ideal Cert.KernelIdeal.S128x64 .f32)
    (a6 : FVec Ideal Cert.KernelIdeal.S32x64 .f32) (a7 : FVec Ideal Cert.KernelIdeal.S64 .f32)
    (a8 : FVec Ideal Cert.KernelIdeal.S128x64 .f32) (a9 a10 a11 : FVec Ideal Cert.KernelIdeal.S64 .f32) :
    Cert.ReferenceIdeal.RefValue.args a0 a1 a2 a3 a4 a5 a6 a7 a8 a9 a10 a11
      = Cert.KernelIdeal.Val.args a0 a1 a2 a3 a4 a5 a6 a7 a8 a9 a10 a11 := rfl

/-- At the ideal instance both programs end, from memories that agree on the arguments, with the same result. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v59),
    Cert.KernelIdeal.Val.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11⟩ := hagree c
  rw [Cert.ReferenceIdeal.Read.val_main_v83_eq, g0, g1, g2, g3, g4, g5, g6, g7, g8, g9, g10, g11]
  have hfin := Cert.Finite.of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (hpre c)
  funext i
  obtain ⟨n, o, rfl⟩ : ∃ (n : Fin 100000) (o : Fin 64), i = ix2 n o := ⟨i 0, i 1, eq_ix2 i⟩
  rw [Cert.ReferenceIdeal.RefValue.result_apply, args_eq]
  exact ((Cert.KernelIdeal.Val.w8_v59 m ρ c n o).trans
    (Cert.Spec.fin_eq (Cert.KernelIdeal.Val.A m c) hfin.1 hfin.2 n o)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
